-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x128 : Shape := ⟨3, ![128, 512, 128]⟩
abbrev S512x128 : Shape := ⟨2, ![512, 128]⟩
abbrev S512 : Shape := ⟨1, ![512]⟩
abbrev S128x512 : Shape := ⟨2, ![128, 512]⟩
abbrev S128 : Shape := ⟨1, ![128]⟩
abbrev S_ : Shape := ⟨0, ![]⟩

class Facts : Prop where
  bcast_S_S128x512x128 : S_.BroadcastsInDim S128x512x128 (![] : Fin 0 → Fin S128x512x128.rank)
  reducesTo_S128x512x128_S_d0_1_2 : S128x512x128.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S512 .f32) (main_arg12 : FVec F S512 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg7 : FVec F S512x128 .f32) (main_arg8 : FVec F S512 .f32) (main_arg9 : FVec F S128x512 .f32) (main_arg10 : FVec F S128 .f32) (main_arg11 : FVec F S512 .f32) (main_arg12 : FVec F S512 .f32) (main_v33 : IVec S_ 1) : IVec S_ 1 :=
  let main_v34 : FVec F S512x128 .f32 := Host.absf main_arg7
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S128x512 .f32 := Host.absf main_arg9
  let main_cst_16 : FVec F S_ .f32 := constant S_ .f32 0x7F800000#32
  let main_v45 : FVec F S128x512 .f32 := broadcastInDim S128x512 ![] bcast_S_S128x512 main_cst_16
  let main_v46 : IVec S128x512 1 := cmpf .olt main_v44 main_v45
  let main_c_17 : IVec S_ 1 := constantI S_ 1 1#1
  let main_v47 : IVec S_ 1 := (fun x v => Host.reduce IntOp.andi x v reducesTo_S128x512_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S512 .f32) (main_arg5 : FVec F S512x128 .f32) (main_arg6 : FVec F S512 .f32) (main_arg7 : FVec F S512x128 .f32) (main_arg8 : FVec F S512 .f32) (main_arg9 : FVec F S128x512 .f32) (main_arg10 : FVec F S128 .f32) (main_arg11 : FVec F S512 .f32) (main_arg12 : FVec F S512 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x512x128 .f32) (main_arg1 : FVec F S128x512x128 .f32) (main_arg2 : FVec F S128x512x128 .f32) (main_arg3 : FVec F S512x128 .f32) (main_arg4 : FVec F S512 .f32) (main_arg5 : FVec F S512x128 .f32) (main_arg6 : FVec F S512 .f32) (main_arg7 : FVec F S512x128 .f32) (main_arg8 : FVec F S512 .f32) (main_arg9 : FVec F S128x512 .f32) (main_arg10 : FVec F S128 .f32) (main_arg11 : FVec F S512 .f32) (main_arg12 : FVec F S512 .f32) : IVec S_ 1 :=
  let main_v0 : FVec F S128x512x128 .f32 := Host.absf main_arg0
  let main_cst : FVec F S_ .f32 := constant S_ .f32 0x7F800000#32
  let main_v1 : FVec F S128x512x128 .f32 := broadcastInDim S128x512x128 ![] bcast_S_S128x512x128 main_cst
  let main_v2 : IVec S128x512x128 1 := cmpf .olt main_v0 main_v1
  let main_c : IVec S_ 1 := constantI S_ 1 1#1
  let main_v3 : IVec S_ 1 := (fun x v => Host.reduce IntOp.andi x v reducesTo_S128x512x128_S_d0_1_2 h_S_) main_v2 main_c
  let main_v4 : FVec F S128x512x128 .f32 := Host.absf main_arg1
  let main_cst_0 : FVec F S_ .f32 := constant S_ .f32 0x7F800000#32
  let main_v5 : FVec F S128x512x128 .f32 := broadcastInDim S128x512x128 ![] bcast_S_S128x512x128 main_cst_0
  let main_v6 : IVec S128x512x128 1 := cmpf .olt main_v4 main_v5
  let main_c_1 : IVec S_ 1 := constantI S_ 1 1#1
  let main_v7 : IVec S_ 1 := (fun x v => Host.reduce IntOp.andi x v reducesTo_S128x512x128_S_d0_1_2 h_S_) main_v6 main_c_1
  let main_v8 : IVec S_ 1 := andi main_v3 main_v7
  let main_v9 : FVec F S128x512x128 .f32 := Host.absf main_arg2
  let main_cst_2 : FVec F S_ .f32 := constant S_ .f32 0x7F800000#32
  let main_v10 : FVec F S128x512x128 .f32 := broadcastInDim S128x512x128 ![] bcast_S_S128x512x128 main_cst_2
  let main_v11 : IVec S128x512x128 1 := cmpf .olt main_v9 main_v10
  let main_c_3 : IVec S_ 1 := constantI S_ 1 1#1
  let main_v12 : IVec S_ 1 := (fun x v => Host.reduce IntOp.andi x v reducesTo_S128x512x128_S_d0_1_2 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_arg9 main_arg10 main_arg11 main_arg12 main_v13 main_v16
-- ==== Kernel.lean ====
abbrev S128x512x128 : Shape := ⟨3, ![128, 512, 128]⟩
abbrev S512x128 : Shape := ⟨2, ![512, 128]⟩
abbrev S512 : Shape := ⟨1, ![512]⟩
abbrev S128x512 : Shape := ⟨2, ![128, 512]⟩
abbrev S128 : Shape := ⟨1, ![128]⟩
abbrev S1x512 : Shape := ⟨2, ![1, 512]⟩
abbrev S1x128 : Shape := ⟨2, ![1, 128]⟩
abbrev S128x512x512 : Shape := ⟨3, ![128, 512, 512]⟩
abbrev S128x1x512 : Shape := ⟨3, ![128, 1, 512]⟩
abbrev S1x512x128 : Shape := ⟨3, ![1, 512, 128]⟩
abbrev S1x512x512 : Shape := ⟨3, ![1, 512, 512]⟩
abbrev S1x1x512 : Shape := ⟨3, ![1, 1, 512]⟩
abbrev S512x512 : Shape := ⟨2, ![512, 512]⟩
abbrev S512x1 : Shape := ⟨2, ![512, 1]⟩
abbrev S_ : Shape := ⟨0, ![]⟩

abbrev nBuf : Space → Nat
  | .hbm => 44
  | .vmem => 32
  | .smem => 0
  | _ => 0

abbrev bufTy : (tb : Table) → Fin (tcTables nBuf tb) → BufTy
  | .hbm, ⟨0, _⟩ => ⟨S128x512x128, .f32⟩
  | .hbm, ⟨1, _⟩ => ⟨S128x512x128, .f32⟩
  | .hbm, ⟨2, _⟩ => ⟨S128x512x128, .f32⟩
  | .hbm, ⟨3, _⟩ => ⟨S512x128, .f32⟩
  | .hbm, ⟨4, _⟩ => ⟨S512, .f32⟩
  | .hbm, ⟨5, _⟩ => ⟨S512x128, .f32⟩
  | .hbm, ⟨6, _⟩ => ⟨S512, .f32⟩
  | .hbm, ⟨7, _⟩ => ⟨S512x128, .f32⟩
  | .hbm, ⟨8, _⟩ => ⟨S512, .f32⟩
  | .hbm, ⟨9, _⟩ => ⟨S128x512, .f32⟩
  | .hbm, ⟨10, _⟩ => ⟨S128, .f32⟩
  | .hbm, ⟨11, _⟩ => ⟨S512, .f32⟩
  | .hbm, ⟨12, _⟩ => ⟨S512, .f32⟩
  | .hbm, ⟨13, _⟩ => ⟨S128x512, .f32⟩
  | .hbm, ⟨14, _⟩ => ⟨S128x512, .f32⟩
  | .hbm, ⟨15, _⟩ => ⟨S128x512, .f32⟩
  | .hbm, ⟨16, _⟩ => ⟨S512x128, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x128, .f32⟩
  | .hbm, ⟨21, _⟩ => ⟨S128x512x128, .f32⟩
  | .hbm, ⟨22, _⟩ => ⟨S128x512x512, .f32⟩
  | .hbm, ⟨23, _⟩ => ⟨S128x1x512, .f32⟩
  | .hbm, ⟨24, _⟩ => ⟨S128x1x512, .f32⟩
  | .hbm, ⟨25, _⟩ => ⟨S128x512, .f32⟩
  | .hbm, ⟨26, _⟩ => ⟨S_, .f32⟩
  | .hbm, ⟨27, _⟩ => ⟨S512, .f32⟩
  | .hbm, ⟨28, _⟩ => ⟨S128x512, .f32⟩
  | .hbm, ⟨29, _⟩ => ⟨S_, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S512x1, .f32⟩
  | .hbm, ⟨40, _⟩ => ⟨S512x1, .f32⟩
  | .hbm, ⟨41, _⟩ => ⟨S512x1, .f32⟩
  | .hbm, ⟨42, _⟩ => ⟨S512x1, .f32⟩
  | .hbm, ⟨43, _⟩ => ⟨S128x512x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S128x512, .f32⟩
  | .local _ .vmem, ⟨7, _⟩ => ⟨S1x512, .f32⟩
  | .local _ .vmem, ⟨8, _⟩ => ⟨S128x512, .f32⟩
  | .local _ .vmem, ⟨9, _⟩ => ⟨S1x512, .f32⟩
  | .local _ .vmem, ⟨10, _⟩ => ⟨S128x512, .f32⟩
  | .local _ .vmem, ⟨11, _⟩ => ⟨S1x512, .f32⟩
  | .local _ .vmem, ⟨12, _⟩ => ⟨S512x128, .f32⟩
  | .local _ .vmem, ⟨13, _⟩ => ⟨S1x128, .f32⟩
  | .local _ .vmem, ⟨14, _⟩ => ⟨S1x512x128, .f32⟩
  | .local _ .vmem, ⟨15, _⟩ => ⟨S1x512x128, .f32⟩
  | .local _ .vmem, ⟨16, _⟩ => ⟨S1x512x512, .f32⟩
  | .local _ .vmem, ⟨17, _⟩ => ⟨S1x512x512, .f32⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1x512x128, .f32⟩
  | .local _ .vmem, ⟨23, _⟩ => ⟨S1x512x128, .f32⟩
  | .local _ .vmem, ⟨24, _⟩ => ⟨S1x512x128, .f32⟩
  | .local _ .vmem, ⟨25, _⟩ => ⟨S1x512x128, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S1x512x128, .f32⟩
  | .local _ .vmem, ⟨31, _⟩ => ⟨S1x512x128, .f32⟩
  | _, _ => ⟨S128x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg6_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem6_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S512x128_S128x512_1_0 : S512x128.Transposes [1, 0] S128x512
  transposes_S128x512_S512x128_1_0 : S128x512.Transposes [1, 0] S512x128
  shapeCasts_S512_S1x512 : S512.ShapeCasts S1x512
  shapeCasts_S128_S1x128 : S128.ShapeCasts S1x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  shapeCasts_S512x128_S1x512x128 : S512x128.ShapeCasts S1x512x128
  reduces_S512x128_S512 : S512x128.Reduces [1] S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  shapeCasts_S128x1x512_S128x512 : S128x1x512.ShapeCasts S128x512
  reducesTo_S128x512_S512_d0 : S128x512.ReducesTo [0] S512
  h_S_ : 0 < S_.numel
  bcast_S_S512 : S_.BroadcastsInDim S512 (![] : Fin 0 → Fin S512.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  dot_S512x128_S128x512_S512x512_1_0_0_1_n_n_wf : DotDims.WF S512x128 S128x512 S512x512 [1] [0] [0] [1] [] []
  dot_S512x512_S512x512_S512x512_1_1_0_0_n_n_wf : DotDims.WF S512x512 S512x512 S512x512 [1] [1] [0] [0] [] []
  dot_S512x512_S512x512_S512x512_1_0_0_1_n_n_wf : DotDims.WF S512x512 S512x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S128x512x128.size a
  hwx0_0 : ∀ i : grid0.Coords, EltTy.bits .f32 = 32 ∨ (Rect.block (s := S128x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S128x512x128.size a
  hwx0_1 : ∀ i : grid0.Coords, EltTy.bits .f32 = 32 ∨ (Rect.block (s := S128x512x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S128x512x128.size a
  hwx0_2 : ∀ i : grid0.Coords, EltTy.bits .f32 = 32 ∨ (Rect.block (s := S128x512x128) S1x512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x512.size a
  hwx0_7 : ∀ i : grid0.Coords, EltTy.bits .f32 = 32 ∨ (Rect.block (s := S128x512) S128x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S512x128.size a
  hwx0_9 : ∀ i : grid0.Coords, EltTy.bits .f32 = 32 ∨ (Rect.block (s := S512x128) S512x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x128.size a ≤ S128x512x128.size a
  hwx0_11 : ∀ i : grid0.Coords, EltTy.bits .f32 = 32 ∨ (Rect.block (s := S128x512x128) S1x512x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512x512.size a ≤ S128x512x512.size a
  hwx0_12 : ∀ i : grid0.Coords, EltTy.bits .f32 = 32 ∨ (Rect.block (s := S128x512x512) S1x512x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x512.size a ≤ S128x1x512.size a
  hwx0_13 : ∀ i : grid0.Coords, EltTy.bits .f32 = 32 ∨ (Rect.block (s := S128x1x512) S1x1x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x512.size a ≤ S128x1x512.size a
  hwx0_14 : ∀ i : grid0.Coords, EltTy.bits .f32 = 32 ∨ (Rect.block (s := S128x1x512) S1x1x512.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S128x512x128.size a
  hwx1_0 : ∀ i : grid1.Coords, EltTy.bits .f32 = 32 ∨ (Rect.block (s := S128x512x128) S1x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S128x512x128.size a
  hwx1_1 : ∀ i : grid1.Coords, EltTy.bits .f32 = 32 ∨ (Rect.block (s := S128x512x128) S1x512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S512x1.size a
  hwx1_2 : ∀ i : grid1.Coords, EltTy.bits .f32 = 32 ∨ (Rect.block (s := S512x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S512x1.size a
  hwx1_3 : ∀ i : grid1.Coords, EltTy.bits .f32 = 32 ∨ (Rect.block (s := S512x1) S512x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S512x1.size a
  hwx1_4 : ∀ i : grid1.Coords, EltTy.bits .f32 = 32 ∨ (Rect.block (s := S512x1) S512x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S512x1.size a
  hwx1_5 : ∀ i : grid1.Coords, EltTy.bits .f32 = 32 ∨ (Rect.block (s := S512x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x128.size a ≤ S128x512x128.size a
  hwx1_6 : ∀ i : grid1.Coords, EltTy.bits .f32 = 32 ∨ (Rect.block (s := S128x512x128) S1x512x128.size (cc1_transform_6 i) (hinb1_6 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S128x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S512x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8_0) S1x512x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_1) S1x512x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v8_2) S1x1x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v8_3) S1x1x512.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v8_0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S512x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S512x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S512x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S512x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x512x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S128x512x128 : Shape := ⟨3, ![128, 512, 128]⟩
abbrev S512x128 : Shape := ⟨2, ![512, 128]⟩
abbrev S512 : Shape := ⟨1, ![512]⟩
abbrev S128x512 : Shape := ⟨2, ![128, 512]⟩
abbrev S128 : Shape := ⟨1, ![128]⟩
abbrev S128x512x512 : Shape := ⟨3, ![128, 512, 512]⟩
abbrev S1x1x512 : Shape := ⟨3, ![1, 1, 512]⟩
abbrev S_ : Shape := ⟨0, ![]⟩
abbrev S128x512x1 : Shape := ⟨3, ![128, 512, 1]⟩
abbrev S1x1x128 : Shape := ⟨3, ![1, 1, 128]⟩
abbrev S1x512x1 : Shape := ⟨3, ![1, 512, 1]⟩

abbrev nBuf : Space → Nat
  | .hbm => 81
  | .vmem => 0
  | .smem => 0
  | _ => 0

abbrev bufTy : (tb : Table) → Fin (tcTables nBuf tb) → BufTy
  | .hbm, ⟨0, _⟩ => ⟨S128x512x128, .f32⟩
  | .hbm, ⟨1, _⟩ => ⟨S128x512x128, .f32⟩
  | .hbm, ⟨2, _⟩ => ⟨S128x512x128, .f32⟩
  | .hbm, ⟨3, _⟩ => ⟨S512x128, .f32⟩
  | .hbm, ⟨4, _⟩ => ⟨S512, .f32⟩
  | .hbm, ⟨5, _⟩ => ⟨S512x128, .f32⟩
  | .hbm, ⟨6, _⟩ => ⟨S512, .f32⟩
  | .hbm, ⟨7, _⟩ => ⟨S512x128, .f32⟩
  | .hbm, ⟨8, _⟩ => ⟨S512, .f32⟩
  | .hbm, ⟨9, _⟩ => ⟨S128x512, .f32⟩
  | .hbm, ⟨10, _⟩ => ⟨S128, .f32⟩
  | .hbm, ⟨11, _⟩ => ⟨S512, .f32⟩
  | .hbm, ⟨12, _⟩ => ⟨S512, .f32⟩
  | .hbm, ⟨13, _⟩ => ⟨S128x512x512, .f32⟩
  | .hbm, ⟨14, _⟩ => ⟨S1x1x512, .f32⟩
  | .hbm, ⟨15, _⟩ => ⟨S128x512x512, .f32⟩
  | .hbm, ⟨16, _⟩ => ⟨S128x512x512, .f32⟩
  | .hbm, ⟨17, _⟩ => ⟨S128x512x512, .f32⟩
  | .hbm, ⟨18, _⟩ => ⟨S1x1x512, .f32⟩
  | .hbm, ⟨19, _⟩ => ⟨S128x512x512, .f32⟩
  | .hbm, ⟨20, _⟩ => ⟨S128x512x512, .f32⟩
  | .hbm, ⟨21, _⟩ => ⟨S128x512x512, .f32⟩
  | .hbm, ⟨22, _⟩ => ⟨S1x1x512, .f32⟩
  | .hbm, ⟨23, _⟩ => ⟨S128x512x512, .f32⟩
  | .hbm, ⟨24, _⟩ => ⟨S128x512x512, .f32⟩
  | .hbm, ⟨25, _⟩ => ⟨S128x512x512, .f32⟩
  | .hbm, ⟨26, _⟩ => ⟨S_, .f32⟩
  | .hbm, ⟨27, _⟩ => ⟨S128x512x512, .f32⟩
  | .hbm, ⟨28, _⟩ => ⟨S128x512x512, .f32⟩
  | .hbm, ⟨29, _⟩ => ⟨S_, .f32⟩
  | .hbm, ⟨30, _⟩ => ⟨S128x512, .f32⟩
  | .hbm, ⟨31, _⟩ => ⟨S_, .f32⟩
  | .hbm, ⟨32, _⟩ => ⟨S128x512, .f32⟩
  | .hbm, ⟨33, _⟩ => ⟨S128x512, .f32⟩
  | .hbm, ⟨34, _⟩ => ⟨S128x512x1, .f32⟩
  | .hbm, ⟨35, _⟩ => ⟨S128x512x512, .f32⟩
  | .hbm, ⟨36, _⟩ => ⟨S128x512x512, .f32⟩
  | .hbm, ⟨37, _⟩ => ⟨S128x512x512, .f32⟩
  | .hbm, ⟨38, _⟩ => ⟨S_, .f32⟩
  | .hbm, ⟨39, _⟩ => ⟨S128x512, .f32⟩
  | .hbm, ⟨40, _⟩ => ⟨S128x512x1, .f32⟩
  | .hbm, ⟨41, _⟩ => ⟨S128x512x512, .f32⟩
  | .hbm, ⟨42, _⟩ => ⟨S128x512x512, .f32⟩
  | .hbm, ⟨43, _⟩ => ⟨S128x512x512, .f32⟩
  | .hbm, ⟨44, _⟩ => ⟨S128x512x128, .f32⟩
  | .hbm, ⟨45, _⟩ => ⟨S1x1x128, .f32⟩
  | .hbm, ⟨46, _⟩ => ⟨S128x512x128, .f32⟩
  | .hbm, ⟨47, _⟩ => ⟨S128x512x128, .f32⟩
  | .hbm, ⟨48, _⟩ => ⟨S_, .f32⟩
  | .hbm, ⟨49, _⟩ => ⟨S512, .f32⟩
  | .hbm, ⟨50, _⟩ => ⟨S1x512x1, .f32⟩
  | .hbm, ⟨51, _⟩ => ⟨S_, .f32⟩
  | .hbm, ⟨52, _⟩ => ⟨S1x512x1, .f32⟩
  | .hbm, ⟨53, _⟩ => ⟨S1x512x1, .f32⟩
  | .hbm, ⟨54, _⟩ => ⟨S128x512x128, .f32⟩
  | .hbm, ⟨55, _⟩ => ⟨S128x512x128, .f32⟩
  | .hbm, ⟨56, _⟩ => ⟨S128x512x128, .f32⟩
  | .hbm, ⟨57, _⟩ => ⟨S_, .f32⟩
  | .hbm, ⟨58, _⟩ => ⟨S512, .f32⟩
  | .hbm, ⟨59, _⟩ => ⟨S1x512x1, .f32⟩
  | .hbm, ⟨60, _⟩ => ⟨S_, .f32⟩
  | .hbm, ⟨61, _⟩ => ⟨S1x512x1, .f32⟩
  | .hbm, ⟨62, _⟩ => ⟨S1x512x1, .f32⟩
  | .hbm, ⟨63, _⟩ => ⟨S128x512x128, .f32⟩
  | .hbm, ⟨64, _⟩ => ⟨S128x512x128, .f32⟩
  | .hbm, ⟨65, _⟩ => ⟨S_, .f32⟩
  | .hbm, ⟨66, _⟩ => ⟨S1x512x1, .f32⟩
  | .hbm, ⟨67, _⟩ => ⟨S1x512x1, .f32⟩
  | .hbm, ⟨68, _⟩ => ⟨S1x512x1, .f32⟩
  | .hbm, ⟨69, _⟩ => ⟨S128x512x128, .f32⟩
  | .hbm, ⟨70, _⟩ => ⟨S128x512x128, .f32⟩
  | .hbm, ⟨71, _⟩ => ⟨S1x512x1, .f32⟩
  | .hbm, ⟨72, _⟩ => ⟨S128x512x128, .f32⟩
  | .hbm, ⟨73, _⟩ => ⟨S128x512x128, .f32⟩
  | .hbm, ⟨74, _⟩ => ⟨S1x512x1, .f32⟩
  | .hbm, ⟨75, _⟩ => ⟨S128x512x128, .f32⟩
  | .hbm, ⟨76, _⟩ => ⟨S128x512x128, .f32⟩
  | .hbm, ⟨77, _⟩ => ⟨S_, .f32⟩
  | .hbm, ⟨78, _⟩ => ⟨S128x512x128, .f32⟩
  | .hbm, ⟨79, _⟩ => ⟨S128x512x128, .f32⟩
  | .hbm, ⟨80, _⟩ => ⟨S128x512x128, .f32⟩
  | _, _ => ⟨S128x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call0_cst : Ref sig .tc := ⟨.hbm, 77, rfl⟩
abbrev main_call0_v0 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S128x512x512_0_1_2 : S1x1x512.BroadcastsInDim S128x512x512 (![0, 1, 2] : Fin 3 → Fin S128x512x512.rank)
  bcast_S_S128x512x512 : S_.BroadcastsInDim S128x512x512 (![] : Fin 0 → Fin S128x512x512.rank)
  reducesTo_S128x512x512_S128x512_d2 : S128x512x512.ReducesTo [2] S128x512
  h_S_ : 0 < S_.numel
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S128x512x1_S128x512x512_0_1_2 : S128x512x1.BroadcastsInDim S128x512x512 (![0, 1, 2] : Fin 3 → Fin S128x512x512.rank)
  bcast_S128_S1x1x128_2 : S128.BroadcastsInDim S1x1x128 (![2] : Fin 1 → Fin S1x1x128.rank)
  bcast_S1x1x128_S128x512x128_0_1_2 : S1x1x128.BroadcastsInDim S128x512x128 (![0, 1, 2] : Fin 3 → Fin S128x512x128.rank)
  reducesTo_S128x512x128_S512_d0_2 : S128x512x128.ReducesTo [0, 2] S512
  bcast_S512_S1x512x1_1 : S512.BroadcastsInDim S1x512x1 (![1] : Fin 1 → Fin S1x512x1.rank)
  bcast_S_S1x512x1 : S_.BroadcastsInDim S1x512x1 (![] : Fin 0 → Fin S1x512x1.rank)
  bcast_S1x512x1_S128x512x128_0_1_2 : S1x512x1.BroadcastsInDim S128x512x128 (![0, 1, 2] : Fin 3 → Fin S128x512x128.rank)
  bcast_S_S128x512x128 : S_.BroadcastsInDim S128x512x128 (![] : Fin 0 → Fin S128x512x128.rank)
  dot_S128x512x128_S512x128_S128x512x512_2_1_01_0_n_n_wf : DotDims.WF S128x512x128 S512x128 S128x512x512 [2] [1] [0, 1] [0] [] []
  dot_S128x512x512_S128x512x512_S128x512x512_2_2_1_1_0_0_wf : DotDims.WF S128x512x512 S128x512x512 S128x512x512 [2] [2] [1] [1] [0] [0]
  dot_S128x512x512_S128x512x512_S128x512x512_2_1_1_2_0_0_wf : DotDims.WF S128x512x512 S128x512x512 S128x512x512 [2] [1] [1] [2] [0] [0]
  dot_S128x512x512_S128x512_S128x512x128_2_1_01_0_n_n_wf : DotDims.WF S128x512x512 S128x512 S128x512x128 [2] [1] [0, 1] [0] [] []

variable [Facts₀]

def dot_S128x512x128_S512x128_S128x512x512_2_1_01_0_n_n : DotDims S128x512x128 S512x128 S128x512x512 where
  lhsContracting := [2]
  rhsContracting := [1]
  lhsNonContracting := [0, 1]
  rhsNonContracting := [0]
  lhsBatch := []
  rhsBatch := []
  wf := dot_S128x512x128_S512x128_S128x512x512_2_1_01_0_n_n_wf
def dot_S128x512x512_S128x512x512_S128x512x512_2_2_1_1_0_0 : DotDims S128x512x512 S128x512x512 S128x512x512 where
  lhsContracting := [2]
  rhsContracting := [2]
  lhsNonContracting := [1]
  rhsNonContracting := [1]
  lhsBatch := [0]
  rhsBatch := [0]
  wf := dot_S128x512x512_S128x512x512_S128x512x512_2_2_1_1_0_0_wf
def dot_S128x512x512_S128x512x512_S128x512x512_2_1_1_2_0_0 : DotDims S128x512x512 S128x512x512 S128x512x512 where
  lhsContracting := [2]
  rhsContracting := [1]
  lhsNonContracting := [1]
  rhsNonContracting := [2]
  lhsBatch := [0]
  rhsBatch := [0]
  wf := dot_S128x512x512_S128x512x512_S128x512x512_2_1_1_2_0_0_wf
def dot_S128x512x512_S128x512_S128x512x128_2_1_01_0_n_n : DotDims S128x512x512 S128x512 S128x512x128 where
  lhsContracting := [2]
  rhsContracting := [1]
  lhsNonContracting := [0, 1]
  rhsNonContracting := [0]
  lhsBatch := []
  rhsBatch := []
  wf := dot_S128x512x512_S128x512_S128x512x128_2_1_01_0_n_n_wf

class Facts : Prop extends Facts₀ where

variable [Facts]
-- ==== Proof.Spec.lean ====
/-
  One attention layer followed by a batch normalisation, as plain functions of index tuples over the extended reals.

  For one batch item, with rows i, j (the 512 channels), widths s (128) and m (512):
    q i m = Σ_s Q i s · Wq m s + bq m              (likewise k, v)
    score i j = (Σ_m q i m · k j m) · σ
    attention i j = exp (score i j − max_j score i j) / Σ_j' exp (score i j' − max_j score i j)
    context i m = Σ_j attention i j · v j m
    pre i s = Σ_m context i m · Wf s m + bf s
  Over the whole batch, per channel c, with N the number of (batch, width) pairs:
    mean c = (Σ_b Σ_s pre b c s) / N
    variance c, in the two textbook forms: the mean of the squares minus the square of the mean, and the mean of
      the squared deviations from the mean
    result b c s = V b c s + max (((pre b c s − mean c) · rsqrt (variance c + ε)) · γ c + β c) 0.
  The constants σ, N and ε are parameters here.
-/
import Idealize.ShloMosaic.PureOps.Ideal
import Idealize.ShloMosaic.Lib.ValueIdx

noncomputable section

namespace Cert.Attn

open Idealize.ShloMosaic Idealize.ShloMosaic.ValueIdx

/-! ## Arrays as functions of index tuples -/

/-- A rank-1 array read at a coordinate. -/
def c1 {a : ℕ} (X : (⟨1, ![a]⟩ : Shape).Idx → EReal) : Fin a → EReal := fun i => X (ix1 i)
/-- A rank-2 array read at two coordinates. -/
def c2 {a b : ℕ} (X : (⟨2, ![a, b]⟩ : Shape).Idx → EReal) : Fin a → Fin b → EReal := fun i j => X (ix2 i j)
/-- A rank-3 array read at three coordinates. -/
def c3 {a b c : ℕ} (X : (⟨3, ![a, b, c]⟩ : Shape).Idx → EReal) : Fin a → Fin b → Fin c → EReal :=
  fun i j k => X (ix3 i j k)
/-- A function of three coordinates as a rank-3 array. -/
def u3 {a b c : ℕ} (f : Fin a → Fin b → Fin c → EReal) : (⟨3, ![a, b, c]⟩ : Shape).Idx → EReal :=
  fun j => f (j 0) (j 1) (j 2)

theorem u3_ix3 {a b c : ℕ} (f : Fin a → Fin b → Fin c → EReal) (i : Fin a) (j : Fin b) (k : Fin c) :
    u3 f (ix3 i j k) = f i j k := rfl

theorem c3_u3 {a b c : ℕ} (f : Fin a → Fin b → Fin c → EReal) : c3 (u3 f) = f := rfl

/-! ## One batch item -/

variable {R S M : ℕ}

/-- The affine layer x · Wᵀ + bias. -/
def lin (x : Fin R → Fin S → EReal) (W : Fin M → Fin S → EReal) (bias : Fin M → EReal) (i : Fin R) (m : Fin M) : EReal :=
  (∑ s : Fin S, x i s * W m s) + bias m

/-- The scaled scores q · kᵀ · σ. -/
def scores (σ : EReal) (q k : Fin R → Fin M → EReal) (i j : Fin R) : EReal :=
  (∑ m : Fin M, q i m * k j m) * σ

/-- A row's maximum, as the fold of max from −∞. -/
def rowMax (sc : Fin R → Fin R → EReal) (i : Fin R) : EReal :=
  (Finset.univ : Finset (Fin R)).fold max ⊥ (sc i)

/-- The shifted exponentials exp (score − row maximum). -/
def expo (sc : Fin R → Fin R → EReal) (i j : Fin R) : EReal := Ideal.exp (sc i j - rowMax sc i)

/-- The softmax of each row. -/
def softmax (sc : Fin R → Fin R → EReal) (i j : Fin R) : EReal :=
  Ideal.div (expo sc i j) (∑ j' : Fin R, expo sc i j')

/-- The weighted mix a · v. -/
def mix (a : Fin R → Fin R → EReal) (v : Fin R → Fin M → EReal) (i : Fin R) (m : Fin M) : EReal :=
  ∑ j : Fin R, a i j * v j m

/-- The attention weights of one batch item. -/
def attn (σ : EReal) (Q K : Fin R → Fin S → EReal) (Wq : Fin M → Fin S → EReal) (bq : Fin M → EReal)
    (Wk : Fin M → Fin S → EReal) (bk : Fin M → EReal) : Fin R → Fin R → EReal :=
  softmax (scores σ (lin Q Wq bq) (lin K Wk bk))

/-- The layer's output before normalisation, for one batch item. -/
def pre (σ : EReal) (Q K V : Fin R → Fin S → EReal) (Wq : Fin M → Fin S → EReal) (bq : Fin M → EReal)
    (Wk : Fin M → Fin S → EReal) (bk : Fin M → EReal) (Wv : Fin M → Fin S → EReal) (bv : Fin M → EReal)
    (Wf : Fin S → Fin M → EReal) (bf : Fin S → EReal) : Fin R → Fin S → EReal :=
  lin (mix (attn σ Q K Wq bq Wk bk) (lin V Wv bv)) Wf bf

/-! ## The batch statistics and the normalised result -/

variable {B C : ℕ}

/-- A channel's mean over (batch, width). -/
def mean (N : EReal) (P : Fin B → Fin C → Fin S → EReal) (c : Fin C) : EReal :=
  Ideal.div (∑ b : Fin B, ∑ s : Fin S, P b c s) N

/-- A channel's variance as the mean of the squares minus the square of the mean. -/
def varK (N : EReal) (P : Fin B → Fin C → Fin S → EReal) (c : Fin C) : EReal :=
  Ideal.div (∑ b : Fin B, ∑ s : Fin S, P b c s * P b c s) N - mean N P c * mean N P c

/-- A channel's variance as the mean of the squared deviations from the mean. -/
def varR (N : EReal) (P : Fin B → Fin C → Fin S → EReal) (c : Fin C) : EReal :=
  Ideal.div (∑ b : Fin B, ∑ s : Fin S, (P b c s - mean N P c) * (P b c s - mean N P c)) N

/-- Normalise, scale and shift, rectify, add the residual. -/
def fin (ε : EReal) (Vv P : Fin B → Fin C → Fin S → EReal) (mu va γ β : Fin C → EReal) (b : Fin B) (c : Fin C)
    (s : Fin S) : EReal :=
  Vv b c s + max ((((P b c s - mu c) * Ideal.rsqrt (va c + ε)) * γ c) + β c) 0

/-! ## The whole program at its extents -/

abbrev A3 := (⟨3, ![128, 512, 128]⟩ : Shape).Idx → EReal
abbrev AW := (⟨2, ![512, 128]⟩ : Shape).Idx → EReal
abbrev AF := (⟨2, ![128, 512]⟩ : Shape).Idx → EReal
abbrev A512 := (⟨1, ![512]⟩ : Shape).Idx → EReal
abbrev A128 := (⟨1, ![128]⟩ : Shape).Idx → EReal

/-- The attention weights, all batch items. -/
def attnF (σ : EReal) (Q K : A3) (Wq : AW) (bq : A512) (Wk : AW) (bk : A512) : Fin 128 → Fin 512 → Fin 512 → EReal :=
  fun b => attn σ (c3 Q b) (c3 K b) (c2 Wq) (c1 bq) (c2 Wk) (c1 bk)

/-- The output before normalisation, all batch items. -/
def preF (σ : EReal) (Q K V : A3) (Wq : AW) (bq : A512) (Wk : AW) (bk : A512) (Wv : AW) (bv : A512) (Wf : AF)
    (bf : A128) : Fin 128 → Fin 512 → Fin 128 → EReal :=
  fun b => pre σ (c3 Q b) (c3 K b) (c3 V b) (c2 Wq) (c1 bq) (c2 Wk) (c1 bk) (c2 Wv) (c1 bv) (c2 Wf) (c1 bf)

/-- The first result, with the variance as the mean of squares minus the squared mean. -/
def outK (σ N ε : EReal) (Q K V : A3) (Wq : AW) (bq : A512) (Wk : AW) (bk : A512) (Wv : AW) (bv : A512) (Wf : AF)
    (bf : A128) (γ β : A512) : A3 :=
  u3 (fin ε (c3 V) (preF σ Q K V Wq bq Wk bk Wv bv Wf bf) (mean N (preF σ Q K V Wq bq Wk bk Wv bv Wf bf))
    (varK N (preF σ Q K V Wq bq Wk bk Wv bv Wf bf)) (c1 γ) (c1 β))

/-- The first result, with the variance as the mean of squared deviations. -/
def outR (σ N ε : EReal) (Q K V : A3) (Wq : AW) (bq : A512) (Wk : AW) (bk : A512) (Wv : AW) (bv : A512) (Wf : AF)
    (bf : A128) (γ β : A512) : A3 :=
  u3 (fin ε (c3 V) (preF σ Q K V Wq bq Wk bk Wv bv Wf bf) (mean N (preF σ Q K V Wq bq Wk bk Wv bv Wf bf))
    (varR N (preF σ Q K V Wq bq Wk bk Wv bv Wf bf)) (c1 γ) (c1 β))

/-- The second result: the attention weights as an array. -/
def attnArr (σ : EReal) (Q K : A3) (Wq : AW) (bq : A512) (Wk : AW) (bk : A512) :
    (⟨3, ![128, 512, 512]⟩ : Shape).Idx → EReal :=
  u3 (attnF σ Q K Wq bq Wk bk)

/-- The scale 512^(-1/2) as the program's f32 literal, the count 16384 and the f32 literal nearest 1e-5. -/
abbrev σ₀ : EReal := Ideal.ofBits .f32 0x3D3504F3#32
abbrev N₀ : EReal := Ideal.ofBits .f32 0x46800000#32
abbrev ε₀ : EReal := Ideal.ofBits .f32 0x3727C5AC#32

end Cert.Attn

end
-- ==== Proof.RefValue.lean ====
/-
  The reference program, stage by stage, is the specification's attention layer followed by the batch normalisation.

  Each stage of the reference is read at explicit coordinates (b, i, j) of its array and identified with the
  corresponding function of index tuples:
    the three projections are x · Wᵀ + bias;
    the scores are (Σ_m q i m · k j m) · σ;
    the reduction of a row by max from −∞ is the fold of max over the row, and joining it once more with −∞ changes nothing;
    the shifted exponentials, their row sums (a sum from 0) and the quotient are the softmax;
    the two further contractions are the context Σ_j a i j · v j m and the output projection.
  For the normalisation, a sum over the first and last axes of a rank-3 array, at channel c, runs over exactly the
  indices whose middle coordinate is c, so it is the double sum Σ_b Σ_s over the two outer coordinates. With that, the
  per-channel mean is the double sum divided by N, the variance is the mean of the squared deviations (a square is the
  product of the deviation with itself), and the result is
    V + max (((pre − mean) · rsqrt (variance + ε)) · γ + β) 0.
  No law of arithmetic beyond 0 + x = x and max ⊥ x = x is used: both sides are the same expression.
-/
import proofs.«176117_j7438883356886_2_alg».proof.Proof.Spec
import proofs.«176117_j7438883356886_2_alg».proof.Proof.Gen.ReferenceIdeal.Read
import Idealize.ShloMosaic.PureOps.Ideal.Laws
import Idealize.ShloMosaic.Lib.ValueIdx
import Idealize.ShloMosaic.Lib.Pipeline.Value

noncomputable section

namespace Cert.Attn.Ref

open Idealize.ShloMosaic Idealize.ShloMosaic.ValueIdx Cert.ReferenceIdeal Cert.ReferenceIdeal.Gen Cert.ReferenceIdeal.Read Cert.Attn

/-! ## Constants -/

/-- The f32 word of −∞ is the bottom element of the extended reals. -/
theorem bot_eq : Ideal.ofBits .f32 0xFF800000#32 = (⊥ : EReal) := by simp [Ideal.ofBits, Ideal.ieee]

/-! ## The three projections x · Wᵀ + bias -/

/-- The query projection at (b, i, m). -/
theorem v3_ix (x0 : A3) (x3 : AW) (x4 : A512) (b : Fin 128) (i : Fin 512) (m : Fin 512) :
    val_main_v3 (F := Ideal) x0 x3 x4 (ix3 b i m) = lin (c3 x0 b) (c2 x3) (c1 x4) i m := by
  have hl : ∀ k : Fin 128, lidx_main_v0 (ix3 b i m) k = ix3 b i k := fun k =>
    funext fun a => Fin.ext (by match a with | ⟨0, _⟩ => rfl | ⟨1, _⟩ => rfl | ⟨2, _⟩ => rfl)
  have hr : ∀ k : Fin 128, ridx_main_v0 (ix3 b i m) k = ix2 m k := fun k =>
    funext fun a => Fin.ext (by match a with | ⟨0, _⟩ => rfl | ⟨1, _⟩ => rfl)
  have hb : idx_main_v1 (idx_main_v2 (ix3 b i m)) = ix1 m :=
    funext fun a => Fin.ext (by match a with | ⟨0, _⟩ => rfl)
  rw [val_main_v3_apply, val_main_v0_apply, val_main_v2_apply, val_main_v1_apply, hb]
  simp only [hl, hr, Ideal.addf_def]
  rfl

/-- The key projection at (b, i, m). -/
theorem v7_ix (x1 : A3) (x5 : AW) (x6 : A512) (b : Fin 128) (i : Fin 512) (m : Fin 512) :
    val_main_v7 (F := Ideal) x1 x5 x6 (ix3 b i m) = lin (c3 x1 b) (c2 x5) (c1 x6) i m := by
  have hl : ∀ k : Fin 128, lidx_main_v4 (ix3 b i m) k = ix3 b i k := fun k =>
    funext fun a => Fin.ext (by match a with | ⟨0, _⟩ => rfl | ⟨1, _⟩ => rfl | ⟨2, _⟩ => rfl)
  have hr : ∀ k : Fin 128, ridx_main_v4 (ix3 b i m) k = ix2 m k := fun k =>
    funext fun a => Fin.ext (by match a with | ⟨0, _⟩ => rfl | ⟨1, _⟩ => rfl)
  have hb : idx_main_v5 (idx_main_v6 (ix3 b i m)) = ix1 m :=
    funext fun a => Fin.ext (by match a with | ⟨0, _⟩ => rfl)
  rw [val_main_v7_apply, val_main_v4_apply, val_main_v6_apply, val_main_v5_apply, hb]
  simp only [hl, hr, Ideal.addf_def]
  rfl

/-- The value projection at (b, i, m). -/
theorem v11_ix (x2 : A3) (x7 : AW) (x8 : A512) (b : Fin 128) (i : Fin 512) (m : Fin 512) :
    val_main_v11 (F := Ideal) x2 x7 x8 (ix3 b i m) = lin (c3 x2 b) (c2 x7) (c1 x8) i m := by
  have hl : ∀ k : Fin 128, lidx_main_v8 (ix3 b i m) k = ix3 b i k := fun k =>
    funext fun a => Fin.ext (by match a with | ⟨0, _⟩ => rfl | ⟨1, _⟩ => rfl | ⟨2, _⟩ => rfl)
  have hr : ∀ k : Fin 128, ridx_main_v8 (ix3 b i m) k = ix2 m k := fun k =>
    funext fun a => Fin.ext (by match a with | ⟨0, _⟩ => rfl | ⟨1, _⟩ => rfl)
  have hb : idx_main_v9 (idx_main_v10 (ix3 b i m)) = ix1 m :=
    funext fun a => Fin.ext (by match a with | ⟨0, _⟩ => rfl)
  rw [val_main_v11_apply, val_main_v8_apply, val_main_v10_apply, val_main_v9_apply, hb]
  simp only [hl, hr, Ideal.addf_def]
  rfl

/-! ## Scores, row maximum, softmax -/

/-- The scaled scores of batch item b, as a function of the two row coordinates. -/
def scF (x0 x1 : A3) (x3 : AW) (x4 : A512) (x5 : AW) (x6 : A512) (b : Fin 128) : Fin 512 → Fin 512 → EReal :=
  scores σ₀ (lin (c3 x0 b) (c2 x3) (c1 x4)) (lin (c3 x1 b) (c2 x5) (c1 x6))

/-- The scaled scores at (b, i, j). -/
theorem v14_ix (x0 x1 : A3) (x3 : AW) (x4 : A512) (x5 : AW) (x6 : A512) (b : Fin 128) (i j : Fin 512) :
    val_main_v14 (F := Ideal) x0 x1 x3 x4 x5 x6 (ix3 b i j) = scF x0 x1 x3 x4 x5 x6 b i j := by
  have hl : ∀ k : Fin 512, lidx_main_v12 (ix3 b i j) k = ix3 b i k := fun k =>
    funext fun a => Fin.ext (by match a with | ⟨0, _⟩ => rfl | ⟨1, _⟩ => rfl | ⟨2, _⟩ => rfl)
  have hr : ∀ k : Fin 512, ridx_main_v12 (ix3 b i j) k = ix3 b j k := fun k =>
    funext fun a => Fin.ext (by match a with | ⟨0, _⟩ => rfl | ⟨1, _⟩ => rfl | ⟨2, _⟩ => rfl)
  rw [val_main_v14_apply, val_main_v12_apply, val_main_v13_apply, val_main_cst_apply]
  simp only [hl, hr, v3_ix, v7_ix, Ideal.mulf_def, Ideal.ofBits_def]
  rfl

/-- The reduction over the last axis at (b, i): the fold of max from −∞ over the row. -/
theorem v15_ix (x0 x1 : A3) (x3 : AW) (x4 : A512) (x5 : AW) (x6 : A512) (b : Fin 128) (i : Fin 512) :
    val_main_v15 (F := Ideal) x0 x1 x3 x4 x5 x6 (ix2 b i) = rowMax (scF x0 x1 x3 x4 x5 x6 b) i := by
  unfold val_main_v15
  rw [Host.reduce_eq_fold_single FloatOps.maximumf _ _ reducesTo_S128x512x512_S128x512_d2 (by decide) h_S_ (ix2 b i)]
  have hf : (val_main_v14 (F := Ideal) x0 x1 x3 x4 x5 x6 ∘
      Shape.Reduces.lift (s := S128x512x512) (t := S128x512) (a := 2) (by decide) (ix2 b i))
      = scF x0 x1 x3 x4 x5 x6 b i := funext fun (k : Fin 512) => by
    have hk : Shape.Reduces.lift (s := S128x512x512) (t := S128x512) (a := 2) (by decide) (ix2 b i) k = ix3 b i k :=
      funext fun a => Fin.ext (by match a with | ⟨0, _⟩ => rfl | ⟨1, _⟩ => rfl | ⟨2, _⟩ => rfl)
    show val_main_v14 (F := Ideal) x0 x1 x3 x4 x5 x6 (Shape.Reduces.lift (s := S128x512x512) (t := S128x512) (a := 2) (by decide) (ix2 b i) k) = _
    rw [hk, v14_ix]
  rw [hf, val_main_cst_0_apply, Ideal.ofBits_def, bot_eq]
  rfl

/-- The row maximum joined with −∞ is the row maximum. -/
theorem v17_ix (x0 x1 : A3) (x3 : AW) (x4 : A512) (x5 : AW) (x6 : A512) (b : Fin 128) (i : Fin 512) :
    val_main_v17 (F := Ideal) x0 x1 x3 x4 x5 x6 (ix2 b i) = rowMax (scF x0 x1 x3 x4 x5 x6 b) i := by
  rw [val_main_v17_apply, val_main_v16_apply, val_main_cst_1_apply, v15_ix, Ideal.maximumf_def, Ideal.ofBits_def, bot_eq]
  exact max_bot_left _

/-- The shifted exponentials at (b, i, j). -/
theorem v21_ix (x0 x1 : A3) (x3 : AW) (x4 : A512) (x5 : AW) (x6 : A512) (b : Fin 128) (i j : Fin 512) :
    val_main_v21 (F := Ideal) x0 x1 x3 x4 x5 x6 (ix3 b i j) = expo (scF x0 x1 x3 x4 x5 x6 b) i j := by
  have hb : idx_main_v18 (idx_main_v19 (ix3 b i j)) = ix2 b i :=
    funext fun a => Fin.ext (by match a with | ⟨0, _⟩ => rfl | ⟨1, _⟩ => rfl)
  rw [val_main_v21_apply, val_main_v20_apply, val_main_v19_apply, val_main_v18_apply, hb, v14_ix, v17_ix,
    Ideal.hostUnary_exp_def, Ideal.subf_def]
  rfl

/-- The row sums of the shifted exponentials at (b, i). -/
theorem v22_ix (x0 x1 : A3) (x3 : AW) (x4 : A512) (x5 : AW) (x6 : A512) (b : Fin 128) (i : Fin 512) :
    val_main_v22 (F := Ideal) x0 x1 x3 x4 x5 x6 (ix2 b i) = ∑ j : Fin 512, expo (scF x0 x1 x3 x4 x5 x6 b) i j := by
  have hk : ∀ k : Fin 512, idx_main_v22 (ix2 b i) k = ix3 b i k := fun k =>
    funext fun a => Fin.ext (by match a with | ⟨0, _⟩ => rfl | ⟨1, _⟩ => rfl | ⟨2, _⟩ => rfl)
  rw [val_main_v22_apply, val_main_cst_2_apply, Ideal.ofBits_def, Ideal.ofBits_zero_f32, zero_add]
  simp only [hk, v21_ix]

/-- The softmax at (b, i, j). -/
theorem v25_ix (x0 x1 : A3) (x3 : AW) (x4 : A512) (x5 : AW) (x6 : A512) (b : Fin 128) (i j : Fin 512) :
    val_main_v25 (F := Ideal) x0 x1 x3 x4 x5 x6 (ix3 b i j) = attnF σ₀ x0 x1 x3 x4 x5 x6 b i j := by
  have hb : idx_main_v23 (idx_main_v24 (ix3 b i j)) = ix2 b i :=
    funext fun a => Fin.ext (by match a with | ⟨0, _⟩ => rfl | ⟨1, _⟩ => rfl)
  rw [val_main_v25_apply, val_main_v24_apply, val_main_v23_apply, hb, v21_ix, v22_ix, Ideal.hostDivf_def]
  rfl

/-- The reference's second result is the array of attention weights. -/
theorem ref_attn (x0 x1 : A3) (x3 : AW) (x4 : A512) (x5 : AW) (x6 : A512) :
    val_main_v25 (F := Ideal) x0 x1 x3 x4 x5 x6 = attnArr σ₀ x0 x1 x3 x4 x5 x6 := by
  funext j
  obtain ⟨b, i, k, rfl⟩ : ∃ (b : Fin 128) (i k : Fin 512), j = ix3 b i k := ⟨j 0, j 1, j 2, eq_ix3 j⟩
  rw [v25_ix]
  rfl

/-! ## Context and output projection -/

/-- The context at (b, i, m). -/
theorem v26_ix (x0 x1 x2 : A3) (x3 : AW) (x4 : A512) (x5 : AW) (x6 : A512) (x7 : AW) (x8 : A512)
    (b : Fin 128) (i : Fin 512) (m : Fin 512) :
    val_main_v26 (F := Ideal) x0 x1 x2 x3 x4 x5 x6 x7 x8 (ix3 b i m)
      = mix (attnF σ₀ x0 x1 x3 x4 x5 x6 b) (lin (c3 x2 b) (c2 x7) (c1 x8)) i m := by
  have hl : ∀ k : Fin 512, lidx_main_v26 (ix3 b i m) k = ix3 b i k := fun k =>
    funext fun a => Fin.ext (by match a with | ⟨0, _⟩ => rfl | ⟨1, _⟩ => rfl | ⟨2, _⟩ => rfl)
  have hr : ∀ k : Fin 512, ridx_main_v26 (ix3 b i m) k = ix3 b k m := fun k =>
    funext fun a => Fin.ext (by match a with | ⟨0, _⟩ => rfl | ⟨1, _⟩ => rfl | ⟨2, _⟩ => rfl)
  rw [val_main_v26_apply]
  simp only [hl, hr, v25_ix, v11_ix]
  rfl

/-- The layer's output before normalisation at (b, c, s). -/
theorem v30_ix (x0 x1 x2 : A3) (x3 : AW) (x4 : A512) (x5 : AW) (x6 : A512) (x7 : AW) (x8 : A512) (x9 : AF) (x10 : A128)
    (b : Fin 128) (c : Fin 512) (s : Fin 128) :
    val_main_v30 (F := Ideal) x0 x1 x2 x3 x4 x5 x6 x7 x8 x9 x10 (ix3 b c s)
      = preF σ₀ x0 x1 x2 x3 x4 x5 x6 x7 x8 x9 x10 b c s := by
  have hl : ∀ k : Fin 512, lidx_main_v27 (ix3 b c s) k = ix3 b c k := fun k =>
    funext fun a => Fin.ext (by match a with | ⟨0, _⟩ => rfl | ⟨1, _⟩ => rfl | ⟨2, _⟩ => rfl)
  have hr : ∀ k : Fin 512, ridx_main_v27 (ix3 b c s) k = ix2 s k := fun k =>
    funext fun a => Fin.ext (by match a with | ⟨0, _⟩ => rfl | ⟨1, _⟩ => rfl)
  have hb : idx_main_v28 (idx_main_v29 (ix3 b c s)) = ix1 s :=
    funext fun a => Fin.ext (by match a with | ⟨0, _⟩ => rfl)
  rw [val_main_v30_apply, val_main_v27_apply, val_main_v29_apply, val_main_v28_apply, hb]
  simp only [hl, hr, v26_ix, Ideal.addf_def]
  rfl

/-! ## A sum over the first and last axes of a rank-3 array -/

/-- The indices of a rank-3 array whose middle coordinate is c, summed, are the two outer coordinates, summed. -/
theorem sum_filter_mid {n0 n1 n2 : ℕ} (x : (⟨3, ![n0, n1, n2]⟩ : Shape).Idx → EReal) (c : Fin n1)
    (P : (⟨3, ![n0, n1, n2]⟩ : Shape).Idx → Prop) [DecidablePred P] (hP : ∀ i, P i ↔ i 1 = c) :
    ∑ i ∈ Finset.univ.filter P, x i = ∑ b : Fin n0, ∑ s : Fin n2, x (ix3 b c s) := by
  rw [← Fintype.sum_prod_type' (f := fun (b : Fin n0) (s : Fin n2) => x (ix3 b c s))]
  refine Finset.sum_nbij' (fun i => (i 0, i 2)) (fun p => ix3 p.1 c p.2) ?_ ?_ ?_ ?_ ?_
  · intro i _; exact Finset.mem_univ _
  · intro p _; exact Finset.mem_filter.2 ⟨Finset.mem_univ _, (hP _).2 rfl⟩
  · intro i hi
    have hc : i 1 = c := (hP i).1 (Finset.mem_filter.1 hi).2
    subst hc; exact (eq_ix3 i).symm
  · intro p _; rfl
  · intro i hi
    have hc : i 1 = c := (hP i).1 (Finset.mem_filter.1 hi).2
    subst hc; exact congrArg x (eq_ix3 i)

/-- The host's sum over axes 0 and 2 of a [128, 512, 128] array, at channel c: the initial value plus the double sum
    over the two outer coordinates. An index drops to c exactly when its middle coordinate is c. -/
theorem hostReduceAdd_mid (h : S128x512x128.ReducesTo [0, 2] S512) (x : A3) (init : EReal) (c : Fin 512) :
    Ideal.hostReduceAdd h x init (ix1 c) = init + ∑ b : Fin 128, ∑ s : Fin 128, x (ix3 b c s) := by
  unfold Ideal.hostReduceAdd
  refine congrArg (init + ·) (sum_filter_mid x c _ fun i => ?_)
  have hv : (h.drop i 0).val = (i 1).val := Shape.ReducesTo.drop_apply_val_of_eq h i 0 1
  constructor
  · intro e
    have e0 : (h.drop i 0).val = c.val := congrArg (fun j : S512.Idx => (j 0).val) e
    exact Fin.ext (hv.symm.trans e0)
  · intro e
    funext d
    match d with
    | ⟨0, _⟩ => exact Fin.ext (hv.trans (congrArg Fin.val e))

/-! ## Batch statistics and the normalised result -/

section Norm

variable (x0 x1 x2 : A3) (x3 : AW) (x4 : A512) (x5 : AW) (x6 : A512) (x7 : AW) (x8 : A512) (x9 : AF) (x10 : A128)

/-- The layer's output before normalisation, as a function of the three coordinates. -/
def preR : Fin 128 → Fin 512 → Fin 128 → EReal := preF σ₀ x0 x1 x2 x3 x4 x5 x6 x7 x8 x9 x10

/-- The per-channel sum of the layer's output over batch and width. -/
theorem v31_ix (c : Fin 512) :
    val_main_v31 (F := Ideal) x0 x1 x2 x3 x4 x5 x6 x7 x8 x9 x10 (ix1 c)
      = ∑ b : Fin 128, ∑ s : Fin 128, preR x0 x1 x2 x3 x4 x5 x6 x7 x8 x9 x10 b c s := by
  unfold val_main_v31
  simp only [Host.reduceAdd, Ideal.hostReduceAdd_def]
  rw [hostReduceAdd_mid, val_main_cst_3_apply, Ideal.ofBits_def, Ideal.ofBits_zero_f32, zero_add]
  simp only [v30_ix]
  rfl

/-- The per-channel mean, read at the one index over channel c of the [1, 512, 1] array. -/
theorem v34_ix (c : Fin 512) :
    val_main_v34 (F := Ideal) x0 x1 x2 x3 x4 x5 x6 x7 x8 x9 x10 (ix3 (0 : Fin 1) c (0 : Fin 1)) = mean N₀ (preR x0 x1 x2 x3 x4 x5 x6 x7 x8 x9 x10) c := by
  have hb : idx_main_v32 (ix3 (0 : Fin 1) c (0 : Fin 1)) = ix1 c := funext fun a => Fin.ext (by match a with | ⟨0, _⟩ => rfl)
  rw [val_main_v34_apply, val_main_v32_apply, val_main_v33_apply, val_main_cst_4_apply, hb, v31_ix, Ideal.hostDivf_def,
    Ideal.ofBits_def]
  rfl

/-- The deviation from the channel's mean at (b, c, s), as the variance's branch of the program computes it. -/
theorem v36_ix (b : Fin 128) (c : Fin 512) (s : Fin 128) :
    val_main_v36 (F := Ideal) x0 x1 x2 x3 x4 x5 x6 x7 x8 x9 x10 (ix3 b c s)
      = preR x0 x1 x2 x3 x4 x5 x6 x7 x8 x9 x10 b c s - mean N₀ (preR x0 x1 x2 x3 x4 x5 x6 x7 x8 x9 x10) c := by
  have hb : idx_main_v35 (ix3 b c s) = ix3 (0 : Fin 1) c (0 : Fin 1) := funext fun a => Fin.ext (by match a with | ⟨0, _⟩ => rfl | ⟨1, _⟩ => rfl | ⟨2, _⟩ => rfl)
  rw [val_main_v36_apply, val_main_v35_apply, hb, v30_ix, v34_ix, Ideal.subf_def]
  rfl

/-- The per-channel sum of the squared deviations. -/
theorem v38_ix (c : Fin 512) :
    val_main_v38 (F := Ideal) x0 x1 x2 x3 x4 x5 x6 x7 x8 x9 x10 (ix1 c)
      = ∑ b : Fin 128, ∑ s : Fin 128,
          (preR x0 x1 x2 x3 x4 x5 x6 x7 x8 x9 x10 b c s - mean N₀ (preR x0 x1 x2 x3 x4 x5 x6 x7 x8 x9 x10) c)
            * (preR x0 x1 x2 x3 x4 x5 x6 x7 x8 x9 x10 b c s - mean N₀ (preR x0 x1 x2 x3 x4 x5 x6 x7 x8 x9 x10) c) := by
  unfold val_main_v38
  simp only [Host.reduceAdd, Ideal.hostReduceAdd_def]
  rw [hostReduceAdd_mid, val_main_cst_5_apply, Ideal.ofBits_def, Ideal.ofBits_zero_f32, zero_add]
  simp only [val_main_v37_apply, v36_ix, Ideal.mulf_def]

/-- The per-channel variance: the mean of the squared deviations. -/
theorem v41_ix (c : Fin 512) :
    val_main_v41 (F := Ideal) x0 x1 x2 x3 x4 x5 x6 x7 x8 x9 x10 (ix3 (0 : Fin 1) c (0 : Fin 1)) = varR N₀ (preR x0 x1 x2 x3 x4 x5 x6 x7 x8 x9 x10) c := by
  have hb : idx_main_v39 (ix3 (0 : Fin 1) c (0 : Fin 1)) = ix1 c := funext fun a => Fin.ext (by match a with | ⟨0, _⟩ => rfl)
  rw [val_main_v41_apply, val_main_v39_apply, val_main_v40_apply, val_main_cst_6_apply, hb, v38_ix, Ideal.hostDivf_def,
    Ideal.ofBits_def]
  rfl

/-- The reciprocal square root of the variance plus ε. -/
theorem v46_ix (c : Fin 512) :
    val_main_v46 (F := Ideal) x0 x1 x2 x3 x4 x5 x6 x7 x8 x9 x10 (ix3 (0 : Fin 1) c (0 : Fin 1))
      = Ideal.rsqrt (varR N₀ (preR x0 x1 x2 x3 x4 x5 x6 x7 x8 x9 x10) c + ε₀) := by
  rw [val_main_v46_apply, val_main_v45_apply, val_main_v44_apply, val_main_cst_7_apply, v41_ix,
    Ideal.hostUnary_rsqrt_def, Ideal.addf_def, Ideal.ofBits_def]

/-- The deviation from the channel's mean at (b, c, s), as the normalising branch computes it. -/
theorem v43_ix (b : Fin 128) (c : Fin 512) (s : Fin 128) :
    val_main_v43 (F := Ideal) x0 x1 x2 x3 x4 x5 x6 x7 x8 x9 x10 (ix3 b c s)
      = preR x0 x1 x2 x3 x4 x5 x6 x7 x8 x9 x10 b c s - mean N₀ (preR x0 x1 x2 x3 x4 x5 x6 x7 x8 x9 x10) c := by
  have hb : idx_main_v42 (ix3 b c s) = ix3 (0 : Fin 1) c (0 : Fin 1) := funext fun a => Fin.ext (by match a with | ⟨0, _⟩ => rfl | ⟨1, _⟩ => rfl | ⟨2, _⟩ => rfl)
  rw [val_main_v43_apply, val_main_v42_apply, hb, v30_ix, v34_ix, Ideal.subf_def]
  rfl

/-- The normalised value at (b, c, s). -/
theorem v48_ix (b : Fin 128) (c : Fin 512) (s : Fin 128) :
    val_main_v48 (F := Ideal) x0 x1 x2 x3 x4 x5 x6 x7 x8 x9 x10 (ix3 b c s)
      = (preR x0 x1 x2 x3 x4 x5 x6 x7 x8 x9 x10 b c s - mean N₀ (preR x0 x1 x2 x3 x4 x5 x6 x7 x8 x9 x10) c)
          * Ideal.rsqrt (varR N₀ (preR x0 x1 x2 x3 x4 x5 x6 x7 x8 x9 x10) c + ε₀) := by
  have hb : idx_main_v47 (ix3 b c s) = ix3 (0 : Fin 1) c (0 : Fin 1) := funext fun a => Fin.ext (by match a with | ⟨0, _⟩ => rfl | ⟨1, _⟩ => rfl | ⟨2, _⟩ => rfl)
  rw [val_main_v48_apply, val_main_v47_apply, hb, v43_ix, v46_ix, Ideal.mulf_def]

variable (x11 x12 : A512)

/-- Scaled by γ and shifted by β at (b, c, s). -/
theorem v54_ix (b : Fin 128) (c : Fin 512) (s : Fin 128) :
    val_main_v54 (F := Ideal) x0 x1 x2 x3 x4 x5 x6 x7 x8 x9 x10 x11 x12 (ix3 b c s)
      = ((preR x0 x1 x2 x3 x4 x5 x6 x7 x8 x9 x10 b c s - mean N₀ (preR x0 x1 x2 x3 x4 x5 x6 x7 x8 x9 x10) c)
          * Ideal.rsqrt (varR N₀ (preR x0 x1 x2 x3 x4 x5 x6 x7 x8 x9 x10) c + ε₀)) * c1 x11 c + c1 x12 c := by
  have hg : idx_main_v49 (idx_main_v50 (ix3 b c s)) = ix1 c := funext fun a => Fin.ext (by match a with | ⟨0, _⟩ => rfl)
  have hs : idx_main_v52 (idx_main_v53 (ix3 b c s)) = ix1 c := funext fun a => Fin.ext (by match a with | ⟨0, _⟩ => rfl)
  rw [val_main_v54_apply, val_main_v51_apply, val_main_v50_apply, val_main_v49_apply, hg, val_main_v53_apply,
    val_main_v52_apply, hs, v48_ix, Ideal.mulf_def, Ideal.addf_def]
  rfl

/-- Rectified and added to the residual at (b, c, s). -/
theorem v56_ix (b : Fin 128) (c : Fin 512) (s : Fin 128) :
    val_main_v56 (F := Ideal) x0 x1 x2 x3 x4 x5 x6 x7 x8 x9 x10 x11 x12 (ix3 b c s)
      = fin ε₀ (c3 x2) (preR x0 x1 x2 x3 x4 x5 x6 x7 x8 x9 x10) (mean N₀ (preR x0 x1 x2 x3 x4 x5 x6 x7 x8 x9 x10))
          (varR N₀ (preR x0 x1 x2 x3 x4 x5 x6 x7 x8 x9 x10)) (c1 x11) (c1 x12) b c s := by
  rw [val_main_v56_apply, val_main_v55_apply, val_main_call0_v0_apply, val_main_call0_cst_apply, v54_ix, Ideal.addf_def,
    Ideal.maximumf_def, Ideal.ofBits_def, Ideal.ofBits_zero_f32]
  rfl

end Norm

/-- The reference's first result is the normalised layer, with the variance as the mean of squared deviations. -/
theorem ref_out (x0 x1 x2 : A3) (x3 : AW) (x4 : A512) (x5 : AW) (x6 : A512) (x7 : AW) (x8 : A512) (x9 : AF) (x10 : A128)
    (x11 x12 : A512) :
    val_main_v56 (F := Ideal) x0 x1 x2 x3 x4 x5 x6 x7 x8 x9 x10 x11 x12
      = outR σ₀ N₀ ε₀ x0 x1 x2 x3 x4 x5 x6 x7 x8 x9 x10 x11 x12 := by
  funext j
  obtain ⟨b, c, s, rfl⟩ : ∃ (b : Fin 128) (c : Fin 512) (s : Fin 128), j = ix3 b c s := ⟨j 0, j 1, j 2, eq_ix3 j⟩
  rw [v56_ix]
  rfl

end Cert.Attn.Ref

end
-- ==== Proof.Algebra.lean ====
/-
  The two textbook forms of the variance agree on real inputs.

  Every stage of the attention layer maps real numbers to real numbers: finite sums, products, sums and
  differences of reals are real; the maximum of a nonempty finite family of reals is one of them; the
  exponential of a real is a positive real; a nonempty finite sum of positive reals is a positive real,
  and a real divided by a positive real is a real. Hence the layer's output before normalisation is real at
  every index. For a real-valued family p over a finite index set of n > 0 elements,
    (Σ p²)/n − ((Σ p)/n)² = (Σ (p − (Σ p)/n)²)/n,
  which is the equality of the two forms of the variance, and the two results differ in nothing else.
-/
import proofs.«176117_j7438883356886_2_alg».proof.Proof.Spec

noncomputable section

namespace Cert.Attn

open Idealize.ShloMosaic Idealize.ShloMosaic.ValueIdx

/-- An extended real that is a real number. -/
def IsReal (x : EReal) : Prop := ∃ r : ℝ, x = (r : EReal)

/-- An extended real that is a positive real number. -/
def IsPosReal (x : EReal) : Prop := ∃ r : ℝ, 0 < r ∧ x = (r : EReal)

/-! ## The constants -/

theorem sigma_real : IsReal σ₀ := by
  unfold IsReal σ₀
  simp [Ideal.ofBits, Ideal.ieee, -EReal.coe_mul]

theorem N_val : N₀ = ((16384 : ℝ) : EReal) := by
  unfold N₀
  simp [Ideal.ofBits, Ideal.ieee, -EReal.coe_mul]; norm_num

/-! ## Realness through the arithmetic -/

theorem isReal_coe (r : ℝ) : IsReal (r : EReal) := ⟨r, rfl⟩

theorem IsPosReal.isReal {x : EReal} (h : IsPosReal x) : IsReal x := by
  obtain ⟨r, _, rfl⟩ := h; exact ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- A nonempty finite sum of positive reals is a positive real. -/
theorem isPosReal_sum {ι : Type*} (s : Finset ι) (hs : s.Nonempty) (f : ι → EReal)
    (h : ∀ i ∈ s, IsPosReal (f i)) : IsPosReal (∑ i ∈ s, f i) := by
  classical
  induction hs using Finset.Nonempty.cons_induction with
  | singleton a => simpa using h a (Finset.mem_singleton_self a)
  | cons a s ha hs ih =>
    rw [Finset.sum_cons]
    exact (h a (Finset.mem_cons_self a s)).add (ih fun i hi => h i (Finset.mem_cons.2 (Or.inr hi)))

/-- The exponential of a real is a positive real. -/
theorem isPosReal_exp {x : EReal} (hx : IsReal x) : IsPosReal (Ideal.exp x) := by
  obtain ⟨a, rfl⟩ := hx; exact ⟨Real.exp a, Real.exp_pos a, Ideal.exp_coe a⟩

/-- A real divided by a positive real is a real. -/
theorem isReal_div {x y : EReal} (hx : IsReal x) (hy : IsPosReal y) : IsReal (Ideal.div x y) := by
  obtain ⟨b, hb, rfl⟩ := hy
  rw [Ideal.div_coe (ne_of_gt hb)]
  exact hx.mul (isReal_coe _)

/-- The maximum of a nonempty finite family of reals, folded from −∞, is real: it is one of them. -/
theorem isReal_fold_max {ι : Type*} (s : Finset ι) (hs : s.Nonempty) (f : ι → EReal)
    (h : ∀ i ∈ s, IsReal (f i)) : IsReal (s.fold max ⊥ f) := by
  obtain ⟨i, hi, e⟩ := Finset.exists_mem_eq_sup s hs f
  have : s.fold max ⊥ f = f i := e
  rw [this]; exact h i hi

/-! ## Realness through the layer -/

variable {R S M : ℕ}

theorem isReal_lin {x : Fin R → Fin S → EReal} {W : Fin M → Fin S → EReal} {bias : Fin M → EReal}
    (hx : ∀ i s, IsReal (x i s)) (hW : ∀ m s, IsReal (W m s)) (hb : ∀ m, IsReal (bias m)) (i : Fin R) (m : Fin M) :
    IsReal (lin x W bias i m) :=
  (isReal_sum _ _ fun s _ => (hx i s).mul (hW m s)).add (hb m)

theorem isReal_scores {σ : EReal} {q k : Fin R → Fin M → EReal} (hσ : IsReal σ)
    (hq : ∀ i m, IsReal (q i m)) (hk : ∀ i m, IsReal (k i m)) (i j : Fin R) : IsReal (scores σ q k i j) :=
  (isReal_sum _ _ fun m _ => (hq i m).mul (hk j m)).mul hσ

theorem isReal_rowMax [NeZero R] {sc : Fin R → Fin R → EReal} (h : ∀ i j, IsReal (sc i j)) (i : Fin R) :
    IsReal (rowMax sc i) :=
  isReal_fold_max _ Finset.univ_nonempty _ fun j _ => h i j

theorem isPosReal_expo [NeZero R] {sc : Fin R → Fin R → EReal} (h : ∀ i j, IsReal (sc i j)) (i j : Fin R) :
    IsPosReal (expo sc i j) :=
  isPosReal_exp ((h i j).sub (isReal_rowMax h i))

theorem isReal_softmax [NeZero R] {sc : Fin R → Fin R → EReal} (h : ∀ i j, IsReal (sc i j)) (i j : Fin R) :
    IsReal (softmax sc i j) :=
  isReal_div (isPosReal_expo h i j).isReal (isPosReal_sum _ Finset.univ_nonempty _ fun j' _ => isPosReal_expo h i j')

theorem isReal_mix {a : Fin R → Fin R → EReal} {v : Fin R → Fin M → EReal} (ha : ∀ i j, IsReal (a i j))
    (hv : ∀ j m, IsReal (v j m)) (i : Fin R) (m : Fin M) : IsReal (mix a v i m) :=
  isReal_sum _ _ fun j _ => (ha i j).mul (hv j m)

theorem isReal_attn [NeZero R] {σ : EReal} {Q K : Fin R → Fin S → EReal} {Wq : Fin M → Fin S → EReal}
    {bq : Fin M → EReal} {Wk : Fin M → Fin S → EReal} {bk : Fin M → EReal} (hσ : IsReal σ)
    (hQ : ∀ i s, IsReal (Q i s)) (hK : ∀ i s, IsReal (K i s)) (hWq : ∀ m s, IsReal (Wq m s))
    (hbq : ∀ m, IsReal (bq m)) (hWk : ∀ m s, IsReal (Wk m s)) (hbk : ∀ m, IsReal (bk m)) (i j : Fin R) :
    IsReal (attn σ Q K Wq bq Wk bk i j) :=
  isReal_softmax (isReal_scores hσ (isReal_lin hQ hWq hbq) (isReal_lin hK hWk hbk)) i j

theorem isReal_pre [NeZero R] {σ : EReal} {Q K V : Fin R → Fin S → EReal} {Wq : Fin M → Fin S → EReal}
    {bq : Fin M → EReal} {Wk : Fin M → Fin S → EReal} {bk : Fin M → EReal} {Wv : Fin M → Fin S → EReal}
    {bv : Fin M → EReal} {Wf : Fin S → Fin M → EReal} {bf : Fin S → EReal} (hσ : IsReal σ)
    (hQ : ∀ i s, IsReal (Q i s)) (hK : ∀ i s, IsReal (K i s)) (hV : ∀ i s, IsReal (V i s))
    (hWq : ∀ m s, IsReal (Wq m s)) (hbq : ∀ m, IsReal (bq m)) (hWk : ∀ m s, IsReal (Wk m s))
    (hbk : ∀ m, IsReal (bk m)) (hWv : ∀ m s, IsReal (Wv m s)) (hbv : ∀ m, IsReal (bv m))
    (hWf : ∀ s m, IsReal (Wf s m)) (hbf : ∀ s, IsReal (bf s)) (i : Fin R) (s : Fin S) :
    IsReal (pre σ Q K V Wq bq Wk bk Wv bv Wf bf i s) :=
  isReal_lin (isReal_mix (isReal_attn hσ hQ hK hWq hbq hWk hbk) (isReal_lin hV hWv hbv)) hWf hbf i s

/-! ## The variance identity -/

/-- Over the reals: the mean of the squared deviations from the mean is the mean of the squares minus the
    square of the mean, for a family indexed by a finite set of n ≠ 0 elements. -/
theorem real_variance {ι : Type*} [Fintype ι] (p : ι → ℝ) (n : ℝ) (hn : (Fintype.card ι : ℝ) = n) (hn0 : n ≠ 0) :
    (∑ i, (p i - (∑ i, p i) * (1 / n)) * (p i - (∑ i, p i) * (1 / n))) * (1 / n)
      = (∑ i, p i * p i) * (1 / n) - ((∑ i, p i) * (1 / n)) * ((∑ i, p i) * (1 / n)) := by
  set T : ℝ := ∑ i, p i with hT
  set m : ℝ := T * (1 / n) with hm
  have h1 : ∑ i, (p i - m) * (p i - m) = (∑ i, p i * p i) - 2 * m * T + n * (m * m) := by
    have : ∀ i, (p i - m) * (p i - m) = p i * p i - 2 * m * p i + m * m := fun i => by ring
    simp only [this]
    rw [Finset.sum_add_distrib, Finset.sum_sub_distrib, ← Finset.mul_sum, Finset.sum_const, Finset.card_univ,
      nsmul_eq_mul, hn]
  rw [h1, hm]
  field_simp
  ring

variable {B C : ℕ}

/-- With real entries and a count N = B · S ≠ 0, the two forms of the variance agree. -/
theorem varR_eq_varK (n : ℝ) (hn : ((B * S : ℕ) : ℝ) = n) (hn0 : n ≠ 0) (P : Fin B → Fin C → Fin S → EReal)
    (hP : ∀ b c s, IsReal (P b c s)) (c : Fin C) : varR (n : EReal) P c = varK (n : EReal) P c := by
  have hPc : ∀ b s, IsReal (P b c s) := fun b s => hP b c s
  choose p hp using hPc
  have hcard : (Fintype.card (Fin B × Fin S) : ℝ) = n := by
    rw [← hn]; simp [Fintype.card_prod, Fintype.card_fin]
  have key := real_variance (fun x : Fin B × Fin S => p x.1 x.2) n hcard hn0
  simp only [Fintype.sum_prod_type] at key
  have hmean : mean (n : EReal) P c = (((∑ b, ∑ s, p b s) * (1 / n) : ℝ) : EReal) := by
    unfold mean
    rw [Ideal.div_coe hn0]
    simp only [hp, ← coe_sum, ← EReal.coe_mul]
  unfold varR varK
  rw [hmean, Ideal.div_coe hn0, Ideal.div_coe hn0]
  simp only [hp, ← EReal.coe_sub, ← EReal.coe_mul, ← coe_sum]
  rw [key]

/-! ## The two results -/

/-- The layer's output before normalisation is real at every index when every input is. -/
theorem isReal_preF (σ : EReal) (hσ : IsReal σ)
    (Q K V : A3) (Wq : AW) (bq : A512) (Wk : AW) (bk : A512) (Wv : AW) (bv : A512) (Wf : AF) (bf : A128)
    (hQ : ∀ i, IsReal (Q i)) (hK : ∀ i, IsReal (K i)) (hV : ∀ i, IsReal (V i)) (hWq : ∀ i, IsReal (Wq i)) (hbq : ∀ i, IsReal (bq i))
    (hWk : ∀ i, IsReal (Wk i)) (hbk : ∀ i, IsReal (bk i)) (hWv : ∀ i, IsReal (Wv i)) (hbv : ∀ i, IsReal (bv i))
    (hWf : ∀ i, IsReal (Wf i)) (hbf : ∀ i, IsReal (bf i)) (b : Fin 128) (c : Fin 512) (s : Fin 128) :
    IsReal (preF σ Q K V Wq bq Wk bk Wv bv Wf bf b c s) :=
  isReal_pre hσ (fun _ _ => hQ _) (fun _ _ => hK _) (fun _ _ => hV _) (fun _ _ => hWq _) (fun _ => hbq _)
    (fun _ _ => hWk _) (fun _ => hbk _) (fun _ _ => hWv _) (fun _ => hbv _) (fun _ _ => hWf _) (fun _ => hbf _) c s

/-- With every input a real number, the two forms of the variance agree, hence the two forms of the result. -/
theorem outR_eq_outK (σ N ε : EReal) (hσ : IsReal σ) (hN : N = ((16384 : ℝ) : EReal))
    (Q K V : A3) (Wq : AW) (bq : A512) (Wk : AW) (bk : A512) (Wv : AW) (bv : A512) (Wf : AF) (bf : A128) (γ β : A512)
    (hQ : ∀ i, IsReal (Q i)) (hK : ∀ i, IsReal (K i)) (hV : ∀ i, IsReal (V i)) (hWq : ∀ i, IsReal (Wq i)) (hbq : ∀ i, IsReal (bq i))
    (hWk : ∀ i, IsReal (Wk i)) (hbk : ∀ i, IsReal (bk i)) (hWv : ∀ i, IsReal (Wv i)) (hbv : ∀ i, IsReal (bv i))
    (hWf : ∀ i, IsReal (Wf i)) (hbf : ∀ i, IsReal (bf i)) :
    outR σ N ε Q K V Wq bq Wk bk Wv bv Wf bf γ β = outK σ N ε Q K V Wq bq Wk bk Wv bv Wf bf γ β := by
  have hvar : varR N (preF σ Q K V Wq bq Wk bk Wv bv Wf bf) = varK N (preF σ Q K V Wq bq Wk bk Wv bv Wf bf) := by
    funext c
    rw [hN]
    exact varR_eq_varK 16384 (by norm_num) (by norm_num) _
      (isReal_preF σ hσ Q K V Wq bq Wk bk Wv bv Wf bf hQ hK hV hWq hbq hWk hbk hWv hbv hWf hbf) c
  unfold outR outK
  rw [hvar]

end Cert.Attn

end
-- ==== Proof.PreReal.lean ====
/-
  From the precondition to real-valued inputs.

  The precondition is the conjunction, over the thirteen input arrays x, of "every entry of x satisfies |x| < +∞",
  where |x| is max x (−x) on the extended reals and +∞ is written as the 32-bit float pattern with all exponent bits
  set and a zero significand. Each "every entry" is a fold of the entries' truth values by "and", started from true,
  into a single result; the conjunction of the thirteen results is stated to be true.

  A fold by "and" that is true met only true entries, so each entry of each array satisfies max x (−x) < +∞. On the
  extended reals this excludes exactly x = −∞ (where −x = +∞) and x = +∞, so x is a real number.
-/
import proofs.«176117_j7438883356886_2_alg».proof.Defs
import proofs.«176117_j7438883356886_2_alg».proof.Proof.Gen.Pre_finite_inputs
import Idealize.ShloMosaic.Lib.ReduceAll
import Idealize.ShloMosaic.Lib.ValueIdx
import Idealize.ShloMosaic.PureOps.Ideal.Laws

noncomputable section

namespace Cert.Attn.PreReal

open Idealize.ShloMosaic Idealize.SL.Sem

/-- The rank-0 shape has exactly one index: an index is a function on the empty set of axes. -/
instance : Subsingleton Cert.Pre_finite_inputs.S_.Idx := ⟨fun a b => funext fun d => d.elim0⟩

/-- The 32-bit float pattern with sign 0, all eight exponent bits set and a zero significand denotes +∞. -/
theorem inf_bits : Ideal.ofBits .f32 0x7F800000#32 = (⊤ : EReal) := by
  simp [Ideal.ofBits, Ideal.ieee]

/-- An extended real whose absolute value max x (−x) lies strictly below +∞ is a real number:
    at x = −∞ the maximum is −(−∞) = +∞, and at x = +∞ it is +∞ itself. -/
theorem real_of_abs_lt_top (x : EReal) (hx : max x (-x) < ⊤) : ∃ r : ℝ, x = (r : EReal) := by
  induction x using EReal.rec with
  | bot => simp at hx
  | coe r => exact ⟨r, rfl⟩
  | top => simp at hx

/-- A truth value, as a one-bit word, is 1 exactly when it is true. -/
theorem ofBool_eq_one (b : Bool) : BitVec.ofBool b = 1#1 ↔ b = true := by cases b <;> decide

/-- For an array x of any shape: if the fold by "and" over all entries of the comparison |x| < +∞ is true,
    then every entry of x is a real number. -/
theorem entries_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant Cert.Pre_finite_inputs.S_ .f32 0x7F800000#32)))
          (constantI Cert.Pre_finite_inputs.S_ 1 1#1) hr hu j = 1#1)
    (i : s.Idx) : ∃ r : ℝ, x i = (r : EReal) := by
  -- the fold is true, so the comparison at entry i is true
  have hi := Host.reduce_andi_all _ _ hr hu j e i
  have hlt : max (x i) (-(x i)) < (⊤ : EReal) := by
    -- entry i of the comparison is the order's "<" between max x (−x) and the constant, which is +∞
    have h2 : Ideal.cmp .olt (max (x i) (-(x i))) (Ideal.ofBits .f32 0x7F800000#32) = 1#1 := hi
    rw [inf_bits] at h2
    unfold Ideal.cmp at h2
    rw [ofBool_eq_one] at h2
    exact of_decide_eq_true h2
  exact real_of_abs_lt_top _ hlt

/-- Under the precondition every entry of each of the thirteen input arrays is a real number. -/
theorem real_of_pre [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal))
    ∧ (∀ i, ∃ r : ℝ, m ((c.tc : Thread Cert.KernelIdeal.nD Cert.KernelIdeal.τ).loc Cert.KernelIdeal.main_arg12) i = (r : EReal)) := by
  -- the precondition at the one index of its rank-0 result
  have e := congrFun (h c) ValueIdx.ix0
  dsimp only [Cert.Pre_finite_inputs.fn, Cert.Pre_finite_inputs.fn_part1, Cert.Pre_finite_inputs.fn_part2,
    Cert.Pre_finite_inputs.fn_part3] at e
  -- a conjunction of thirteen one-bit words is 1 exactly when each of them is
  simp only [andi, IntOp.andi_eq_one] at e
  obtain ⟨⟨⟨⟨⟨⟨⟨⟨⟨⟨⟨⟨e0, e1⟩, e2⟩, e3⟩, e4⟩, e5⟩, e6⟩, e7⟩, e8⟩, e9⟩, e10⟩, e11⟩, e12⟩ := e
  exact ⟨fun i => entries_real _ _ _ _ _ e0 i, fun i => entries_real _ _ _ _ _ e1 i, fun i => entries_real _ _ _ _ _ e2 i,
    fun i => entries_real _ _ _ _ _ e3 i, fun i => entries_real _ _ _ _ _ e4 i, fun i => entries_real _ _ _ _ _ e5 i,
    fun i => entries_real _ _ _ _ _ e6 i, fun i => entries_real _ _ _ _ _ e7 i, fun i => entries_real _ _ _ _ _ e8 i,
    fun i => entries_real _ _ _ _ _ e9 i, fun i => entries_real _ _ _ _ _ e10 i, fun i => entries_real _ _ _ _ _ e11 i,
    fun i => entries_real _ _ _ _ _ e12 i⟩

end Cert.Attn.PreReal

end
-- ==== Proof.LibColumnCast.lean ====
/-
  A vector reshaped to a column.
-/
import Idealize.ShloMosaic.Lib.Pipeline.Value
import Idealize.ShloMosaic.Lib.ValueIdx

namespace Cert.Lib

open Idealize.ShloMosaic Idealize.ShloMosaic.ValueIdx

/-- An `[a]` array reshaped to the column `[a, 1]` reads, at `(i, u)`, the operand at `i`, whatever the unit
    coordinate `u`: both positions have the same row-major offset `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.KRun.lean ====
/-
  The kernel program's run with its two result arrays named, and what the second kernel finds in its input arrays.

  The program is four segments: host operations, the attention kernel, host operations, the normalising kernel. Its run
  ends with every buffer at the contents the fold through the segments says. Read at the two result buffers: the first
  result is what the second kernel's write-backs leave, the second result what the first kernel's write-backs left
  (nothing after touches it). Read at the second kernel's inputs through the host operations between the kernels: the
  layer's output as the first kernel left it, the residual argument as launched, and four [512, 1] columns — per
  channel the mean (Σ_b S₁ b) / N, the variance (Σ_b S₂ b) / N − mean², and the scale and shift arguments — where S₁, S₂
  are the first kernel's [128, 1, 512] arrays of per-item partial sums.
-/
import proofs.«176117_j7438883356886_2_alg».proof.Proof.Spec
import proofs.«176117_j7438883356886_2_alg».proof.Proof.Gen.KernelIdeal.Frame
import proofs.«176117_j7438883356886_2_alg».proof.Proof.LibColumnCast
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost
import Idealize.ShloMosaic.PureOps.Ideal.Laws

-- deciding which references a list of eighteen operations writes recurses once per element
set_option maxRecDepth 16384

noncomputable section

namespace Cert.Attn.K

open Cert.KernelIdeal Cert.KernelIdeal.Gen Cert.Attn
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The run, with the two result arrays named -/

-- the launch theorem's implicit arguments are found by unifying its conclusion with this one, which takes unfolding
-- plain definitions in a metavariable's type
set_option backward.isDefEq.respectTransparency.types false in
/-- From any memory with zero counters every weakly fair execution of the program terminates, nothing faulting, and
    in every final state the two result arrays hold what the last segment boundary's contents say, the thirteen
    argument arrays what they held at launch: the launch over the program's four segments, the last thread state read
    against the final state buffer by buffer. -/
theorem run_results :
    θ_run (defs (F := Ideal)) (onTc (τ := τ) (main (F := Ideal))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_v8_1) = W4 m ρ c (Proc.devRef .tc main_v8_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       h c _ (mem_uc main_v8_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

/-- The first result array at the end of the run is what the second kernel's write-backs leave in it. -/
theorem W4_out (c : Dev nD) : W4 m ρ c (Proc.devRef .tc main_v23) = (dat1 (V3 m ρ) c).arrAt 6 cfg1.N :=
  W4_arr m ρ c 6

/-- The second result array at the end of the run is what the first kernel's write-backs left in it: the second
    kernel has no window on it and no host operation between the two kernels writes it. -/
theorem W4_attn (c : Dev nD) : W4 m ρ c (Proc.devRef .tc main_v8_1) = (dat0 (V1 m ρ) c).arrAt 12 cfg0.N :=
  calc W4 m ρ c (Proc.devRef .tc main_v8_1)
    _ = W3 m ρ c (Proc.devRef .tc main_v8_1) := W4_of_ne m ρ c main_v8_1 (by decide)
    _ = W2 m ρ c (Proc.devRef .tc main_v8_1) := StableHlo.after_of_forall_not_mem (b := Proc.devRef .tc main_v8_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 12 cfg0.N := W2_arr m ρ c 12

/-! ## The host operations between the two kernels, read at an index -/

/-- The [128, 1, 512] array of per-item partial sums, flattened to [128, 512] and summed over the items, at a channel:
    the sum over the items of the array's entries in that channel. -/
theorem sum_items_apply (X : (⟨3, ![128, 1, 512]⟩ : Shape).Idx → EReal) (ch : Fin 512) :
    Host.reduceAdd (F := Ideal) (shapeCast S128x512 X shapeCasts_S128x1x512_S128x512)
        (constant (F := Ideal) S_ .f32 0x00000000#32) reducesTo_S128x512_S512_d0 h_S_ (ix1 ch)
      = ∑ b : Fin 128, X (ix3 b (0 : Fin 1) ch) := by
  have hR : S128x512.Reduces [0] S512 := by decide
  refine (hostReduceAdd_apply _ _ reducesTo_S128x512_S512_d0 h_S_ (ix1 ch)).trans ?_
  refine (Ideal.hostReduceAdd_single reducesTo_S128x512_S512_d0 hR _ _ (ix1 ch)).trans ?_
  rw [show constant (F := Ideal) S_ .f32 0x00000000#32 (Shape.Idx.first h_S_) = (0 : EReal) from Ideal.ofBits_zero_f32, zero_add]
  refine Finset.sum_congr rfl fun b _ => ?_
  refine shapeCast_apply X shapeCasts_S128x1x512_S128x512 _ (ix3 b (0 : Fin 1) ch) ?_
  rw [Shape.rowMajor_val_three, Shape.rowMajor_val_two]
  show (b.val * 1 + 0) * 512 + ch.val = b.val * 512 + ch.val
  omega

/-- The mean column's entry in a channel: that sum divided by the count. -/
theorem mean_items_apply (X : (⟨3, ![128, 1, 512]⟩ : Shape).Idx → EReal) (ch : Fin 512) :
    Host.divf (F := Ideal)
        (Host.reduceAdd (F := Ideal) (shapeCast S128x512 X shapeCasts_S128x1x512_S128x512)
          (constant (F := Ideal) S_ .f32 0x00000000#32) reducesTo_S128x512_S512_d0 h_S_)
        (broadcastInDim S512 ![] bcast_S_S512 (constant (F := Ideal) S_ .f32 0x46800000#32)) (ix1 ch)
      = Ideal.div (∑ b : Fin 128, X (ix3 b (0 : Fin 1) ch)) N₀ := by
  refine (hostDivf_apply _ _ (ix1 ch)).trans ?_
  rw [sum_items_apply X ch, broadcastInDim_scalar_apply]
  rfl

/-- The variance column's entry in a channel: the mean of the second array minus the square of the mean of the first. -/
theorem var_items_apply (X2 X3 : (⟨3, ![128, 1, 512]⟩ : Shape).Idx → EReal) (ch : Fin 512) :
    subf (F := Ideal)
        (Host.divf (F := Ideal)
          (Host.reduceAdd (F := Ideal) (shapeCast S128x512 X3 shapeCasts_S128x1x512_S128x512)
            (constant (F := Ideal) S_ .f32 0x00000000#32) reducesTo_S128x512_S512_d0 h_S_)
          (broadcastInDim S512 ![] bcast_S_S512 (constant (F := Ideal) S_ .f32 0x46800000#32)))
        (mulf (F := Ideal)
          (Host.divf (F := Ideal)
            (Host.reduceAdd (F := Ideal) (shapeCast S128x512 X2 shapeCasts_S128x1x512_S128x512)
              (constant (F := Ideal) S_ .f32 0x00000000#32) reducesTo_S128x512_S512_d0 h_S_)
            (broadcastInDim S512 ![] bcast_S_S512 (constant (F := Ideal) S_ .f32 0x46800000#32)))
          (Host.divf (F := Ideal)
            (Host.reduceAdd (F := Ideal) (shapeCast S128x512 X2 shapeCasts_S128x1x512_S128x512)
              (constant (F := Ideal) S_ .f32 0x00000000#32) reducesTo_S128x512_S512_d0 h_S_)
            (broadcastInDim S512 ![] bcast_S_S512 (constant (F := Ideal) S_ .f32 0x46800000#32)))) (ix1 ch)
      = Ideal.div (∑ b : Fin 128, X3 (ix3 b (0 : Fin 1) ch)) N₀
        - Ideal.div (∑ b : Fin 128, X2 (ix3 b (0 : Fin 1) ch)) N₀ * Ideal.div (∑ b : Fin 128, X2 (ix3 b (0 : Fin 1) ch)) N₀ := by
  refine (subf_apply _ _ (ix1 ch)).trans ?_
  rw [mulf_apply, mean_items_apply X3 ch, mean_items_apply X2 ch]

/-- The layer's output array is as the first kernel left it: no host operation between the kernels writes it. -/
theorem host1_pre (c : Dev nD) : V3 m ρ c main_v8_0 = V2 m ρ c main_v8_0 :=
  StableHlo.after_of_forall_not_mem (b := Proc.devRef .tc main_v8_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The residual argument is as launched: no host operation writes it and the first kernel only reads it. -/
theorem host1_val (c : Dev nD) : V3 m ρ c main_arg2 = m ((c.tc : Thread nD τ).loc main_arg2) :=
  calc V3 m ρ c main_arg2
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

/-- An argument no kernel has a window on and no host operation writes is, after the first kernel, as launched. -/
theorem W2_arg11 (c : Dev nD) : W2 m ρ c (Proc.devRef .tc main_arg11) = m ((c.tc : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg11) := rfl

theorem W2_arg12 (c : Dev nD) : W2 m ρ c (Proc.devRef .tc main_arg12) = m ((c.tc : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg12) := rfl

/-- The mean column the second kernel finds: per channel, the sum over the items of the first kernel's partial sums,
    divided by the count. -/
theorem host1_mean (c : Dev nD) (ch : Fin 512) :
    (V3 m ρ c main_v19 : (⟨2, ![512, 1]⟩ : Shape).Idx → EReal) (ix2 ch (0 : Fin 1))
      = Ideal.div (∑ b : Fin 128, (V2 m ρ c main_v8_2 : (⟨3, ![128, 1, 512]⟩ : Shape).Idx → EReal) (ix3 b (0 : Fin 1) ch)) N₀ := by
  have e : (V3 m ρ c main_v19 : (⟨2, ![512, 1]⟩ : Shape).Idx → EReal)
      = shapeCast S512x1 (Host.divf (F := Ideal)
          (Host.reduceAdd (F := Ideal) (shapeCast S128x512 (V2 m ρ c main_v8_2 : (⟨3, ![128, 1, 512]⟩ : Shape).Idx → EReal) shapeCasts_S128x1x512_S128x512)
            (constant (F := Ideal) S_ .f32 0x00000000#32) reducesTo_S128x512_S512_d0 h_S_)
          (broadcastInDim S512 ![] bcast_S_S512 (constant (F := Ideal) S_ .f32 0x46800000#32))) shapeCasts_S512_S512x1 := by
    show StableHlo.after hostOps1 _ (Proc.devRef .tc main_v19) = _
    after_results
    rfl
  refine (congrFun e (ix2 ch (0 : Fin 1))).trans ?_
  generalize (V2 m ρ c main_v8_2 : (⟨3, ![128, 1, 512]⟩ : Shape).Idx → EReal) = X
  refine (Cert.Lib.shapeCast_a_a1_apply _ shapeCasts_S512_S512x1 ch (0 : Fin 1)).trans ?_
  exact mean_items_apply X ch

/-- The variance column the second kernel finds: per channel, the mean of the first kernel's partial sums of squares
    minus the square of the mean of its partial sums. -/
theorem host1_var (c : Dev nD) (ch : Fin 512) :
    (V3 m ρ c main_v20 : (⟨2, ![512, 1]⟩ : Shape).Idx → EReal) (ix2 ch (0 : Fin 1))
      = Ideal.div (∑ b : Fin 128, (V2 m ρ c main_v8_3 : (⟨3, ![128, 1, 512]⟩ : Shape).Idx → EReal) (ix3 b (0 : Fin 1) ch)) N₀
        - Ideal.div (∑ b : Fin 128, (V2 m ρ c main_v8_2 : (⟨3, ![128, 1, 512]⟩ : Shape).Idx → EReal) (ix3 b (0 : Fin 1) ch)) N₀
          * Ideal.div (∑ b : Fin 128, (V2 m ρ c main_v8_2 : (⟨3, ![128, 1, 512]⟩ : Shape).Idx → EReal) (ix3 b (0 : Fin 1) ch)) N₀ := by
  have e : (V3 m ρ c main_v20 : (⟨2, ![512, 1]⟩ : Shape).Idx → EReal)
      = shapeCast S512x1 (subf (F := Ideal)
        (Host.divf (F := Ideal)
          (Host.reduceAdd (F := Ideal) (shapeCast S128x512 (V2 m ρ c main_v8_3 : (⟨3, ![128, 1, 512]⟩ : Shape).Idx → EReal) shapeCasts_S128x1x512_S128x512)
            (constant (F := Ideal) S_ .f32 0x00000000#32) reducesTo_S128x512_S512_d0 h_S_)
          (broadcastInDim S512 ![] bcast_S_S512 (constant (F := Ideal) S_ .f32 0x46800000#32)))
        (mulf (F := Ideal)
          (Host.divf (F := Ideal)
            (Host.reduceAdd (F := Ideal) (shapeCast S128x512 (V2 m ρ c main_v8_2 : (⟨3, ![128, 1, 512]⟩ : Shape).Idx → EReal) shapeCasts_S128x1x512_S128x512)
              (constant (F := Ideal) S_ .f32 0x00000000#32) reducesTo_S128x512_S512_d0 h_S_)
            (broadcastInDim S512 ![] bcast_S_S512 (constant (F := Ideal) S_ .f32 0x46800000#32)))
          (Host.divf (F := Ideal)
            (Host.reduceAdd (F := Ideal) (shapeCast S128x512 (V2 m ρ c main_v8_2 : (⟨3, ![128, 1, 512]⟩ : Shape).Idx → EReal) shapeCasts_S128x1x512_S128x512)
              (constant (F := Ideal) S_ .f32 0x00000000#32) reducesTo_S128x512_S512_d0 h_S_)
            (broadcastInDim S512 ![] bcast_S_S512 (constant (F := Ideal) S_ .f32 0x46800000#32))))) shapeCasts_S512_S512x1 := by
    show StableHlo.after hostOps1 _ (Proc.devRef .tc main_v20) = _
    after_results
    rfl
  refine (congrFun e (ix2 ch (0 : Fin 1))).trans ?_
  generalize (V2 m ρ c main_v8_2 : (⟨3, ![128, 1, 512]⟩ : Shape).Idx → EReal) = X2
  generalize (V2 m ρ c main_v8_3 : (⟨3, ![128, 1, 512]⟩ : Shape).Idx → EReal) = X3
  refine (Cert.Lib.shapeCast_a_a1_apply _ shapeCasts_S512_S512x1 ch (0 : Fin 1)).trans ?_
  exact var_items_apply X2 X3 ch

/-- The scale column the second kernel finds is the scale argument, channel by channel. -/
theorem host1_gamma (c : Dev nD) (ch : Fin 512) :
    (V3 m ρ c main_v21 : (⟨2, ![512, 1]⟩ : Shape).Idx → EReal) (ix2 ch (0 : Fin 1))
      = (m ((c.tc : Thread nD τ).loc main_arg11) : (⟨1, ![512]⟩ : Shape).Idx → EReal) (ix1 ch) := by
  have e : (V3 m ρ c main_v21 : (⟨2, ![512, 1]⟩ : Shape).Idx → EReal)
      = shapeCast S512x1 (W2 m ρ c (Proc.devRef .tc main_arg11) : (⟨1, ![512]⟩ : Shape).Idx → EReal) shapeCasts_S512_S512x1 := by
    show StableHlo.after hostOps1 _ (Proc.devRef .tc main_v21) = _
    after_results
    rfl
  refine (congrFun e (ix2 ch (0 : Fin 1))).trans ?_
  rw [W2_arg11 m ρ c]
  exact Cert.Lib.shapeCast_a_a1_apply _ shapeCasts_S512_S512x1 ch (0 : Fin 1)

/-- The shift column the second kernel finds is the shift argument, channel by channel. -/
theorem host1_beta (c : Dev nD) (ch : Fin 512) :
    (V3 m ρ c main_v22 : (⟨2, ![512, 1]⟩ : Shape).Idx → EReal) (ix2 ch (0 : Fin 1))
      = (m ((c.tc : Thread nD τ).loc main_arg12) : (⟨1, ![512]⟩ : Shape).Idx → EReal) (ix1 ch) := by
  have e : (V3 m ρ c main_v22 : (⟨2, ![512, 1]⟩ : Shape).Idx → EReal)
      = shapeCast S512x1 (W2 m ρ c (Proc.devRef .tc main_arg12) : (⟨1, ![512]⟩ : Shape).Idx → EReal) shapeCasts_S512_S512x1 := by
    show StableHlo.after hostOps1 _ (Proc.devRef .tc main_v22) = _
    after_results
    rfl
  refine (congrFun e (ix2 ch (0 : Fin 1))).trans ?_
  rw [W2_arg12 m ρ c]
  exact Cert.Lib.shapeCast_a_a1_apply _ shapeCasts_S512_S512x1 ch (0 : Fin 1)

end Cert.Attn.K

end
-- ==== Proof.K0Defs.lean ====
/-
  What the attention region computes, as functions of the arrays it finds.

  The region finds the three batched inputs, the weights already transposed and the biases already shaped as rows.
  Read back through those layouts they are the layer's weights and biases, and the region's value at batch item b is
  the attention layer of batch item b.
-/
import proofs.«176117_j7438883356886_2_alg».proof.Proof.Gen.KernelIdeal.Frame
import proofs.«176117_j7438883356886_2_alg».proof.Proof.Spec

noncomputable section

namespace Cert.Attn.K0

open Cert.KernelIdeal Cert.KernelIdeal.Gen Cert.Attn Idealize.ShloMosaic Idealize.ShloMosaic.ValueIdx Idealize.ShloMosaic.TcCoe

/-- A [128, 512] array read transposed, as [512] × [128] weights. -/
def wT (X : AF) : Fin 512 → Fin 128 → EReal := fun m s => X (ix2 s m)
/-- A [512, 128] array read transposed, as [128] × [512] weights. -/
def wfT (X : AW) : Fin 128 → Fin 512 → EReal := fun s m => X (ix2 m s)
/-- A [1, n] row read as a vector. -/
def rowv {n : ℕ} (X : (⟨2, ![1, n]⟩ : Shape).Idx → EReal) : Fin n → EReal := fun m => X (ix2 (0 : Fin 1) m)

variable (V : (c : Dev nD) → (b : Ref sig .tc) → Buf (Elt Ideal) ((c : Thread nD τ).loc b))

/-- The layer's output before normalisation, from the arrays the region finds. -/
def preV (c : Dev nD) : Fin 128 → Fin 512 → Fin 128 → EReal := fun b =>
  pre σ₀ (c3 (V c main_arg0 : A3) b) (c3 (V c main_arg1 : A3) b) (c3 (V c main_arg2 : A3) b)
    (wT (V c main_v0)) (rowv (V c main_v4)) (wT (V c main_v1)) (rowv (V c main_v5)) (wT (V c main_v2)) (rowv (V c main_v6))
    (wfT (V c main_v3)) (rowv (V c main_v7))

/-- The attention weights, from the arrays the region finds. -/
def attnV (c : Dev nD) : Fin 128 → Fin 512 → Fin 512 → EReal := fun b =>
  attn σ₀ (c3 (V c main_arg0 : A3) b) (c3 (V c main_arg1 : A3) b)
    (wT (V c main_v0)) (rowv (V c main_v4)) (wT (V c main_v1)) (rowv (V c main_v5))

end Cert.Attn.K0

end
-- ==== Proof.KHost0.lean ====
/-
  What the first kernel region finds in its input arrays.

  Before the first region the program applies eight layout operations to its inputs: each of the three [512, 128]
  projection weights is transposed to [128, 512], the [128, 512] output weight is transposed to [512, 128], and each
  of the four bias vectors of length a is recast as a single row, a [1, a] array. Nothing else is written, so

    · the three [128, 512, 128] activation arrays are still what the launch memory holds;
    · a transposed weight read at (s, m) is the weight at (m, s);
    · a bias row read at (0, m) is the bias at m (the row-major position of (0, m) in a [1, a] array is m).

  The contents at the region's entry are the launch memory followed through the eight operations in order; each
  statement below reads that chain at one buffer: at the buffer an operation writes it gives the operation applied to
  its operand's contents, and at any other buffer what was there before.
-/
import proofs.«176117_j7438883356886_2_alg».proof.Proof.Gen.KernelIdeal.Frame
import proofs.«176117_j7438883356886_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.Attn.K0H

open Cert.KernelIdeal Cert.KernelIdeal.Gen Cert.Attn Idealize.ShloMosaic Idealize.ShloMosaic.ValueIdx Idealize.SL.Sem

variable (m : (ℓ : Loc nD τ sig) → Buf (Elt Ideal) ℓ) (ρ : Dev nD → PrngReg) (c : Dev nD)

/-- No operation before the region writes this activation array: it is as launched. -/
theorem host0_q : V1 m ρ c main_arg0 = m ((c.tc : Thread nD τ).loc main_arg0) := by
  show StableHlo.after hostOps0 _ (Proc.devRef .tc main_arg0) = _
  after_results

/-- No operation before the region writes this activation array: it is as launched. -/
theorem host0_k : V1 m ρ c main_arg1 = m ((c.tc : Thread nD τ).loc main_arg1) := by
  show StableHlo.after hostOps0 _ (Proc.devRef .tc main_arg1) = _
  after_results

/-- No operation before the region writes this activation array: it is as launched. -/
theorem host0_v : V1 m ρ c main_arg2 = m ((c.tc : Thread nD τ).loc main_arg2) := by
  show StableHlo.after hostOps0 _ (Proc.devRef .tc main_arg2) = _
  after_results

/-- The transposed projection weight at (s, m) is the weight at (m, s). -/
theorem host0_wq (s : Fin 128) (mm : Fin 512) :
    (V1 m ρ c main_v0 : AF) (ix2 s mm) = (m ((c.tc : Thread nD τ).loc main_arg3) : AW) (ix2 mm s) := by
  have e : (V1 m ρ c main_v0 : AF)
      = transpose S128x512 [1, 0] (m ((c.tc : Thread nD τ).loc main_arg3)) transposes_S512x128_S128x512_1_0 := by
    show StableHlo.after hostOps0 _ (Proc.devRef .tc main_v0) = _
    after_results
  exact (congrFun e _).trans (transpose_ix2_apply _ _ s mm)

/-- The transposed projection weight at (s, m) is the weight at (m, s). -/
theorem host0_wk (s : Fin 128) (mm : Fin 512) :
    (V1 m ρ c main_v1 : AF) (ix2 s mm) = (m ((c.tc : Thread nD τ).loc main_arg5) : AW) (ix2 mm s) := by
  have e : (V1 m ρ c main_v1 : AF)
      = transpose S128x512 [1, 0] (m ((c.tc : Thread nD τ).loc main_arg5)) transposes_S512x128_S128x512_1_0 := by
    show StableHlo.after hostOps0 _ (Proc.devRef .tc main_v1) = _
    after_results
  exact (congrFun e _).trans (transpose_ix2_apply _ _ s mm)

/-- The transposed projection weight at (s, m) is the weight at (m, s). -/
theorem host0_wv (s : Fin 128) (mm : Fin 512) :
    (V1 m ρ c main_v2 : AF) (ix2 s mm) = (m ((c.tc : Thread nD τ).loc main_arg7) : AW) (ix2 mm s) := by
  have e : (V1 m ρ c main_v2 : AF)
      = transpose S128x512 [1, 0] (m ((c.tc : Thread nD τ).loc main_arg7)) transposes_S512x128_S128x512_1_0 := by
    show StableHlo.after hostOps0 _ (Proc.devRef .tc main_v2) = _
    after_results
  exact (congrFun e _).trans (transpose_ix2_apply _ _ s mm)

/-- The transposed output weight at (m, s) is the weight at (s, m). -/
theorem host0_wf (mm : Fin 512) (s : Fin 128) :
    (V1 m ρ c main_v3 : AW) (ix2 mm s) = (m ((c.tc : Thread nD τ).loc main_arg9) : AF) (ix2 s mm) := by
  have e : (V1 m ρ c main_v3 : AW)
      = transpose S512x128 [1, 0] (m ((c.tc : Thread nD τ).loc main_arg9)) transposes_S128x512_S512x128_1_0 := by
    show StableHlo.after hostOps0 _ (Proc.devRef .tc main_v3) = _
    after_results
  exact (congrFun e _).trans (transpose_ix2_apply _ _ mm s)

/-- The bias recast as one row, read at (0, m), is the bias at m. -/
theorem host0_bq (mm : Fin 512) :
    (V1 m ρ c main_v4 : (⟨2, ![1, 512]⟩ : Shape).Idx → EReal) (ix2 (0 : Fin 1) mm)
      = (m ((c.tc : Thread nD τ).loc main_arg4) : A512) (ix1 mm) := by
  have e : (V1 m ρ c main_v4 : (⟨2, ![1, 512]⟩ : Shape).Idx → EReal)
      = shapeCast S1x512 (m ((c.tc : Thread nD τ).loc main_arg4)) shapeCasts_S512_S1x512 := by
    show StableHlo.after hostOps0 _ (Proc.devRef .tc main_v4) = _
    after_results
    rfl
  exact (congrFun e _).trans (shapeCast_a_1a_apply _ _ 0 mm)

/-- The bias recast as one row, read at (0, m), is the bias at m. -/
theorem host0_bk (mm : Fin 512) :
    (V1 m ρ c main_v5 : (⟨2, ![1, 512]⟩ : Shape).Idx → EReal) (ix2 (0 : Fin 1) mm)
      = (m ((c.tc : Thread nD τ).loc main_arg6) : A512) (ix1 mm) := by
  have e : (V1 m ρ c main_v5 : (⟨2, ![1, 512]⟩ : Shape).Idx → EReal)
      = shapeCast S1x512 (m ((c.tc : Thread nD τ).loc main_arg6)) shapeCasts_S512_S1x512 := by
    show StableHlo.after hostOps0 _ (Proc.devRef .tc main_v5) = _
    after_results
    rfl
  exact (congrFun e _).trans (shapeCast_a_1a_apply _ _ 0 mm)

/-- The bias recast as one row, read at (0, m), is the bias at m. -/
theorem host0_bv (mm : Fin 512) :
    (V1 m ρ c main_v6 : (⟨2, ![1, 512]⟩ : Shape).Idx → EReal) (ix2 (0 : Fin 1) mm)
      = (m ((c.tc : Thread nD τ).loc main_arg8) : A512) (ix1 mm) := by
  have e : (V1 m ρ c main_v6 : (⟨2, ![1, 512]⟩ : Shape).Idx → EReal)
      = shapeCast S1x512 (m ((c.tc : Thread nD τ).loc main_arg8)) shapeCasts_S512_S1x512 := by
    show StableHlo.after hostOps0 _ (Proc.devRef .tc main_v6) = _
    after_results
    rfl
  exact (congrFun e _).trans (shapeCast_a_1a_apply _ _ 0 mm)

/-- The output bias recast as one row, read at (0, s), is the bias at s. -/
theorem host0_bf (s : Fin 128) :
    (V1 m ρ c main_v7 : (⟨2, ![1, 128]⟩ : Shape).Idx → EReal) (ix2 (0 : Fin 1) s)
      = (m ((c.tc : Thread nD τ).loc main_arg10) : A128) (ix1 s) := by
  have e : (V1 m ρ c main_v7 : (⟨2, ![1, 128]⟩ : Shape).Idx → EReal)
      = shapeCast S1x128 (m ((c.tc : Thread nD τ).loc main_arg10)) shapeCasts_S128_S1x128 := by
    show StableHlo.after hostOps0 _ (Proc.devRef .tc main_v7) = _
    after_results
    rfl
  exact (congrFun e _).trans (shapeCast_a_1a_apply _ _ 0 s)

end Cert.Attn.K0H

end
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibPlainDot.lean ====
/-
  A plain matrix product read at an entry.

  A product of an [M, K] array with a [K, N] array that contracts the left operand's second axis with the right
  operand's first axis and has no batch axis: the sum over its one-axis contraction index, read at the output entry
  (p, q), is the textbook sum over i of the left operand at (p, i) times the right operand at (i, q).
-/
import Idealize.ShloMosaic.PureOps.Ideal
import Idealize.ShloMosaic.PureOps.Ideal.Laws
import Idealize.ShloMosaic.Lib.ValueIdx
import proofs.«176117_j7438883356886_2_alg».proof.Proof.LibDotSum

noncomputable section

namespace Cert.LibPlainDot

open Idealize.ShloMosaic Idealize.ShloMosaic.ValueIdx

variable {M K N : ℕ} (D : DotDims ⟨2, ![M, K]⟩ ⟨2, ![K, N]⟩ ⟨2, ![M, N]⟩)

/-- One axis is contracted. -/
theorem rank_contr_one (hlc : D.lhsContracting = [1]) : D.contr.rank = 1 := by
  rw [D.rank_contr, hlc]; rfl

/-- Its extent is the left operand's second extent. -/
theorem size_contr_K (hlc : D.lhsContracting = [1]) :
    D.contr.size ⟨0, by rw [rank_contr_one D hlc]; exact Nat.one_pos⟩ = K := by
  have h := D.size_contr 0 (by rw [hlc]; exact Nat.one_pos)
  rw [h]
  simp only [hlc, List.getElem_cons_zero]
  rfl

/-- The left operand's index at output entry (p, q) and contraction position i is (p, i). -/
theorem lhsIdx_eq (hlc : D.lhsContracting = [1]) (hlb : D.lhsBatch = []) (hln : D.lhsNonContracting = [0])
    (p : Fin M) (q : Fin N) (i : Fin K) :
    D.lhsIdx (ix2 p q) ((contrEquiv1 D K (rank_contr_one D hlc) (size_contr_K D hlc)).symm i) = ix2 p i := by
  funext a
  apply Fin.ext
  match a with
  | ⟨0, _⟩ =>
    unfold DotDims.lhsIdx
    have hb : (⟨0, by decide⟩ : Fin 2) ∉ D.lhsBatch := by rw [hlb]; exact List.not_mem_nil
    have hn : (⟨0, by decide⟩ : Fin 2) ∈ D.lhsNonContracting := by rw [hln]; exact List.mem_singleton.mpr rfl
    rw [dif_neg hb, dif_pos hn]
    simp only [Fin.val_cast]
    have key : ∀ (u : ℕ) (hu : u < 2), u = 0 → ((ix2 p q : (⟨2, ![M, N]⟩ : Shape).Idx) ⟨u, hu⟩).val = p.val :=
      fun u hu h => by subst h; rfl
    exact key _ _ (by simp [hlb, hln])
  | ⟨1, _⟩ =>
    have h := D.lhsIdx_val_of_single (cl := (1 : Fin 2)) hlc (ix2 p q)
      ((contrEquiv1 D K (rank_contr_one D hlc) (size_contr_K D hlc)).symm i)
    refine h.trans ?_
    exact contrEquiv1_symm_val D K (rank_contr_one D hlc) (size_contr_K D hlc) i

/-- The right operand's index at output entry (p, q) and contraction position i is (i, q). -/
theorem rhsIdx_eq (hlc : D.lhsContracting = [1]) (hrc : D.rhsContracting = [0]) (hlb : D.lhsBatch = [])
    (hrb : D.rhsBatch = []) (hln : D.lhsNonContracting = [0]) (hrn : D.rhsNonContracting = [1])
    (p : Fin M) (q : Fin N) (i : Fin K) :
    D.rhsIdx (ix2 p q) ((contrEquiv1 D K (rank_contr_one D hlc) (size_contr_K D hlc)).symm i) = ix2 i q := by
  funext a
  apply Fin.ext
  match a with
  | ⟨0, _⟩ =>
    have h := D.rhsIdx_val_of_single (cr := (0 : Fin 2)) hrc (ix2 p q)
      ((contrEquiv1 D K (rank_contr_one D hlc) (size_contr_K D hlc)).symm i)
    refine h.trans ?_
    exact contrEquiv1_symm_val D K (rank_contr_one D hlc) (size_contr_K D hlc) i
  | ⟨1, _⟩ =>
    unfold DotDims.rhsIdx
    have hb : (⟨1, by decide⟩ : Fin 2) ∉ D.rhsBatch := by rw [hrb]; exact List.not_mem_nil
    have hn : (⟨1, by decide⟩ : Fin 2) ∈ D.rhsNonContracting := by rw [hrn]; exact List.mem_singleton.mpr rfl
    rw [dif_neg hb, dif_pos hn]
    simp only [Fin.val_cast]
    have key : ∀ (u : ℕ) (hu : u < 2), u = 1 → ((ix2 p q : (⟨2, ![M, N]⟩ : Shape).Idx) ⟨u, hu⟩).val = q.val :=
      fun u hu h => by subst h; rfl
    exact key _ _ (by simp [hlb, hln, hrn])

/-- The product's sum at entry (p, q) is the sum over i of left (p, i) times right (i, q). -/
theorem sum_plain (hlc : D.lhsContracting = [1]) (hrc : D.rhsContracting = [0]) (hlb : D.lhsBatch = [])
    (hrb : D.rhsBatch = []) (hln : D.lhsNonContracting = [0]) (hrn : D.rhsNonContracting = [1])
    (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = ∑ i : Fin K, f (ix2 p i) * g (ix2 i q) :=
  Cert.LibDotSum.sum_contr_eq D K (rank_contr_one D hlc) (size_contr_K D hlc) f g (ix2 p q)
    (fun i => f (ix2 p i)) (fun i => g (ix2 i q))
    (fun i => congrArg f (lhsIdx_eq D hlc hlb hln p q i))
    (fun i => congrArg g (rhsIdx_eq D hlc hrc hlb hrb hln hrn p q i))

end Cert.LibPlainDot

end
-- ==== Proof.LibDotNT.lean ====
/-
  A matrix product with the right operand transposed, read at an entry.

  A product of an [M, K] array with an [N, K] array that contracts the second axis of both and has no batch axis: the
  sum over its one-axis contraction index, read at the output entry (p, q), is the sum over i of the left operand at
  (p, i) times the right operand at (q, i).
-/
import Idealize.ShloMosaic.PureOps.Ideal
import Idealize.ShloMosaic.PureOps.Ideal.Laws
import Idealize.ShloMosaic.Lib.ValueIdx
import proofs.«176117_j7438883356886_2_alg».proof.Proof.LibDotSum

noncomputable section

namespace Cert.LibDotNT

open Idealize.ShloMosaic Idealize.ShloMosaic.ValueIdx

variable {M K N : ℕ} (D : DotDims ⟨2, ![M, K]⟩ ⟨2, ![N, K]⟩ ⟨2, ![M, N]⟩)

/-- One axis is contracted. -/
theorem rank_contr_one (hlc : D.lhsContracting = [1]) : D.contr.rank = 1 := by
  rw [D.rank_contr, hlc]; rfl

/-- Its extent is the left operand's second extent. -/
theorem size_contr_K (hlc : D.lhsContracting = [1]) :
    D.contr.size ⟨0, by rw [rank_contr_one D hlc]; exact Nat.one_pos⟩ = K := by
  have h := D.size_contr 0 (by rw [hlc]; exact Nat.one_pos)
  rw [h]
  simp only [hlc, List.getElem_cons_zero]
  rfl

/-- The left operand's index at output entry (p, q) and contraction position i is (p, i). -/
theorem lhsIdx_eq (hlc : D.lhsContracting = [1]) (hlb : D.lhsBatch = []) (hln : D.lhsNonContracting = [0])
    (p : Fin M) (q : Fin N) (i : Fin K) :
    D.lhsIdx (ix2 p q) ((contrEquiv1 D K (rank_contr_one D hlc) (size_contr_K D hlc)).symm i) = ix2 p i := by
  funext a
  apply Fin.ext
  match a with
  | ⟨0, _⟩ =>
    unfold DotDims.lhsIdx
    have hb : (⟨0, by decide⟩ : Fin 2) ∉ D.lhsBatch := by rw [hlb]; exact List.not_mem_nil
    have hn : (⟨0, by decide⟩ : Fin 2) ∈ D.lhsNonContracting := by rw [hln]; exact List.mem_singleton.mpr rfl
    rw [dif_neg hb, dif_pos hn]
    simp only [Fin.val_cast]
    have key : ∀ (u : ℕ) (hu : u < 2), u = 0 → ((ix2 p q : (⟨2, ![M, N]⟩ : Shape).Idx) ⟨u, hu⟩).val = p.val :=
      fun u hu h => by subst h; rfl
    exact key _ _ (by simp [hlb, hln])
  | ⟨1, _⟩ =>
    have h := D.lhsIdx_val_of_single (cl := (1 : Fin 2)) hlc (ix2 p q)
      ((contrEquiv1 D K (rank_contr_one D hlc) (size_contr_K D hlc)).symm i)
    refine h.trans ?_
    exact contrEquiv1_symm_val D K (rank_contr_one D hlc) (size_contr_K D hlc) i

/-- The right operand's index at output entry (p, q) and contraction position i is (q, i). -/
theorem rhsIdx_eq (hlc : D.lhsContracting = [1]) (hrc : D.rhsContracting = [1]) (hlb : D.lhsBatch = [])
    (hrb : D.rhsBatch = []) (hln : D.lhsNonContracting = [0]) (hrn : D.rhsNonContracting = [0])
    (p : Fin M) (q : Fin N) (i : Fin K) :
    D.rhsIdx (ix2 p q) ((contrEquiv1 D K (rank_contr_one D hlc) (size_contr_K D hlc)).symm i) = ix2 q i := by
  funext a
  apply Fin.ext
  match a with
  | ⟨0, _⟩ =>
    unfold DotDims.rhsIdx
    have hb : (⟨0, by decide⟩ : Fin 2) ∉ D.rhsBatch := by rw [hrb]; exact List.not_mem_nil
    have hn : (⟨0, by decide⟩ : Fin 2) ∈ D.rhsNonContracting := by rw [hrn]; exact List.mem_singleton.mpr rfl
    rw [dif_neg hb, dif_pos hn]
    simp only [Fin.val_cast]
    have key : ∀ (u : ℕ) (hu : u < 2), u = 1 → ((ix2 p q : (⟨2, ![M, N]⟩ : Shape).Idx) ⟨u, hu⟩).val = q.val :=
      fun u hu h => by subst h; rfl
    exact key _ _ (by simp [hlb, hln, hrn])
  | ⟨1, _⟩ =>
    have h := D.rhsIdx_val_of_single (cr := (1 : Fin 2)) hrc (ix2 p q)
      ((contrEquiv1 D K (rank_contr_one D hlc) (size_contr_K D hlc)).symm i)
    refine h.trans ?_
    exact contrEquiv1_symm_val D K (rank_contr_one D hlc) (size_contr_K D hlc) i

/-- The product's sum at entry (p, q) is the sum over i of left (p, i) times right (q, i). -/
theorem sum_nt (hlc : D.lhsContracting = [1]) (hrc : D.rhsContracting = [1]) (hlb : D.lhsBatch = [])
    (hrb : D.rhsBatch = []) (hln : D.lhsNonContracting = [0]) (hrn : D.rhsNonContracting = [0])
    (f : (⟨2, ![M, K]⟩ : Shape).Idx → EReal) (g : (⟨2, ![N, K]⟩ : Shape).Idx → EReal) (p : Fin M) (q : Fin N) :
    ∑ k : D.contr.Idx, f (D.lhsIdx (ix2 p q) k) * g (D.rhsIdx (ix2 p q) k) = ∑ i : Fin K, f (ix2 p i) * g (ix2 q i) :=
  Cert.LibDotSum.sum_contr_eq D K (rank_contr_one D hlc) (size_contr_K D hlc) f g (ix2 p q)
    (fun i => f (ix2 p i)) (fun i => g (ix2 q i))
    (fun i => congrArg f (lhsIdx_eq D hlc hlb hln p q i))
    (fun i => congrArg g (rhsIdx_eq D hlc hrc hlb hrb hln hrn p q i))

end Cert.LibDotNT

end
-- ==== Proof.LibColumnBroadcast.lean ====
/-
  A column broadcast along its rows.
-/
import Idealize.ShloMosaic.Lib.Pipeline.Value
import Idealize.ShloMosaic.Lib.ValueIdx

namespace Cert.Lib

open Idealize.ShloMosaic Idealize.ShloMosaic.ValueIdx

/-- An `[a, 1]` column broadcast to `[a, b]` reads, at `(p, c)`, the column's entry in row `p`: the unit axis
    is read at `0` whatever the column `c`, the row axis is carried over. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.K0Pay.lean ====
/-
  The attention body's arithmetic read at an index.

  The body's stored values are pure terms of its loaded blocks.  Read entry by entry over the extended reals, with
  every change of float format the identity: each projection is a row of the block times the transposed weights plus
  the bias row; the scores are the products of projected rows, scaled; each row of scores is shifted by its
  maximum, exponentiated and divided by its sum; the context mixes the value rows by those weights; the output is
  the context times the transposed output weights plus its bias row; and the two partial statistics are the sums
  along a row of the output and of its square.
-/
import proofs.«176117_j7438883356886_2_alg».proof.Proof.Gen.KernelIdeal.Skeleton
import proofs.«176117_j7438883356886_2_alg».proof.Proof.Spec
import proofs.«176117_j7438883356886_2_alg».proof.Proof.LibPlainDot
import proofs.«176117_j7438883356886_2_alg».proof.Proof.LibDotNT
import proofs.«176117_j7438883356886_2_alg».proof.Proof.LibColumnBroadcast
import proofs.«176117_j7438883356886_2_alg».proof.Proof.LibColumnCast
import Idealize.ShloMosaic.Lib.ValueIdx
import Idealize.ShloMosaic.Lib.ValueLayout
import Idealize.ShloMosaic.Lib.Pipeline.Value
import Idealize.ShloMosaic.PureOps.Ideal.Laws

noncomputable section

namespace Cert.Attn.K0

open Cert.KernelIdeal Cert.KernelIdeal.Gen Cert.Attn Idealize.ShloMosaic Idealize.ShloMosaic.ValueIdx

/-- A plain matrix product into the zero accumulator, read at entry (p, q): the sum over i of left (p, i) times
    right (i, q). -/
theorem matmul_plain_at {M K N : ℕ} (D : DotDims ⟨2, ![M, K]⟩ ⟨2, ![K, N]⟩ ⟨2, ![M, N]⟩)
    (hlc : D.lhsContracting = [1]) (hrc : D.rhsContracting = [0]) (hlb : D.lhsBatch = []) (hrb : D.rhsBatch = [])
    (hln : D.lhsNonContracting = [0]) (hrn : D.rhsNonContracting = [1]) {φ₁ φ₂ : FTy}
    (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ i : Fin K, l (ix2 p i) * r (ix2 i q) :=
  (Ideal.matmul_constant_zero_apply D none l r (ix2 p q)).trans
    (Cert.LibPlainDot.sum_plain D hlc hrc hlb hrb hln hrn l r p q)

/-- A projection: the block's row i times the transposed weights' column m, plus the bias row at m. -/
theorem pay3_at (x0 : Vec Ideal S1x512x128 .f32) (x3 : Vec Ideal S128x512 .f32) (x4 : Vec Ideal S1x512 .f32)
    (X : Fin 512 → Fin 128 → EReal) (W : Fin 512 → Fin 128 → EReal) (bias : Fin 512 → EReal)
    (h0 : ∀ i s, x0 (ix3 (0 : Fin 1) i s) = X i s) (h3 : ∀ s m, x3 (ix2 s m) = W m s)
    (h4 : ∀ m, x4 (ix2 (0 : Fin 1) m) = bias m) (i m : Fin 512) :
    k0_pay3 x0 x3 x4 (ix2 i m) = lin X W bias i m := by
  unfold k0_pay3 lin
  refine congrArg₂ (· + ·) ?_ ?_
  · refine (matmul_plain_at _ rfl rfl rfl rfl rfl rfl _ _ i m).trans ?_
    refine Finset.sum_congr rfl fun s _ => ?_
    show shapeCast S512x128 x0 _ (ix2 i s) * shapeCast S128x512 x3 _ (ix2 s m) = _
    rw [shapeCast_1ab_ab_apply, shapeCast_self, h0, h3]
  · show broadcastTo S512x512 (shapeCast S1x512 x4 _) _ (ix2 i m) = _
    rw [broadcastTo_1b_ab_apply, shapeCast_self, h4]

/-- A product with the right operand transposed, into the zero accumulator, read at entry (p, q): the sum over i of
    left (p, i) times right (q, i). -/
theorem matmul_nt_at {M K N : ℕ} (D : DotDims ⟨2, ![M, K]⟩ ⟨2, ![N, K]⟩ ⟨2, ![M, N]⟩)
    (hlc : D.lhsContracting = [1]) (hrc : D.rhsContracting = [1]) (hlb : D.lhsBatch = []) (hrb : D.rhsBatch = [])
    (hln : D.lhsNonContracting = [0]) (hrn : D.rhsNonContracting = [0]) {φ₁ φ₂ : FTy}
    (l : FVec Ideal ⟨2, ![M, K]⟩ φ₁) (r : FVec Ideal ⟨2, ![N, K]⟩ φ₂) (p : Fin M) (q : Fin N) :
    matmul D none l r (constant ⟨2, ![M, N]⟩ .f32 0x00000000#32) (ix2 p q) = ∑ i : Fin K, l (ix2 p i) * r (ix2 q i) :=
  (Ideal.matmul_constant_zero_apply D none l r (ix2 p q)).trans
    (Cert.LibDotNT.sum_nt D hlc hrc hlb hrb hln hrn l r p q)

/-- The f32 pattern of −∞ is the bottom of the extended reals. -/
theorem ofBits_neg_inf : Ideal.ofBits .f32 0xFF800000#32 = ⊥ := by
  simp [Ideal.ofBits, Ideal.ieee]

/-- A row's maximum: the reduction over the second axis, from −∞, read at row i. -/
theorem rowmax_at {n : ℕ} (v : FVec Ideal ⟨2, ![n, n]⟩ .f32) (h : Shape.Reduces ⟨2, ![n, n]⟩ [1] ⟨1, ![n]⟩)
    (hφ : FKind.Formats .f32) (hacc : (0xFF800000#32 : BitVec 32) = FKind.maximumf.neutral .f32 hφ)
    (f : Fin n → Fin n → EReal) (hv : ∀ i j, v (ix2 i j) = f i j) (i : Fin n) :
    multiReduction .maximumf [1] ⟨1, ![n]⟩ v 0xFF800000#32 h hφ hacc (ix1 i) = rowMax f i := by
  refine (Ideal.multiReduction_maximumf_single v 0xFF800000#32 h hφ hacc (ix1 i)).trans ?_
  unfold rowMax
  show (Finset.univ : Finset (Fin n)).fold max (Ideal.ofBits .f32 0xFF800000#32) (v ∘ h.lift (ix1 i)) = _
  rw [ofBits_neg_inf]
  have hf : (v ∘ h.lift (ix1 i)) = f i := funext fun k => by
    show v (h.lift (ix1 i) k) = f i k
    rw [← hv i k]
    refine congrArg v (funext fun a => Fin.ext ?_)
    match a with
    | ⟨0, _⟩ => rfl
    | ⟨1, _⟩ => rfl
  rw [hf]
  rfl

/-- A row's sum: the reduction over the second axis, read at row i. -/
theorem rowsum_at {n k : ℕ} (v : FVec Ideal ⟨2, ![n, k]⟩ .f32) (h : Shape.Reduces ⟨2, ![n, k]⟩ [1] ⟨1, ![n]⟩)
    (hφ : FKind.Formats .f32) (hacc : (0x00000000#32 : BitVec 32) = FKind.add.neutral .f32 hφ)
    (f : Fin n → Fin k → EReal) (hv : ∀ i j, v (ix2 i j) = f i j) (i : Fin n) :
    multiReduction .add [1] ⟨1, ![n]⟩ v 0x00000000#32 h hφ hacc (ix1 i) = ∑ j : Fin k, f i j := by
  refine (Ideal.multiReduction_add_single v 0x00000000#32 h hφ hacc (ix1 i)).trans ?_
  show ∑ j : Fin k, v (h.lift (ix1 i) j) = _
  refine Finset.sum_congr rfl fun j _ => ?_
  rw [← hv i j]
  refine congrArg v (funext fun a => Fin.ext ?_)
  match a with
  | ⟨0, _⟩ => rfl
  | ⟨1, _⟩ => rfl

/-- A vector placed as a column and spread along the rows reads, at (i, j), the vector at i. -/
theorem colspread_at {a b : ℕ} (w : (⟨1, ![a]⟩ : Shape).Idx → EReal) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ w h1) h2 (ix2 i j) = w (ix1 i) :=
  (Cert.Lib.broadcastTo_a1_ab_apply _ h2 i j).trans (Cert.Lib.shapeCast_a_a1_apply w h1 i 0)

/-- The body's row maxima of the scaled scores. -/
def rmax (v40 : FVec Ideal S512x512 .f32) : FVec Ideal S512 .f32 :=
  multiReduction .maximumf [1] S512 v40 0xFF800000#32 reduces_S512x512_S512 (.inl rfl) rfl

/-- The body's shifted exponentials. -/
def ex (v40 : FVec Ideal S512x512 .f32) : FVec Ideal S512x512 .f32 :=
  exp (subf v40 (broadcastTo S512x512 (shapeCast S512x1 (rmax v40) shapeCasts_S512_S512x1) broadcasts_S512x1_S512x512))

/-- The body's softmax lines as one function of the scaled scores. -/
def smx (v40 : FVec Ideal S512x512 .f32) : FVec Ideal S512x512 .f32 :=
  divf (ex v40) (broadcastTo S512x512 (shapeCast S512x1
    (multiReduction .add [1] S512 (ex v40) 0x00000000#32 reduces_S512x512_S512 (.inl rfl) rfl) shapeCasts_S512_S512x1)
    broadcasts_S512x1_S512x512)

theorem rmax_at (v40 : FVec Ideal S512x512 .f32) (sc : Fin 512 → Fin 512 → EReal)
    (h40 : ∀ i j, v40 (ix2 i j) = sc i j) (i : Fin 512) : rmax v40 (ix1 i) = rowMax sc i :=
  rowmax_at v40 _ _ _ sc h40 i

theorem ex_at (v40 : FVec Ideal S512x512 .f32) (sc : Fin 512 → Fin 512 → EReal)
    (h40 : ∀ i j, v40 (ix2 i j) = sc i j) (i j : Fin 512) : ex v40 (ix2 i j) = expo sc i j := by
  unfold ex expo
  show Ideal.exp (v40 (ix2 i j) - broadcastTo S512x512 (shapeCast S512x1 (rmax v40) _) _ (ix2 i j)) = _
  rw [colspread_at, rmax_at v40 sc h40, h40]

theorem smx_at (v40 : FVec Ideal S512x512 .f32) (sc : Fin 512 → Fin 512 → EReal)
    (h40 : ∀ i j, v40 (ix2 i j) = sc i j) (i j : Fin 512) : smx v40 (ix2 i j) = softmax sc i j := by
  unfold smx softmax
  refine congrArg₂ Ideal.div (ex_at v40 sc h40 i j) ?_
  refine (colspread_at _ _ _ i j).trans ?_
  exact rowsum_at (ex v40) _ _ _ (expo sc) (ex_at v40 sc h40) i

/-- The attention weights: the softmax of the scaled scores of the two projected blocks. -/
theorem pay6_at (q k : FVec Ideal S512x512 .f32) (qf kf : Fin 512 → Fin 512 → EReal)
    (hq : ∀ i m, q (ix2 i m) = qf i m) (hk : ∀ j m, k (ix2 j m) = kf j m) (i j : Fin 512) :
    k0_pay6 q k (ix2 i j) = softmax (scores σ₀ qf kf) i j := by
  have hsc : ∀ i j : Fin 512, (mulf (matmul dot_S512x512_S512x512_S512x512_1_1_0_0_n_n none (truncf .bf16 q bitsLt_bf16_f32)
      (truncf .bf16 k bitsLt_bf16_f32) (constant S512x512 .f32 0x00000000#32))
      (broadcast S512x512 (Scalar.ofBits (F := Ideal) .f32 0x3D3504F3#32)) : FVec Ideal S512x512 .f32) (ix2 i j)
      = scores σ₀ qf kf i j := by
    intro i j
    unfold scores
    refine congrArg₂ (· * ·) ?_ rfl
    refine (matmul_nt_at _ rfl rfl rfl rfl rfl rfl _ _ i j).trans ?_
    refine Finset.sum_congr rfl fun m _ => ?_
    show q (ix2 i m) * k (ix2 j m) = _
    rw [hq, hk]
  exact smx_at _ _ hsc i j

/-- The value projection without its bias row: the block's row i times the transposed weights' column m. -/
theorem pay5_at (x2 : Vec Ideal S1x512x128 .f32) (x7 : Vec Ideal S128x512 .f32)
    (X : Fin 512 → Fin 128 → EReal) (W : Fin 512 → Fin 128 → EReal)
    (h2 : ∀ i s, x2 (ix3 (0 : Fin 1) i s) = X i s) (h7 : ∀ s m, x7 (ix2 s m) = W m s) (i m : Fin 512) :
    k0_pay5 x2 x7 (ix2 i m) = ∑ s : Fin 128, X i s * W m s := by
  unfold k0_pay5
  refine (matmul_plain_at _ rfl rfl rfl rfl rfl rfl _ _ i m).trans ?_
  refine Finset.sum_congr rfl fun s _ => ?_
  show shapeCast S512x128 x2 _ (ix2 i s) * shapeCast S128x512 x7 _ (ix2 s m) = _
  rw [shapeCast_1ab_ab_apply, shapeCast_self, h2, h7]

/-- The output before normalisation: the attention weights mix the value rows, and the context goes through the
    transposed output weights plus the bias row. -/
theorem pay8_at (v20 : FVec Ideal S512x128 .bf16) (v25 v30 v31 : FVec Ideal S512x512 .f32) (v32 : Vec Ideal S1x512 .f32)
    (v58 : Vec Ideal S1x128 .f32) (qf kf vf : Fin 512 → Fin 512 → EReal) (Wf : Fin 128 → Fin 512 → EReal)
    (bf : Fin 128 → EReal) (h25 : ∀ i m, v25 (ix2 i m) = qf i m) (h30 : ∀ i m, v30 (ix2 i m) = kf i m)
    (hv : ∀ j m, v31 (ix2 j m) + v32 (ix2 (0 : Fin 1) m) = vf j m) (h20 : ∀ m s, v20 (ix2 m s) = Wf s m)
    (h58 : ∀ s, v58 (ix2 (0 : Fin 1) s) = bf s) (i : Fin 512) (s : Fin 128) :
    k0_pay8 v20 v25 v30 v31 v32 v58 (ix2 i s) = lin (mix (softmax (scores σ₀ qf kf)) vf) Wf bf i s := by
  unfold k0_pay8 lin
  refine congrArg₂ (· + ·) ?_ ?_
  · refine (matmul_plain_at _ rfl rfl rfl rfl rfl rfl _ _ i s).trans ?_
    refine Finset.sum_congr rfl fun m _ => ?_
    refine congrArg₂ (· * ·) ?_ (h20 m s)
    refine (matmul_plain_at _ rfl rfl rfl rfl rfl rfl _ _ i m).trans ?_
    unfold mix
    refine Finset.sum_congr rfl fun j _ => ?_
    refine congrArg₂ (· * ·) (pay6_at v25 v30 qf kf h25 h30 i j) ?_
    show v31 (ix2 j m) + broadcastTo S512x512 (shapeCast S1x512 v32 _) _ (ix2 j m) = _
    rw [broadcastTo_1b_ab_apply, shapeCast_self, hv]
  · show broadcastTo S512x128 (shapeCast S1x128 v58 _) _ (ix2 i s) = _
    rw [broadcastTo_1b_ab_apply, shapeCast_self, h58]

/-- A vector placed as a [1, 1, a] array reads, at (u, u', i), the vector at i. -/
theorem shapeCast_a_11a_apply {α : Type} {a : ℕ} (x : (⟨1, ![a]⟩ : Shape).Idx → α)
    (h : (⟨1, ![a]⟩ : Shape).ShapeCasts ⟨3, ![1, 1, a]⟩) (u u' : Fin 1) (i : Fin a) :
    shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    rw [hu, hu']
    simp)

/-- The stored attention block. -/
theorem pay7_at (v25 v30 : FVec Ideal S512x512 .f32) (qf kf : Fin 512 → Fin 512 → EReal)
    (h25 : ∀ i m, v25 (ix2 i m) = qf i m) (h30 : ∀ i m, v30 (ix2 i m) = kf i m) (u : Fin 1) (i j : Fin 512) :
    k0_pay7 v25 v30 (ix3 u i j) = softmax (scores σ₀ qf kf) i j := by
  unfold k0_pay7
  exact (shapeCast_ab_1ab_apply _ _ u i j).trans (pay6_at v25 v30 qf kf h25 h30 i j)

/-- The stored output block. -/
theorem pay9_at (v20 : FVec Ideal S512x128 .bf16) (v25 v30 v31 : FVec Ideal S512x512 .f32) (v32 : Vec Ideal S1x512 .f32)
    (v58 : Vec Ideal S1x128 .f32) (qf kf vf : Fin 512 → Fin 512 → EReal) (Wf : Fin 128 → Fin 512 → EReal)
    (bf : Fin 128 → EReal) (h25 : ∀ i m, v25 (ix2 i m) = qf i m) (h30 : ∀ i m, v30 (ix2 i m) = kf i m)
    (hv : ∀ j m, v31 (ix2 j m) + v32 (ix2 (0 : Fin 1) m) = vf j m) (h20 : ∀ m s, v20 (ix2 m s) = Wf s m)
    (h58 : ∀ s, v58 (ix2 (0 : Fin 1) s) = bf s) (u : Fin 1) (i : Fin 512) (s : Fin 128) :
    k0_pay9 v20 v25 v30 v31 v32 v58 (ix3 u i s) = lin (mix (softmax (scores σ₀ qf kf)) vf) Wf bf i s := by
  unfold k0_pay9
  exact (shapeCast_ab_1ab_apply _ _ u i s).trans (pay8_at v20 v25 v30 v31 v32 v58 qf kf vf Wf bf h25 h30 hv h20 h58 i s)

/-- The stored partial sums: each row of the output summed. -/
theorem pay10_at (v20 : FVec Ideal S512x128 .bf16) (v25 v30 v31 : FVec Ideal S512x512 .f32) (v32 : Vec Ideal S1x512 .f32)
    (v58 : Vec Ideal S1x128 .f32) (qf kf vf : Fin 512 → Fin 512 → EReal) (Wf : Fin 128 → Fin 512 → EReal)
    (bf : Fin 128 → EReal) (h25 : ∀ i m, v25 (ix2 i m) = qf i m) (h30 : ∀ i m, v30 (ix2 i m) = kf i m)
    (hv : ∀ j m, v31 (ix2 j m) + v32 (ix2 (0 : Fin 1) m) = vf j m) (h20 : ∀ m s, v20 (ix2 m s) = Wf s m)
    (h58 : ∀ s, v58 (ix2 (0 : Fin 1) s) = bf s) (u u' : Fin 1) (i : Fin 512) :
    k0_pay10 v20 v25 v30 v31 v32 v58 (ix3 u u' i)
      = ∑ s : Fin 128, lin (mix (softmax (scores σ₀ qf kf)) vf) Wf bf i s := by
  unfold k0_pay10
  refine (shapeCast_a_11a_apply _ _ u u' i).trans ?_
  exact rowsum_at (k0_pay8 v20 v25 v30 v31 v32 v58) _ _ _ _
    (pay8_at v20 v25 v30 v31 v32 v58 qf kf vf Wf bf h25 h30 hv h20 h58) i

/-- The stored partial sums of squares: each row of the squared output summed. -/
theorem pay11_at (v20 : FVec Ideal S512x128 .bf16) (v25 v30 v31 : FVec Ideal S512x512 .f32) (v32 : Vec Ideal S1x512 .f32)
    (v58 : Vec Ideal S1x128 .f32) (qf kf vf : Fin 512 → Fin 512 → EReal) (Wf : Fin 128 → Fin 512 → EReal)
    (bf : Fin 128 → EReal) (h25 : ∀ i m, v25 (ix2 i m) = qf i m) (h30 : ∀ i m, v30 (ix2 i m) = kf i m)
    (hv : ∀ j m, v31 (ix2 j m) + v32 (ix2 (0 : Fin 1) m) = vf j m) (h20 : ∀ m s, v20 (ix2 m s) = Wf s m)
    (h58 : ∀ s, v58 (ix2 (0 : Fin 1) s) = bf s) (u u' : Fin 1) (i : Fin 512) :
    k0_pay1 (k0_pay11 v20 v25 v30 v31 v32 v58) (ix3 u u' i)
      = ∑ s : Fin 128, lin (mix (softmax (scores σ₀ qf kf)) vf) Wf bf i s
          * lin (mix (softmax (scores σ₀ qf kf)) vf) Wf bf i s := by
  unfold k0_pay1 k0_pay11
  refine (shapeCast_a_11a_apply _ _ u u' i).trans ?_
  refine rowsum_at (mulf (k0_pay8 v20 v25 v30 v31 v32 v58) (k0_pay8 v20 v25 v30 v31 v32 v58)) _ _ _
    (fun i s => lin (mix (softmax (scores σ₀ qf kf)) vf) Wf bf i s * lin (mix (softmax (scores σ₀ qf kf)) vf) Wf bf i s)
    (fun i s => ?_) i
  show k0_pay8 v20 v25 v30 v31 v32 v58 (ix2 i s) * k0_pay8 v20 v25 v30 v31 v32 v58 (ix2 i s) = _
  rw [pay8_at v20 v25 v30 v31 v32 v58 qf kf vf Wf bf h25 h30 hv h20 h58 i s]

/-- The key projection is computed by the same lines as the query projection. -/
theorem pay4_eq (x1 : Vec Ideal S1x512x128 .f32) (x5 : Vec Ideal S128x512 .f32) (x6 : Vec Ideal S1x512 .f32) :
    k0_pay4 x1 x5 x6 = k0_pay3 x1 x5 x6 := rfl

/-- The transposed output weights, read as loaded. -/
theorem pay2_at (x9 : Vec Ideal S512x128 .f32) (m : Fin 512) (s : Fin 128) : k0_pay2 x9 (ix2 m s) = x9 (ix2 m s) := by
  unfold k0_pay2
  show shapeCast S512x128 x9 _ (ix2 m s) = _
  rw [shapeCast_self]

end Cert.Attn.K0

end
-- ==== Proof.K0Blocks.lean ====
/-
  The attention region's output arrays, each as one function of the arrays the region finds.

  The region runs one grid point per batch item.  Point b reads batch item b of the three inputs and the whole of the
  (transposed) weights and (row-shaped) biases, and writes batch item b of each output.  So each output array, after
  the last point, holds at batch item b the body's value of batch item b: the blocks tile the arrays.
-/
import proofs.«176117_j7438883356886_2_alg».proof.Proof.Gen.KernelIdeal.Frame
import proofs.«176117_j7438883356886_2_alg».proof.Proof.K0Pay
import proofs.«176117_j7438883356886_2_alg».proof.Proof.K0Defs
import Idealize.ShloMosaic.Lib.Pipeline.Value

set_option maxRecDepth 16384

noncomputable section

namespace Cert.Attn.K0

open Cert.KernelIdeal Cert.KernelIdeal.Gen Cert.Attn Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- A grid point as a batch coordinate. -/
def tb (t : Fin cfg0.N) : Fin 128 := ⟨t.val, by have h := t.isLt; have hN : cfg0.N = 128 := N_0; omega⟩

/-- The index maps over the grid: the batched windows sit at block (t, 0, 0), the weights and biases at block (0, 0). -/
theorem idx_batched : ∀ t : Fin cfg0.N,
    win0_0.index t = ![t.val, 0, 0] ∧ win0_1.index t = ![t.val, 0, 0] ∧ win0_2.index t = ![t.val, 0, 0]
    ∧ win0_11.index t = ![t.val, 0, 0] ∧ win0_12.index t = ![t.val, 0, 0] ∧ win0_13.index t = ![t.val, 0, 0]
    ∧ win0_14.index t = ![t.val, 0, 0] :=
  (by decide +kernel : ∀ t : Fin grid0.N, _)

theorem idx_whole : ∀ t : Fin cfg0.N,
    win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-! ## The input blocks read at an index -/

theorem iblk0_0_at (c : Dev nD) (t : Fin cfg0.N) (i : Fin 512) (s : Fin 128) :
    (iblk0 V c 0 t : Vec Ideal S1x512x128 .f32) (ix3 (0 : Fin 1) i s) = c3 (V c main_arg0 : A3) (tb t) i s := by
  unfold iblk0 c3
  rw [View.read_apply]
  show (V c main_arg0 : A3) _ = (V c main_arg0 : A3) _
  refine congrArg (V c main_arg0 : A3) (funext fun a => Fin.ext ?_)
  have h := congrFun (idx_batched t).1
  match a with
  | ⟨0, _⟩ => show win0_0.index t 0 * 1 + 1 * 0 = t.val; rw [h 0]; show t.val * 1 + 1 * 0 = t.val; omega
  | ⟨1, _⟩ => show win0_0.index t 1 * 512 + 1 * i.val = i.val; rw [h 1]; show 0 * 512 + 1 * i.val = i.val; omega
  | ⟨2, _⟩ => show win0_0.index t 2 * 128 + 1 * s.val = s.val; rw [h 2]; show 0 * 128 + 1 * s.val = s.val; omega

theorem iblk0_1_at (c : Dev nD) (t : Fin cfg0.N) (i : Fin 512) (s : Fin 128) :
    (iblk0 V c 1 t : Vec Ideal S1x512x128 .f32) (ix3 (0 : Fin 1) i s) = c3 (V c main_arg1 : A3) (tb t) i s := by
  unfold iblk0 c3
  rw [View.read_apply]
  show (V c main_arg1 : A3) _ = (V c main_arg1 : A3) _
  refine congrArg (V c main_arg1 : A3) (funext fun a => Fin.ext ?_)
  have h := congrFun (idx_batched t).2.1
  match a with
  | ⟨0, _⟩ => show win0_1.index t 0 * 1 + 1 * 0 = t.val; rw [h 0]; show t.val * 1 + 1 * 0 = t.val; omega
  | ⟨1, _⟩ => show win0_1.index t 1 * 512 + 1 * i.val = i.val; rw [h 1]; show 0 * 512 + 1 * i.val = i.val; omega
  | ⟨2, _⟩ => show win0_1.index t 2 * 128 + 1 * s.val = s.val; rw [h 2]; show 0 * 128 + 1 * s.val = s.val; omega

theorem iblk0_2_at (c : Dev nD) (t : Fin cfg0.N) (i : Fin 512) (s : Fin 128) :
    (iblk0 V c 2 t : Vec Ideal S1x512x128 .f32) (ix3 (0 : Fin 1) i s) = c3 (V c main_arg2 : A3) (tb t) i s := by
  unfold iblk0 c3
  rw [View.read_apply]
  show (V c main_arg2 : A3) _ = (V c main_arg2 : A3) _
  refine congrArg (V c main_arg2 : A3) (funext fun a => Fin.ext ?_)
  have h := congrFun (idx_batched t).2.2.1
  match a with
  | ⟨0, _⟩ => show win0_2.index t 0 * 1 + 1 * 0 = t.val; rw [h 0]; show t.val * 1 + 1 * 0 = t.val; omega
  | ⟨1, _⟩ => show win0_2.index t 1 * 512 + 1 * i.val = i.val; rw [h 1]; show 0 * 512 + 1 * i.val = i.val; omega
  | ⟨2, _⟩ => show win0_2.index t 2 * 128 + 1 * s.val = s.val; rw [h 2]; show 0 * 128 + 1 * s.val = s.val; omega

theorem iblk0_3_at (c : Dev nD) (t : Fin cfg0.N) (p : Fin 128) (q : Fin 512) :
    (iblk0 V c 3 t : Vec Ideal S128x512 .f32) (ix2 p q) = (V c main_v0 : AF) (ix2 p q) := by
  unfold iblk0
  rw [View.read_apply]
  show (V c main_v0 : AF) _ = (V c main_v0 : AF) _
  refine congrArg (V c main_v0 : AF) (funext fun a => Fin.ext ?_)
  have h := congrFun (idx_whole t).1
  match a with
  | ⟨0, _⟩ => show win0_3.index t 0 * 128 + 1 * p.val = p.val; rw [h 0]; show 0 * 128 + 1 * p.val = p.val; omega
  | ⟨1, _⟩ => show win0_3.index t 1 * 512 + 1 * q.val = q.val; rw [h 1]; show 0 * 512 + 1 * q.val = q.val; omega

theorem iblk0_4_at (c : Dev nD) (t : Fin cfg0.N) (p : Fin 1) (q : Fin 512) :
    (iblk0 V c 4 t : Vec Ideal S1x512 .f32) (ix2 p q) = (V c main_v4 : (⟨2, ![1, 512]⟩ : Shape).Idx → EReal) (ix2 p q) := by
  unfold iblk0
  rw [View.read_apply]
  show (V c main_v4 : (⟨2, ![1, 512]⟩ : Shape).Idx → EReal) _ = (V c main_v4 : (⟨2, ![1, 512]⟩ : Shape).Idx → EReal) _
  refine congrArg (V c main_v4 : (⟨2, ![1, 512]⟩ : Shape).Idx → EReal) (funext fun a => Fin.ext ?_)
  have h := congrFun (idx_whole t).2.1
  match a with
  | ⟨0, _⟩ => show win0_4.index t 0 * 1 + 1 * p.val = p.val; rw [h 0]; show 0 * 1 + 1 * p.val = p.val; omega
  | ⟨1, _⟩ => show win0_4.index t 1 * 512 + 1 * q.val = q.val; rw [h 1]; show 0 * 512 + 1 * q.val = q.val; omega

theorem iblk0_5_at (c : Dev nD) (t : Fin cfg0.N) (p : Fin 128) (q : Fin 512) :
    (iblk0 V c 5 t : Vec Ideal S128x512 .f32) (ix2 p q) = (V c main_v1 : AF) (ix2 p q) := by
  unfold iblk0
  rw [View.read_apply]
  show (V c main_v1 : AF) _ = (V c main_v1 : AF) _
  refine congrArg (V c main_v1 : AF) (funext fun a => Fin.ext ?_)
  have h := congrFun (idx_whole t).2.2.1
  match a with
  | ⟨0, _⟩ => show win0_5.index t 0 * 128 + 1 * p.val = p.val; rw [h 0]; show 0 * 128 + 1 * p.val = p.val; omega
  | ⟨1, _⟩ => show win0_5.index t 1 * 512 + 1 * q.val = q.val; rw [h 1]; show 0 * 512 + 1 * q.val = q.val; omega

theorem iblk0_6_at (c : Dev nD) (t : Fin cfg0.N) (p : Fin 1) (q : Fin 512) :
    (iblk0 V c 6 t : Vec Ideal S1x512 .f32) (ix2 p q) = (V c main_v5 : (⟨2, ![1, 512]⟩ : Shape).Idx → EReal) (ix2 p q) := by
  unfold iblk0
  rw [View.read_apply]
  show (V c main_v5 : (⟨2, ![1, 512]⟩ : Shape).Idx → EReal) _ = (V c main_v5 : (⟨2, ![1, 512]⟩ : Shape).Idx → EReal) _
  refine congrArg (V c main_v5 : (⟨2, ![1, 512]⟩ : Shape).Idx → EReal) (funext fun a => Fin.ext ?_)
  have h := congrFun (idx_whole t).2.2.2.1
  match a with
  | ⟨0, _⟩ => show win0_6.index t 0 * 1 + 1 * p.val = p.val; rw [h 0]; show 0 * 1 + 1 * p.val = p.val; omega
  | ⟨1, _⟩ => show win0_6.index t 1 * 512 + 1 * q.val = q.val; rw [h 1]; show 0 * 512 + 1 * q.val = q.val; omega

theorem iblk0_7_at (c : Dev nD) (t : Fin cfg0.N) (p : Fin 128) (q : Fin 512) :
    (iblk0 V c 7 t : Vec Ideal S128x512 .f32) (ix2 p q) = (V c main_v2 : AF) (ix2 p q) := by
  unfold iblk0
  rw [View.read_apply]
  show (V c main_v2 : AF) _ = (V c main_v2 : AF) _
  refine congrArg (V c main_v2 : AF) (funext fun a => Fin.ext ?_)
  have h := congrFun (idx_whole t).2.2.2.2.1
  match a with
  | ⟨0, _⟩ => show win0_7.index t 0 * 128 + 1 * p.val = p.val; rw [h 0]; show 0 * 128 + 1 * p.val = p.val; omega
  | ⟨1, _⟩ => show win0_7.index t 1 * 512 + 1 * q.val = q.val; rw [h 1]; show 0 * 512 + 1 * q.val = q.val; omega

theorem iblk0_8_at (c : Dev nD) (t : Fin cfg0.N) (p : Fin 1) (q : Fin 512) :
    (iblk0 V c 8 t : Vec Ideal S1x512 .f32) (ix2 p q) = (V c main_v6 : (⟨2, ![1, 512]⟩ : Shape).Idx → EReal) (ix2 p q) := by
  unfold iblk0
  rw [View.read_apply]
  show (V c main_v6 : (⟨2, ![1, 512]⟩ : Shape).Idx → EReal) _ = (V c main_v6 : (⟨2, ![1, 512]⟩ : Shape).Idx → EReal) _
  refine congrArg (V c main_v6 : (⟨2, ![1, 512]⟩ : Shape).Idx → EReal) (funext fun a => Fin.ext ?_)
  have h := congrFun (idx_whole t).2.2.2.2.2.1
  match a with
  | ⟨0, _⟩ => show win0_8.index t 0 * 1 + 1 * p.val = p.val; rw [h 0]; show 0 * 1 + 1 * p.val = p.val; omega
  | ⟨1, _⟩ => show win0_8.index t 1 * 512 + 1 * q.val = q.val; rw [h 1]; show 0 * 512 + 1 * q.val = q.val; omega

theorem iblk0_9_at (c : Dev nD) (t : Fin cfg0.N) (p : Fin 512) (q : Fin 128) :
    (iblk0 V c 9 t : Vec Ideal S512x128 .f32) (ix2 p q) = (V c main_v3 : AW) (ix2 p q) := by
  unfold iblk0
  rw [View.read_apply]
  show (V c main_v3 : AW) _ = (V c main_v3 : AW) _
  refine congrArg (V c main_v3 : AW) (funext fun a => Fin.ext ?_)
  have h := congrFun (idx_whole t).2.2.2.2.2.2.1
  match a with
  | ⟨0, _⟩ => show win0_9.index t 0 * 512 + 1 * p.val = p.val; rw [h 0]; show 0 * 512 + 1 * p.val = p.val; omega
  | ⟨1, _⟩ => show win0_9.index t 1 * 128 + 1 * q.val = q.val; rw [h 1]; show 0 * 128 + 1 * q.val = q.val; omega

theorem iblk0_10_at (c : Dev nD) (t : Fin cfg0.N) (p : Fin 1) (q : Fin 128) :
    (iblk0 V c 10 t : Vec Ideal S1x128 .f32) (ix2 p q) = (V c main_v7 : (⟨2, ![1, 128]⟩ : Shape).Idx → EReal) (ix2 p q) := by
  unfold iblk0
  rw [View.read_apply]
  show (V c main_v7 : (⟨2, ![1, 128]⟩ : Shape).Idx → EReal) _ = (V c main_v7 : (⟨2, ![1, 128]⟩ : Shape).Idx → EReal) _
  refine congrArg (V c main_v7 : (⟨2, ![1, 128]⟩ : Shape).Idx → EReal) (funext fun a => Fin.ext ?_)
  have h := congrFun (idx_whole t).2.2.2.2.2.2.2
  match a with
  | ⟨0, _⟩ => show win0_10.index t 0 * 1 + 1 * p.val = p.val; rw [h 0]; show 0 * 1 + 1 * p.val = p.val; omega
  | ⟨1, _⟩ => show win0_10.index t 1 * 128 + 1 * q.val = q.val; rw [h 1]; show 0 * 128 + 1 * q.val = q.val; omega

/-! ## The body's intermediate values at a point, from the arrays -/

section point
variable (c : Dev nD) (t : Fin cfg0.N)

theorem q_at (i m : Fin 512) :
    k0_pay3 (iblk0 V c 0 t) (iblk0 V c 3 t) (iblk0 V c 4 t) (ix2 i m)
      = lin (c3 (V c main_arg0 : A3) (tb t)) (wT (V c main_v0)) (rowv (V c main_v4)) i m :=
  pay3_at (iblk0 V c 0 t) (iblk0 V c 3 t) (iblk0 V c 4 t) (c3 (V c main_arg0 : A3) (tb t)) (wT (V c main_v0))
    (rowv (V c main_v4)) (iblk0_0_at V c t) (fun s m => iblk0_3_at V c t s m) (fun m => iblk0_4_at V c t 0 m) i m

theorem k_at (i m : Fin 512) :
    k0_pay4 (iblk0 V c 1 t) (iblk0 V c 5 t) (iblk0 V c 6 t) (ix2 i m)
      = lin (c3 (V c main_arg1 : A3) (tb t)) (wT (V c main_v1)) (rowv (V c main_v5)) i m :=
  (congrFun (pay4_eq (iblk0 V c 1 t) (iblk0 V c 5 t) (iblk0 V c 6 t)) (ix2 i m)).trans
    (pay3_at (iblk0 V c 1 t) (iblk0 V c 5 t) (iblk0 V c 6 t) (c3 (V c main_arg1 : A3) (tb t)) (wT (V c main_v1))
      (rowv (V c main_v5)) (iblk0_1_at V c t) (fun s m => iblk0_5_at V c t s m) (fun m => iblk0_6_at V c t 0 m) i m)

theorem v_at (j m : Fin 512) :
    k0_pay5 (iblk0 V c 2 t) (iblk0 V c 7 t) (ix2 j m) + (iblk0 V c 8 t : Vec Ideal S1x512 .f32) (ix2 (0 : Fin 1) m)
      = lin (c3 (V c main_arg2 : A3) (tb t)) (wT (V c main_v2)) (rowv (V c main_v6)) j m := by
  unfold lin
  exact congrArg₂ (· + ·)
    (pay5_at (iblk0 V c 2 t) (iblk0 V c 7 t) (c3 (V c main_arg2 : A3) (tb t)) (wT (V c main_v2)) (iblk0_2_at V c t)
      (fun s m => iblk0_7_at V c t s m) j m)
    (iblk0_8_at V c t 0 m)

theorem wf_at (m : Fin 512) (s : Fin 128) : k0_pay2 (iblk0 V c 9 t) (ix2 m s) = wfT (V c main_v3) s m :=
  (pay2_at (iblk0 V c 9 t) m s).trans (iblk0_9_at V c t m s)

theorem bf_at (s : Fin 128) : (iblk0 V c 10 t : Vec Ideal S1x128 .f32) (ix2 (0 : Fin 1) s) = rowv (V c main_v7) s :=
  iblk0_10_at V c t 0 s

end point

/-! ## Output window 12 -/

/-- Where point t's block of window 12 sits in its array. -/
theorem emb12 (t : Fin cfg0.N) (u : Fin 1) (p : Fin 512) (q : Fin 512) :
    ((cfg0.win 12).blk t).view.emb (ix3 u p q) = (ix3 (tb t) p q : (⟨3, ![128, 512, 512]⟩ : Shape).Idx) := by
  refine funext fun a => Fin.ext ?_
  have h := congrFun (idx_batched t).2.2.2.2.1
  have hu : u.val = 0 := by omega
  match a with
  | ⟨0, _⟩ => show win0_12.index t 0 * 1 + 1 * u.val = t.val; rw [h 0, hu]; show t.val * 1 + 1 * 0 = t.val; omega
  | ⟨1, _⟩ => show win0_12.index t 1 * 512 + 1 * p.val = p.val; rw [h 1]; show 0 * 512 + 1 * p.val = p.val; omega
  | ⟨2, _⟩ => show win0_12.index t 2 * 512 + 1 * q.val = q.val; rw [h 2]; show 0 * 512 + 1 * q.val = q.val; omega

/-- What point t writes back through window 12 is block t of the whole-array function. -/
theorem flushed12 (c : Dev nD) (t : Fin cfg0.N) :
    (dat0 V c).flushed 12 t = ((cfg0.win 12).blk t).view.read (Elt Ideal) (u3 (attnV V c) : (⟨3, ![128, 512, 512]⟩ : Shape).Idx → EReal) := by
  show (cfg0.win 12).cut (grid0.coords t) ((dat0 V c).after 12 t) = _
  rw [after0_12]
  unfold out0_12
  rw [View.canon_unit_zero hz3]
  simp only [View.ld_unit_zero (S := S1x512x128) hz3, View.ld_unit_zero (S := S128x512) hz2, View.ld_unit_zero (S := S1x512) hz2,
    View.ld_unit_zero (S := S512x128) hz2, View.ld_unit_zero (S := S1x128) hz2]
  funext y
  obtain ⟨u, p, q, rfl⟩ : ∃ (u : Fin 1) (p : Fin 512) (q : Fin 512), y = ix3 u p q := ⟨y 0, y 1, y 2, eq_ix3 y⟩
  rw [View.read_apply, emb12 t u p q]
  show k0_pay7 (k0_pay3 (iblk0 V c 0 t) (iblk0 V c 3 t) (iblk0 V c 4 t))
      (k0_pay4 (iblk0 V c 1 t) (iblk0 V c 5 t) (iblk0 V c 6 t)) (ix3 u p q) = attnV V c (tb t) p q
  exact pay7_at (k0_pay3 (iblk0 V c 0 t) (iblk0 V c 3 t) (iblk0 V c 4 t))
      (k0_pay4 (iblk0 V c 1 t) (iblk0 V c 5 t) (iblk0 V c 6 t))
      (lin (c3 (V c main_arg0 : A3) (tb t)) (wT (V c main_v0)) (rowv (V c main_v4)))
      (lin (c3 (V c main_arg1 : A3) (tb t)) (wT (V c main_v1)) (rowv (V c main_v5))) (q_at V c t) (k_at V c t) u p q

/-- Every index of window 12's array lies in the block of the point named by its batch coordinate. -/
theorem cover12 (i : (⟨3, ![128, 512, 512]⟩ : Shape).Idx) :
    ∃ t : Fin cfg0.N, (cfg0.win 12).flush t = true ∧ i ∈ ((cfg0.win 12).blk t).view.set := by
  have h0 : (i 0).val < 128 := (i 0).isLt
  have h1 : (i 1).val < 512 := (i 1).isLt
  have h2 : (i 2).val < 512 := (i 2).isLt
  obtain ⟨t, ht⟩ : ∃ t : Fin cfg0.N, t.val = (i 0).val :=
    ⟨⟨(i 0).val, by rw [show cfg0.N = 128 from N_0]; exact h0⟩, rfl⟩
  refine ⟨t, flush0_12 t, ?_⟩
  show i ∈ ((View.whole main_v8_1).slice (win0_12.rect t)).set
  rw [View.set_slice_whole, Rect.mem_set_unit]
  intro a
  have h := congrFun (idx_batched t).2.2.2.2.1
  match a with
  | ⟨0, _⟩ => show win0_12.index t 0 * 1 ≤ (i 0).val ∧ (i 0).val < win0_12.index t 0 * 1 + 1; rw [h 0]; show t.val * 1 ≤ (i 0).val ∧ (i 0).val < t.val * 1 + 1; omega
  | ⟨1, _⟩ => show win0_12.index t 1 * 512 ≤ (i 1).val ∧ (i 1).val < win0_12.index t 1 * 512 + 512; rw [h 1]; show 0 * 512 ≤ (i 1).val ∧ (i 1).val < 0 * 512 + 512; omega
  | ⟨2, _⟩ => show win0_12.index t 2 * 512 ≤ (i 2).val ∧ (i 2).val < win0_12.index t 2 * 512 + 512; rw [h 2]; show 0 * 512 ≤ (i 2).val ∧ (i 2).val < 0 * 512 + 512; omega

/-- The attention array after the region: at batch item b the attention weights of batch item b. -/
theorem region0_attn (c : Dev nD) : (dat0 (F := Ideal) V c).arrAt 12 cfg0.N = (u3 (attnV V c) : (⟨3, ![128, 512, 512]⟩ : Shape).Idx → EReal) :=
  (dat0 V c).arrAt_eq_of_cover 12 (u3 (attnV V c) : (⟨3, ![128, 512, 512]⟩ : Shape).Idx → EReal) (fun t _ => flushed12 V c t) cover12

/-! ## Output window 11 -/

/-- Where point t's block of window 11 sits in its array. -/
theorem emb11 (t : Fin cfg0.N) (u : Fin 1) (p : Fin 512) (q : Fin 128) :
    ((cfg0.win 11).blk t).view.emb (ix3 u p q) = (ix3 (tb t) p q : (⟨3, ![128, 512, 128]⟩ : Shape).Idx) := by
  refine funext fun a => Fin.ext ?_
  have h := congrFun (idx_batched t).2.2.2.1
  have hu : u.val = 0 := by omega
  match a with
  | ⟨0, _⟩ => show win0_11.index t 0 * 1 + 1 * u.val = t.val; rw [h 0, hu]; show t.val * 1 + 1 * 0 = t.val; omega
  | ⟨1, _⟩ => show win0_11.index t 1 * 512 + 1 * p.val = p.val; rw [h 1]; show 0 * 512 + 1 * p.val = p.val; omega
  | ⟨2, _⟩ => show win0_11.index t 2 * 128 + 1 * q.val = q.val; rw [h 2]; show 0 * 128 + 1 * q.val = q.val; omega

/-- What point t writes back through window 11 is block t of the whole-array function. -/
theorem flushed11 (c : Dev nD) (t : Fin cfg0.N) :
    (dat0 V c).flushed 11 t = ((cfg0.win 11).blk t).view.read (Elt Ideal) (u3 (preV V c) : A3) := by
  show (cfg0.win 11).cut (grid0.coords t) ((dat0 V c).after 11 t) = _
  rw [after0_11]
  unfold out0_11
  rw [View.canon_unit_zero hz3]
  simp only [View.ld_unit_zero (S := S1x512x128) hz3, View.ld_unit_zero (S := S128x512) hz2, View.ld_unit_zero (S := S1x512) hz2,
    View.ld_unit_zero (S := S512x128) hz2, View.ld_unit_zero (S := S1x128) hz2]
  funext y
  obtain ⟨u, p, q, rfl⟩ : ∃ (u : Fin 1) (p : Fin 512) (q : Fin 128), y = ix3 u p q := ⟨y 0, y 1, y 2, eq_ix3 y⟩
  rw [View.read_apply, emb11 t u p q]
  show k0_pay9 (k0_pay2 (iblk0 V c 9 t)) (k0_pay3 (iblk0 V c 0 t) (iblk0 V c 3 t) (iblk0 V c 4 t))
      (k0_pay4 (iblk0 V c 1 t) (iblk0 V c 5 t) (iblk0 V c 6 t)) (k0_pay5 (iblk0 V c 2 t) (iblk0 V c 7 t)) (iblk0 V c 8 t) (iblk0 V c 10 t) (ix3 u p q) = preV V c (tb t) p q
  exact pay9_at (k0_pay2 (iblk0 V c 9 t)) (k0_pay3 (iblk0 V c 0 t) (iblk0 V c 3 t) (iblk0 V c 4 t))
      (k0_pay4 (iblk0 V c 1 t) (iblk0 V c 5 t) (iblk0 V c 6 t)) (k0_pay5 (iblk0 V c 2 t) (iblk0 V c 7 t)) (iblk0 V c 8 t) (iblk0 V c 10 t)
      (lin (c3 (V c main_arg0 : A3) (tb t)) (wT (V c main_v0)) (rowv (V c main_v4)))
      (lin (c3 (V c main_arg1 : A3) (tb t)) (wT (V c main_v1)) (rowv (V c main_v5)))
      (lin (c3 (V c main_arg2 : A3) (tb t)) (wT (V c main_v2)) (rowv (V c main_v6))) (wfT (V c main_v3)) (rowv (V c main_v7))
      (q_at V c t) (k_at V c t) (v_at V c t) (wf_at V c t) (bf_at V c t) u p q

/-- Every index of window 11's array lies in the block of the point named by its batch coordinate. -/
theorem cover11 (i : (⟨3, ![128, 512, 128]⟩ : Shape).Idx) :
    ∃ t : Fin cfg0.N, (cfg0.win 11).flush t = true ∧ i ∈ ((cfg0.win 11).blk t).view.set := by
  have h0 : (i 0).val < 128 := (i 0).isLt
  have h1 : (i 1).val < 512 := (i 1).isLt
  have h2 : (i 2).val < 128 := (i 2).isLt
  obtain ⟨t, ht⟩ : ∃ t : Fin cfg0.N, t.val = (i 0).val :=
    ⟨⟨(i 0).val, by rw [show cfg0.N = 128 from N_0]; exact h0⟩, rfl⟩
  refine ⟨t, flush0_11 t, ?_⟩
  show i ∈ ((View.whole main_v8_0).slice (win0_11.rect t)).set
  rw [View.set_slice_whole, Rect.mem_set_unit]
  intro a
  have h := congrFun (idx_batched t).2.2.2.1
  match a with
  | ⟨0, _⟩ => show win0_11.index t 0 * 1 ≤ (i 0).val ∧ (i 0).val < win0_11.index t 0 * 1 + 1; rw [h 0]; show t.val * 1 ≤ (i 0).val ∧ (i 0).val < t.val * 1 + 1; omega
  | ⟨1, _⟩ => show win0_11.index t 1 * 512 ≤ (i 1).val ∧ (i 1).val < win0_11.index t 1 * 512 + 512; rw [h 1]; show 0 * 512 ≤ (i 1).val ∧ (i 1).val < 0 * 512 + 512; omega
  | ⟨2, _⟩ => show win0_11.index t 2 * 128 ≤ (i 2).val ∧ (i 2).val < win0_11.index t 2 * 128 + 128; rw [h 2]; show 0 * 128 ≤ (i 2).val ∧ (i 2).val < 0 * 128 + 128; omega

/-- The output array after the region: at batch item b the layer's output of batch item b. -/
theorem region0_pre (c : Dev nD) : (dat0 (F := Ideal) V c).arrAt 11 cfg0.N = (u3 (preV V c) : A3) :=
  (dat0 V c).arrAt_eq_of_cover 11 (u3 (preV V c) : A3) (fun t _ => flushed11 V c t) cover11

/-! ## Output window 13 -/

/-- Where point t's block of window 13 sits in its array. -/
theorem emb13 (t : Fin cfg0.N) (u : Fin 1) (p : Fin 1) (q : Fin 512) :
    ((cfg0.win 13).blk t).view.emb (ix3 u p q) = (ix3 (tb t) p q : (⟨3, ![128, 1, 512]⟩ : Shape).Idx) := by
  refine funext fun a => Fin.ext ?_
  have h := congrFun (idx_batched t).2.2.2.2.2.1
  have hu : u.val = 0 := by omega
  match a with
  | ⟨0, _⟩ => show win0_13.index t 0 * 1 + 1 * u.val = t.val; rw [h 0, hu]; show t.val * 1 + 1 * 0 = t.val; omega
  | ⟨1, _⟩ => show win0_13.index t 1 * 1 + 1 * p.val = p.val; rw [h 1]; show 0 * 1 + 1 * p.val = p.val; omega
  | ⟨2, _⟩ => show win0_13.index t 2 * 512 + 1 * q.val = q.val; rw [h 2]; show 0 * 512 + 1 * q.val = q.val; omega

/-- What point t writes back through window 13 is block t of the whole-array function. -/
theorem flushed13 (c : Dev nD) (t : Fin cfg0.N) :
    (dat0 V c).flushed 13 t = ((cfg0.win 13).blk t).view.read (Elt Ideal) (fun j => ∑ s : Fin 128, preV V c (j 0) (j 2) s : (⟨3, ![128, 1, 512]⟩ : Shape).Idx → EReal) := by
  show (cfg0.win 13).cut (grid0.coords t) ((dat0 V c).after 13 t) = _
  rw [after0_13]
  unfold out0_13
  rw [View.canon_unit_zero hz3]
  simp only [View.ld_unit_zero (S := S1x512x128) hz3, View.ld_unit_zero (S := S128x512) hz2, View.ld_unit_zero (S := S1x512) hz2,
    View.ld_unit_zero (S := S512x128) hz2, View.ld_unit_zero (S := S1x128) hz2]
  funext y
  obtain ⟨u, p, q, rfl⟩ : ∃ (u : Fin 1) (p : Fin 1) (q : Fin 512), y = ix3 u p q := ⟨y 0, y 1, y 2, eq_ix3 y⟩
  rw [View.read_apply, emb13 t u p q]
  show k0_pay10 (k0_pay2 (iblk0 V c 9 t)) (k0_pay3 (iblk0 V c 0 t) (iblk0 V c 3 t) (iblk0 V c 4 t))
      (k0_pay4 (iblk0 V c 1 t) (iblk0 V c 5 t) (iblk0 V c 6 t)) (k0_pay5 (iblk0 V c 2 t) (iblk0 V c 7 t)) (iblk0 V c 8 t) (iblk0 V c 10 t) (ix3 u p q) = ∑ s : Fin 128, preV V c (tb t) q s
  exact pay10_at (k0_pay2 (iblk0 V c 9 t)) (k0_pay3 (iblk0 V c 0 t) (iblk0 V c 3 t) (iblk0 V c 4 t))
      (k0_pay4 (iblk0 V c 1 t) (iblk0 V c 5 t) (iblk0 V c 6 t)) (k0_pay5 (iblk0 V c 2 t) (iblk0 V c 7 t)) (iblk0 V c 8 t) (iblk0 V c 10 t)
      (lin (c3 (V c main_arg0 : A3) (tb t)) (wT (V c main_v0)) (rowv (V c main_v4)))
      (lin (c3 (V c main_arg1 : A3) (tb t)) (wT (V c main_v1)) (rowv (V c main_v5)))
      (lin (c3 (V c main_arg2 : A3) (tb t)) (wT (V c main_v2)) (rowv (V c main_v6))) (wfT (V c main_v3)) (rowv (V c main_v7))
      (q_at V c t) (k_at V c t) (v_at V c t) (wf_at V c t) (bf_at V c t) u p q

/-- Every index of window 13's array lies in the block of the point named by its batch coordinate. -/
theorem cover13 (i : (⟨3, ![128, 1, 512]⟩ : Shape).Idx) :
    ∃ t : Fin cfg0.N, (cfg0.win 13).flush t = true ∧ i ∈ ((cfg0.win 13).blk t).view.set := by
  have h0 : (i 0).val < 128 := (i 0).isLt
  have h1 : (i 1).val < 1 := (i 1).isLt
  have h2 : (i 2).val < 512 := (i 2).isLt
  obtain ⟨t, ht⟩ : ∃ t : Fin cfg0.N, t.val = (i 0).val :=
    ⟨⟨(i 0).val, by rw [show cfg0.N = 128 from N_0]; exact h0⟩, rfl⟩
  refine ⟨t, flush0_13 t, ?_⟩
  show i ∈ ((View.whole main_v8_2).slice (win0_13.rect t)).set
  rw [View.set_slice_whole, Rect.mem_set_unit]
  intro a
  have h := congrFun (idx_batched t).2.2.2.2.2.1
  match a with
  | ⟨0, _⟩ => show win0_13.index t 0 * 1 ≤ (i 0).val ∧ (i 0).val < win0_13.index t 0 * 1 + 1; rw [h 0]; show t.val * 1 ≤ (i 0).val ∧ (i 0).val < t.val * 1 + 1; omega
  | ⟨1, _⟩ => show win0_13.index t 1 * 1 ≤ (i 1).val ∧ (i 1).val < win0_13.index t 1 * 1 + 1; rw [h 1]; show 0 * 1 ≤ (i 1).val ∧ (i 1).val < 0 * 1 + 1; omega
  | ⟨2, _⟩ => show win0_13.index t 2 * 512 ≤ (i 2).val ∧ (i 2).val < win0_13.index t 2 * 512 + 512; rw [h 2]; show 0 * 512 ≤ (i 2).val ∧ (i 2).val < 0 * 512 + 512; omega

/-- The partial sums after the region: per batch item and channel, the output summed over the width. -/
theorem region0_sum (c : Dev nD) : (dat0 (F := Ideal) V c).arrAt 13 cfg0.N = (fun j => ∑ s : Fin 128, preV V c (j 0) (j 2) s : (⟨3, ![128, 1, 512]⟩ : Shape).Idx → EReal) :=
  (dat0 V c).arrAt_eq_of_cover 13 (fun j => ∑ s : Fin 128, preV V c (j 0) (j 2) s : (⟨3, ![128, 1, 512]⟩ : Shape).Idx → EReal) (fun t _ => flushed13 V c t) cover13

/-! ## Output window 14 -/

/-- Where point t's block of window 14 sits in its array. -/
theorem emb14 (t : Fin cfg0.N) (u : Fin 1) (p : Fin 1) (q : Fin 512) :
    ((cfg0.win 14).blk t).view.emb (ix3 u p q) = (ix3 (tb t) p q : (⟨3, ![128, 1, 512]⟩ : Shape).Idx) := by
  refine funext fun a => Fin.ext ?_
  have h := congrFun (idx_batched t).2.2.2.2.2.2
  have hu : u.val = 0 := by omega
  match a with
  | ⟨0, _⟩ => show win0_14.index t 0 * 1 + 1 * u.val = t.val; rw [h 0, hu]; show t.val * 1 + 1 * 0 = t.val; omega
  | ⟨1, _⟩ => show win0_14.index t 1 * 1 + 1 * p.val = p.val; rw [h 1]; show 0 * 1 + 1 * p.val = p.val; omega
  | ⟨2, _⟩ => show win0_14.index t 2 * 512 + 1 * q.val = q.val; rw [h 2]; show 0 * 512 + 1 * q.val = q.val; omega

/-- What point t writes back through window 14 is block t of the whole-array function. -/
theorem flushed14 (c : Dev nD) (t : Fin cfg0.N) :
    (dat0 V c).flushed 14 t = ((cfg0.win 14).blk t).view.read (Elt Ideal) (fun j => ∑ s : Fin 128, preV V c (j 0) (j 2) s * preV V c (j 0) (j 2) s : (⟨3, ![128, 1, 512]⟩ : Shape).Idx → EReal) := by
  show (cfg0.win 14).cut (grid0.coords t) ((dat0 V c).after 14 t) = _
  rw [after0_14]
  unfold out0_14
  rw [View.canon_unit_zero hz3]
  simp only [View.ld_unit_zero (S := S1x512x128) hz3, View.ld_unit_zero (S := S128x512) hz2, View.ld_unit_zero (S := S1x512) hz2,
    View.ld_unit_zero (S := S512x128) hz2, View.ld_unit_zero (S := S1x128) hz2]
  funext y
  obtain ⟨u, p, q, rfl⟩ : ∃ (u : Fin 1) (p : Fin 1) (q : Fin 512), y = ix3 u p q := ⟨y 0, y 1, y 2, eq_ix3 y⟩
  rw [View.read_apply, emb14 t u p q]
  show k0_pay1 (k0_pay11 (k0_pay2 (iblk0 V c 9 t)) (k0_pay3 (iblk0 V c 0 t) (iblk0 V c 3 t) (iblk0 V c 4 t))
      (k0_pay4 (iblk0 V c 1 t) (iblk0 V c 5 t) (iblk0 V c 6 t)) (k0_pay5 (iblk0 V c 2 t) (iblk0 V c 7 t)) (iblk0 V c 8 t) (iblk0 V c 10 t)) (ix3 u p q)
      = ∑ s : Fin 128, preV V c (tb t) q s * preV V c (tb t) q s
  exact pay11_at (k0_pay2 (iblk0 V c 9 t)) (k0_pay3 (iblk0 V c 0 t) (iblk0 V c 3 t) (iblk0 V c 4 t))
      (k0_pay4 (iblk0 V c 1 t) (iblk0 V c 5 t) (iblk0 V c 6 t)) (k0_pay5 (iblk0 V c 2 t) (iblk0 V c 7 t)) (iblk0 V c 8 t) (iblk0 V c 10 t)
      (lin (c3 (V c main_arg0 : A3) (tb t)) (wT (V c main_v0)) (rowv (V c main_v4)))
      (lin (c3 (V c main_arg1 : A3) (tb t)) (wT (V c main_v1)) (rowv (V c main_v5)))
      (lin (c3 (V c main_arg2 : A3) (tb t)) (wT (V c main_v2)) (rowv (V c main_v6))) (wfT (V c main_v3)) (rowv (V c main_v7))
      (q_at V c t) (k_at V c t) (v_at V c t) (wf_at V c t) (bf_at V c t) u p q

/-- Every index of window 14's array lies in the block of the point named by its batch coordinate. -/
theorem cover14 (i : (⟨3, ![128, 1, 512]⟩ : Shape).Idx) :
    ∃ t : Fin cfg0.N, (cfg0.win 14).flush t = true ∧ i ∈ ((cfg0.win 14).blk t).view.set := by
  have h0 : (i 0).val < 128 := (i 0).isLt
  have h1 : (i 1).val < 1 := (i 1).isLt
  have h2 : (i 2).val < 512 := (i 2).isLt
  obtain ⟨t, ht⟩ : ∃ t : Fin cfg0.N, t.val = (i 0).val :=
    ⟨⟨(i 0).val, by rw [show cfg0.N = 128 from N_0]; exact h0⟩, rfl⟩
  refine ⟨t, flush0_14 t, ?_⟩
  show i ∈ ((View.whole main_v8_3).slice (win0_14.rect t)).set
  rw [View.set_slice_whole, Rect.mem_set_unit]
  intro a
  have h := congrFun (idx_batched t).2.2.2.2.2.2
  match a with
  | ⟨0, _⟩ => show win0_14.index t 0 * 1 ≤ (i 0).val ∧ (i 0).val < win0_14.index t 0 * 1 + 1; rw [h 0]; show t.val * 1 ≤ (i 0).val ∧ (i 0).val < t.val * 1 + 1; omega
  | ⟨1, _⟩ => show win0_14.index t 1 * 1 ≤ (i 1).val ∧ (i 1).val < win0_14.index t 1 * 1 + 1; rw [h 1]; show 0 * 1 ≤ (i 1).val ∧ (i 1).val < 0 * 1 + 1; omega
  | ⟨2, _⟩ => show win0_14.index t 2 * 512 ≤ (i 2).val ∧ (i 2).val < win0_14.index t 2 * 512 + 512; rw [h 2]; show 0 * 512 ≤ (i 2).val ∧ (i 2).val < 0 * 512 + 512; omega

/-- The partial sums of squares after the region: per batch item and channel, the squared output summed over the width. -/
theorem region0_sumsq (c : Dev nD) : (dat0 (F := Ideal) V c).arrAt 14 cfg0.N = (fun j => ∑ s : Fin 128, preV V c (j 0) (j 2) s * preV V c (j 0) (j 2) s : (⟨3, ![128, 1, 512]⟩ : Shape).Idx → EReal) :=
  (dat0 V c).arrAt_eq_of_cover 14 (fun j => ∑ s : Fin 128, preV V c (j 0) (j 2) s * preV V c (j 0) (j 2) s : (⟨3, ![128, 1, 512]⟩ : Shape).Idx → EReal) (fun t _ => flushed14 V c t) cover14

end Cert.Attn.K0

end
-- ==== Proof.KRegion1.lean ====
/-
  The second kernel's result array as one function of the six arrays the kernel finds, whatever those hold.

  The kernel runs over 128 grid points. At point t it is handed batch item t of the layer's output and of the
  residual (blocks [1, 512, 128]) and four whole [512, 1] columns (mean, variance, scale, shift), and writes back
  batch item t of its result. At one position (t, i, s) the body computes
      residual + max (((output − mean i) · rsqrt (variance i + ε)) · scale i + shift i) 0,
  so every position of the result array, which lies in the block of exactly the point that is its batch coordinate,
  ends holding that value.
-/
import proofs.«176117_j7438883356886_2_alg».proof.Proof.Spec
import proofs.«176117_j7438883356886_2_alg».proof.Proof.Gen.KernelIdeal.Frame
import proofs.«176117_j7438883356886_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.Attn.K

open Cert.KernelIdeal Cert.KernelIdeal.Gen Cert.Attn Idealize.ShloMosaic Idealize.ShloMosaic.ValueIdx Idealize.ShloMosaic.TcCoe Idealize.SL.Sem
open Idealize.ShloMosaic.Pipeline (Dat)

/-- The body's arithmetic at one position of the block: the residual plus the rectified, scaled and shifted
    normalisation of the layer's output, the four per-channel columns read in the position's channel. -/
theorem pay_apply (x0 x1 : Vec Ideal S1x512x128 .f32) (x2 x3 x4 x5 : Vec Ideal S512x1 .f32) (u : Fin 1) (i : Fin 512) (s : Fin 128) :
    k1_pay1 x0 x1 x2 x3 x4 x5 (ix3 u i s) = x1 (ix3 0 i s) + max ((((x0 (ix3 0 i s) - x2 (ix2 i 0)) * Ideal.rsqrt (x3 (ix2 i 0) + ε₀)) * x4 (ix2 i 0)) + x5 (ix2 i 0)) 0 := by
  unfold k1_pay1
  refine (shapeCast_ab_1ab_apply _ _ u i s).trans ?_
  have h1 : shapeCast S512x128 x1 shapeCasts_S1x512x128_S512x128 (ix2 i s) = x1 (ix3 0 i s) :=
    shapeCast_1ab_ab_apply x1 _ i s
  have h0 : shapeCast S512x128 x0 shapeCasts_S1x512x128_S512x128 (ix2 i s) = x0 (ix3 0 i s) :=
    shapeCast_1ab_ab_apply x0 _ i s
  have hc : ∀ x : Vec Ideal S512x1 .f32,
      broadcastTo S512x128 (shapeCast S512x1 x shapeCasts_S512x1_S512x1) broadcasts_S512x1_S512x128 (ix2 i s) = x (ix2 i 0) :=
    fun x => (Cert.Lib.broadcastTo_a1_ab_apply (shapeCast S512x1 x shapeCasts_S512x1_S512x1) broadcasts_S512x1_S512x128 i s).trans
      (congrFun (shapeCast_self x shapeCasts_S512x1_S512x1) (ix2 i 0))
  have h3 : broadcastTo S512x128 (rsqrt (F := Ideal) (addf (F := Ideal) (shapeCast S512x1 x3 shapeCasts_S512x1_S512x1)
        (broadcast S512x1 (FloatOps.ofBits (F := Ideal) FTy.f32 0x3727C5AC#32)))) broadcasts_S512x1_S512x128 (ix2 i s)
      = Ideal.rsqrt (x3 (ix2 i 0) + ε₀) := by
    refine (Cert.Lib.broadcastTo_a1_ab_apply _ broadcasts_S512x1_S512x128 i s).trans ?_
    rw [shapeCast_self] <;> rfl
  have hz : FloatOps.ofBits (F := Ideal) FTy.f32 0x00000000#32 = (0 : EReal) := Ideal.ofBits_zero_f32
  show shapeCast S512x128 x1 shapeCasts_S1x512x128_S512x128 (ix2 i s)
      + max ((((shapeCast S512x128 x0 shapeCasts_S1x512x128_S512x128 (ix2 i s)
          - broadcastTo S512x128 (shapeCast S512x1 x2 shapeCasts_S512x1_S512x1) broadcasts_S512x1_S512x128 (ix2 i s))
          * broadcastTo S512x128 (rsqrt (F := Ideal) (addf (F := Ideal) (shapeCast S512x1 x3 shapeCasts_S512x1_S512x1)
              (broadcast S512x1 (FloatOps.ofBits (F := Ideal) FTy.f32 0x3727C5AC#32)))) broadcasts_S512x1_S512x128 (ix2 i s))
          * broadcastTo S512x128 (shapeCast S512x1 x4 shapeCasts_S512x1_S512x1) broadcasts_S512x1_S512x128 (ix2 i s))
          + broadcastTo S512x128 (shapeCast S512x1 x5 shapeCasts_S512x1_S512x1) broadcasts_S512x1_S512x128 (ix2 i s))
        (FloatOps.ofBits (F := Ideal) FTy.f32 0x00000000#32) = _
  rw [h1, h0, hc x2, h3, hc x4, hc x5, hz]

/-- A [512, 1] column as a function of the channel. -/
def col (X : (⟨2, ![512, 1]⟩ : Shape).Idx → EReal) : Fin 512 → EReal := fun ch => X (ix2 ch (0 : Fin 1))

section Region1

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The grid point as a batch coordinate. -/
abbrev bt (t : Fin cfg1.N) : Fin 128 := ⟨t.val, lt_of_lt_of_eq t.isLt N_1⟩

/-- The printed index maps, decided over the grid: the two [1, 512, 128] input blocks and the output block sit at the
    grid point on the batch axis and at block index 0 on the other two; the four columns are whole. -/
theorem idx_facts : ∀ t : Fin cfg1.N,
    (win1_6.index t (0 : Fin 3) = t.val ∧ win1_6.index t (1 : Fin 3) = 0 ∧ win1_6.index t (2 : Fin 3) = 0)
    ∧ (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0) :=
  (by decide +kernel : ∀ t : Fin grid1.N, _)

/-- The layer-output block at grid point t is batch item t of its array. -/
theorem blk0_apply (c : Dev nD) (t : Fin cfg1.N) (i : Fin 512) (s : Fin 128) :
    (iblk1 V c 0 t : Vec Ideal S1x512x128 .f32) (ix3 (0 : Fin 1) i s)
      = (V c main_v8_0 : S128x512x128.Idx → EReal) (ix3 (bt t) i s) := by
  obtain ⟨-, ⟨e0, e1, e2⟩, -⟩ := idx_facts t
  unfold iblk1
  rw [View.read_apply]
  show V c main_v8_0 _ = V c main_v8_0 _
  refine congrArg (V c main_v8_0) ?_
  funext a
  apply Fin.ext
  match a with
  | ⟨0, _⟩ => show win1_0.index t (0 : Fin 3) * 1 + 1 * 0 = t.val; omega
  | ⟨1, _⟩ => show win1_0.index t (1 : Fin 3) * 512 + 1 * i.val = i.val; omega
  | ⟨2, _⟩ => show win1_0.index t (2 : Fin 3) * 128 + 1 * s.val = s.val; omega

/-- The residual block at grid point t is batch item t of its array. -/
theorem blk1_apply (c : Dev nD) (t : Fin cfg1.N) (i : Fin 512) (s : Fin 128) :
    (iblk1 V c 1 t : Vec Ideal S1x512x128 .f32) (ix3 (0 : Fin 1) i s)
      = (V c main_arg2 : S128x512x128.Idx → EReal) (ix3 (bt t) i s) := by
  obtain ⟨-, -, ⟨e0, e1, e2⟩, -⟩ := idx_facts t
  unfold iblk1
  rw [View.read_apply]
  show V c main_arg2 _ = V c main_arg2 _
  refine congrArg (V c main_arg2) ?_
  funext a
  apply Fin.ext
  match a with
  | ⟨0, _⟩ => show win1_1.index t (0 : Fin 3) * 1 + 1 * 0 = t.val; omega
  | ⟨1, _⟩ => show win1_1.index t (1 : Fin 3) * 512 + 1 * i.val = i.val; omega
  | ⟨2, _⟩ => show win1_1.index t (2 : Fin 3) * 128 + 1 * s.val = s.val; omega

/-- Each column's block is the whole column, at every grid point. -/
theorem blk2_apply (c : Dev nD) (t : Fin cfg1.N) (i : Fin 512) :
    (iblk1 V c 2 t : Vec Ideal S512x1 .f32) (ix2 i (0 : Fin 1)) = col (V c main_v19) i := by
  obtain ⟨-, -, -, ⟨e0, e1⟩, -⟩ := idx_facts t
  unfold iblk1 col
  rw [View.read_apply]
  show V c main_v19 _ = V c main_v19 _
  refine congrArg (V c main_v19) ?_
  funext a
  apply Fin.ext
  match a with
  | ⟨0, _⟩ => show win1_2.index t (0 : Fin 2) * 512 + 1 * i.val = i.val; omega
  | ⟨1, _⟩ => show win1_2.index t (1 : Fin 2) * 1 + 1 * 0 = 0; omega

theorem blk3_apply (c : Dev nD) (t : Fin cfg1.N) (i : Fin 512) :
    (iblk1 V c 3 t : Vec Ideal S512x1 .f32) (ix2 i (0 : Fin 1)) = col (V c main_v20) i := by
  obtain ⟨-, -, -, -, ⟨e0, e1⟩, -⟩ := idx_facts t
  unfold iblk1 col
  rw [View.read_apply]
  show V c main_v20 _ = V c main_v20 _
  refine congrArg (V c main_v20) ?_
  funext a
  apply Fin.ext
  match a with
  | ⟨0, _⟩ => show win1_3.index t (0 : Fin 2) * 512 + 1 * i.val = i.val; omega
  | ⟨1, _⟩ => show win1_3.index t (1 : Fin 2) * 1 + 1 * 0 = 0; omega

theorem blk4_apply (c : Dev nD) (t : Fin cfg1.N) (i : Fin 512) :
    (iblk1 V c 4 t : Vec Ideal S512x1 .f32) (ix2 i (0 : Fin 1)) = col (V c main_v21) i := by
  obtain ⟨-, -, -, -, -, ⟨e0, e1⟩, -⟩ := idx_facts t
  unfold iblk1 col
  rw [View.read_apply]
  show V c main_v21 _ = V c main_v21 _
  refine congrArg (V c main_v21) ?_
  funext a
  apply Fin.ext
  match a with
  | ⟨0, _⟩ => show win1_4.index t (0 : Fin 2) * 512 + 1 * i.val = i.val; omega
  | ⟨1, _⟩ => show win1_4.index t (1 : Fin 2) * 1 + 1 * 0 = 0; omega

theorem blk5_apply (c : Dev nD) (t : Fin cfg1.N) (i : Fin 512) :
    (iblk1 V c 5 t : Vec Ideal S512x1 .f32) (ix2 i (0 : Fin 1)) = col (V c main_v22) i := by
  obtain ⟨-, -, -, -, -, -, ⟨e0, e1⟩⟩ := idx_facts t
  unfold iblk1 col
  rw [View.read_apply]
  show V c main_v22 _ = V c main_v22 _
  refine congrArg (V c main_v22) ?_
  funext a
  apply Fin.ext
  match a with
  | ⟨0, _⟩ => show win1_5.index t (0 : Fin 2) * 512 + 1 * i.val = i.val; omega
  | ⟨1, _⟩ => show win1_5.index t (1 : Fin 2) * 1 + 1 * 0 = 0; omega

/-- The second kernel's result array, as one function of the arrays it finds. -/
abbrev out1 (c : Dev nD) : (⟨3, ![128, 512, 128]⟩ : Shape).Idx → EReal :=
  u3 (fin ε₀ (c3 (V c main_arg2)) (c3 (V c main_v8_0)) (col (V c main_v19)) (col (V c main_v20)) (col (V c main_v21)) (col (V c main_v22)))

/-- What grid point t writes back is batch item t of that function. -/
theorem flushed_eq (c : Dev nD) (t : Fin cfg1.N) :
    (dat1 (F := Ideal) V c).flushed 6 t = ((cfg1.win 6).blk t).view.read (Elt Ideal) (out1 V c) := by
  show (cfg1.win 6).cut (grid1.coords t) ((dat1 V c).after 6 t) = _
  rw [after1_6]
  unfold out1_6
  rw [View.canon_unit_zero zeros3]
  simp only [View.ld_unit_zero (S := S1x512x128) zeros3, View.ld_unit_zero (S := S512x1) zeros2]
  obtain ⟨⟨e0, e1, e2⟩, -⟩ := idx_facts t
  funext j
  have hj0 : (j 0).val < 1 := (j 0).isLt
  have hj1 : (j 1).val < 512 := (j 1).isLt
  have hj2 : (j 2).val < 128 := (j 2).isLt
  have hL : (cfg1.win 6).xinj (grid1.coords t) j = ix3 (⟨(j 0).val, hj0⟩ : Fin 1) (⟨(j 1).val, hj1⟩ : Fin 512) (⟨(j 2).val, hj2⟩ : Fin 128) := by
    funext a
    apply Fin.ext
    match a with
    | ⟨0, _⟩ => rfl
    | ⟨1, _⟩ => rfl
    | ⟨2, _⟩ => rfl
  have hR : ((cfg1.win 6).blk t).view.emb j = ix3 (bt t) (⟨(j 1).val, hj1⟩ : Fin 512) (⟨(j 2).val, hj2⟩ : Fin 128) := by
    funext a
    apply Fin.ext
    match a with
    | ⟨0, _⟩ => show win1_6.index t (0 : Fin 3) * 1 + 1 * (j 0).val = t.val; omega
    | ⟨1, _⟩ => show win1_6.index t (1 : Fin 3) * 512 + 1 * (j 1).val = (j 1).val; omega
    | ⟨2, _⟩ => show win1_6.index t (2 : Fin 3) * 128 + 1 * (j 2).val = (j 2).val; omega
  refine (congrArg (k1_pay1 (iblk1 V c 0 t) (iblk1 V c 1 t) (iblk1 V c 2 t) (iblk1 V c 3 t) (iblk1 V c 4 t) (iblk1 V c 5 t)) hL).trans ?_
  refine (pay_apply (iblk1 V c 0 t) (iblk1 V c 1 t) (iblk1 V c 2 t) (iblk1 V c 3 t) (iblk1 V c 4 t) (iblk1 V c 5 t)
    ⟨(j 0).val, hj0⟩ ⟨(j 1).val, hj1⟩ ⟨(j 2).val, hj2⟩).trans ?_
  rw [blk0_apply V c t ⟨(j 1).val, hj1⟩ ⟨(j 2).val, hj2⟩, blk1_apply V c t ⟨(j 1).val, hj1⟩ ⟨(j 2).val, hj2⟩,
    blk2_apply V c t ⟨(j 1).val, hj1⟩, blk3_apply V c t ⟨(j 1).val, hj1⟩, blk4_apply V c t ⟨(j 1).val, hj1⟩,
    blk5_apply V c t ⟨(j 1).val, hj1⟩]
  show _ = out1 V c (((cfg1.win 6).blk t).view.emb j)
  rw [hR]
  rfl

/-- Every position of the result array lies in the block of the grid point that is its batch coordinate. -/
theorem covered (c : Dev nD) (i : ((cfg1.win 6).arr.view.loc (c.tc : Thread nD τ)).2.ty.Idx) :
    ∃ t : Fin cfg1.N, (cfg1.win 6).flush t = true ∧ i ∈ ((cfg1.win 6).blk t).view.set := by
  have h0 : (i 0).val < 128 := (i 0).isLt
  have h1 : (i 1).val < 512 := (i 1).isLt
  have h2 : (i 2).val < 128 := (i 2).isLt
  have hN : cfg1.N = 128 := N_1
  obtain ⟨t, ht⟩ : ∃ t : Fin cfg1.N, t.val = (i 0).val := ⟨⟨(i 0).val, by omega⟩, rfl⟩
  obtain ⟨⟨e0, e1, e2⟩, -⟩ := idx_facts t
  refine ⟨t, flush1_6 t, ?_⟩
  show i ∈ ((View.whole main_v23).slice (win1_6.rect t)).set
  rw [View.set_slice_whole, Rect.mem_set_unit]
  intro a
  match a with
  | ⟨0, _⟩ =>
    show win1_6.index t (0 : Fin 3) * 1 ≤ (i 0).val ∧ (i 0).val < win1_6.index t (0 : Fin 3) * 1 + 1
    omega
  | ⟨1, _⟩ =>
    show win1_6.index t (1 : Fin 3) * 512 ≤ (i 1).val ∧ (i 1).val < win1_6.index t (1 : Fin 3) * 512 + 512
    omega
  | ⟨2, _⟩ =>
    show win1_6.index t (2 : Fin 3) * 128 ≤ (i 2).val ∧ (i 2).val < win1_6.index t (2 : Fin 3) * 128 + 128
    omega

/-- The second kernel's result array after its last write-back: the residual plus the rectified, scaled and shifted
    normalisation of the layer's output, position by position, from the six arrays the kernel finds. -/
theorem region1_out (c : Dev nD) :
    (dat1 (F := Ideal) V c).arrAt 6 cfg1.N = u3 (fin ε₀ (c3 (V c main_arg2)) (c3 (V c main_v8_0)) (col (V c main_v19)) (col (V c main_v20)) (col (V c main_v21)) (col (V c main_v22))) :=
  (dat1 (F := Ideal) V c).arrAt_eq_of_cover 6 (out1 V c) (fun t _ => flushed_eq V c t) (covered c)

end Region1

end Cert.Attn.K

end
-- ==== Proof.KValue.lean ====
/-
  The kernel program's two result buffers as functions of the launch memory.

  The program runs two regions with layout operations before each. The first region finds the activations as
  launched, the weights transposed and the biases as rows; read back through those layouts they are the layer's own
  weights and biases, so the attention weights and the output before normalisation that the region leaves are the
  layer's, of the launch arrays. It also leaves, per batch item and channel, the sum and the sum of squares of that
  output over the width. Between the regions the program sums these over the batch and divides by the count: the
  channel's mean, and the mean of the squares minus the square of the mean. The second region normalises with these,
  scales, shifts, rectifies and adds the residual. Chaining the equalities gives the two results in the layer's own
  terms: the attention weights, and the normalised output with the variance in its first textbook form.
-/
import proofs.«176117_j7438883356886_2_alg».proof.Proof.Gen.KernelIdeal.Frame
import proofs.«176117_j7438883356886_2_alg».proof.Proof.Spec
import proofs.«176117_j7438883356886_2_alg».proof.Proof.K0Defs
import proofs.«176117_j7438883356886_2_alg».proof.Proof.KHost0
import proofs.«176117_j7438883356886_2_alg».proof.Proof.K0Blocks
import proofs.«176117_j7438883356886_2_alg».proof.Proof.KRun
import proofs.«176117_j7438883356886_2_alg».proof.Proof.KRegion1

noncomputable section

namespace Cert.Attn.KV

open Cert.KernelIdeal Cert.KernelIdeal.Gen Cert.Attn Cert.Attn.K0 Cert.Attn.K0H Cert.Attn.K Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-! ## The arrays the first region finds, read back as the layer's inputs -/

theorem wT_q : wT (V1 m ρ c main_v0) = c2 (m ((c.tc : Thread nD τ).loc main_arg3) : AW) := by
  funext mm s; exact host0_wq m ρ c s mm
theorem wT_k : wT (V1 m ρ c main_v1) = c2 (m ((c.tc : Thread nD τ).loc main_arg5) : AW) := by
  funext mm s; exact host0_wk m ρ c s mm
theorem wT_v : wT (V1 m ρ c main_v2) = c2 (m ((c.tc : Thread nD τ).loc main_arg7) : AW) := by
  funext mm s; exact host0_wv m ρ c s mm
theorem wfT_f : wfT (V1 m ρ c main_v3) = c2 (m ((c.tc : Thread nD τ).loc main_arg9) : AF) := by
  funext s mm; exact host0_wf m ρ c mm s
theorem rowv_bq : rowv (V1 m ρ c main_v4) = c1 (m ((c.tc : Thread nD τ).loc main_arg4) : A512) := by
  funext mm; exact host0_bq m ρ c mm
theorem rowv_bk : rowv (V1 m ρ c main_v5) = c1 (m ((c.tc : Thread nD τ).loc main_arg6) : A512) := by
  funext mm; exact host0_bk m ρ c mm
theorem rowv_bv : rowv (V1 m ρ c main_v6) = c1 (m ((c.tc : Thread nD τ).loc main_arg8) : A512) := by
  funext mm; exact host0_bv m ρ c mm
theorem rowv_bf : rowv (V1 m ρ c main_v7) = c1 (m ((c.tc : Thread nD τ).loc main_arg10) : A128) := by
  funext s; exact host0_bf m ρ c s

/-- The attention weights the first region computes are the layer's, of the launch arrays. -/
theorem attnV_eq : attnV (V1 m ρ) c
    = attnF σ₀ (m ((c.tc : Thread nD τ).loc main_arg0)) (m ((c.tc : Thread nD τ).loc main_arg1))
        (m ((c.tc : Thread nD τ).loc main_arg3)) (m ((c.tc : Thread nD τ).loc main_arg4))
        (m ((c.tc : Thread nD τ).loc main_arg5)) (m ((c.tc : Thread nD τ).loc main_arg6)) := by
  funext b
  unfold attnV attnF
  rw [host0_q, host0_k, wT_q, wT_k, rowv_bq, rowv_bk]

/-- The output before normalisation the first region computes is the layer's, of the launch arrays. -/
theorem preV_eq : preV (V1 m ρ) c
    = preF σ₀ (m ((c.tc : Thread nD τ).loc main_arg0)) (m ((c.tc : Thread nD τ).loc main_arg1))
        (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7)) (m ((c.tc : Thread nD τ).loc main_arg8))
        (m ((c.tc : Thread nD τ).loc main_arg9)) (m ((c.tc : Thread nD τ).loc main_arg10)) := by
  funext b
  unfold preV preF
  rw [host0_q, host0_k, host0_v, wT_q, wT_k, wT_v, wfT_f, rowv_bq, rowv_bk, rowv_bv, rowv_bf]

/-! ## The second result -/

theorem kernel_attn : W4 m ρ c (Proc.devRef .tc main_v8_1)
    = attnArr σ₀ (m ((c.tc : Thread nD τ).loc main_arg0)) (m ((c.tc : Thread nD τ).loc main_arg1))
        (m ((c.tc : Thread nD τ).loc main_arg3)) (m ((c.tc : Thread nD τ).loc main_arg4))
        (m ((c.tc : Thread nD τ).loc main_arg5)) (m ((c.tc : Thread nD τ).loc main_arg6)) := by
  rw [W4_attn, region0_attn, attnV_eq]
  rfl

/-! ## The first result -/

/-- The first region's output before normalisation, as the second region finds it. -/
theorem pre_arr : c3 (V3 m ρ c main_v8_0)
    = preF σ₀ (m ((c.tc : Thread nD τ).loc main_arg0)) (m ((c.tc : Thread nD τ).loc main_arg1))
        (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7)) (m ((c.tc : Thread nD τ).loc main_arg8))
        (m ((c.tc : Thread nD τ).loc main_arg9)) (m ((c.tc : Thread nD τ).loc main_arg10)) := by
  have e : V3 m ρ c main_v8_0 = (u3 (preV (V1 m ρ) c) : A3) :=
    (host1_pre m ρ c).trans ((hF0 m ρ c 11).symm.trans (region0_pre (V1 m ρ) c))
  rw [e, c3_u3, preV_eq]

/-- The per-channel sums the first region leaves. -/
theorem sum_arr (b : Fin 128) (ch : Fin 512) :
    (V2 m ρ c main_v8_2 : (⟨3, ![128, 1, 512]⟩ : Shape).Idx → EReal) (ix3 b (0 : Fin 1) ch)
      = ∑ s : Fin 128, preV (V1 m ρ) c b ch s :=
  congrFun ((hF0 m ρ c 13).symm.trans (region0_sum (V1 m ρ) c)) (ix3 b (0 : Fin 1) ch)

/-- The per-channel sums of squares the first region leaves. -/
theorem sumsq_arr (b : Fin 128) (ch : Fin 512) :
    (V2 m ρ c main_v8_3 : (⟨3, ![128, 1, 512]⟩ : Shape).Idx → EReal) (ix3 b (0 : Fin 1) ch)
      = ∑ s : Fin 128, preV (V1 m ρ) c b ch s * preV (V1 m ρ) c b ch s :=
  congrFun ((hF0 m ρ c 14).symm.trans (region0_sumsq (V1 m ρ) c)) (ix3 b (0 : Fin 1) ch)

/-- The mean column the second region finds is the channel mean of the layer's output. -/
theorem mean_col : col (V3 m ρ c main_v19) = mean N₀ (preV (V1 m ρ) c) := by
  funext ch
  refine (host1_mean m ρ c ch).trans ?_
  exact congrArg (fun x => Ideal.div x N₀) (Finset.sum_congr rfl fun b _ => sum_arr m ρ c b ch)

/-- The variance column the second region finds is the mean of the squares minus the square of the mean. -/
theorem var_col : col (V3 m ρ c main_v20) = varK N₀ (preV (V1 m ρ) c) := by
  funext ch
  refine (host1_var m ρ c ch).trans ?_
  have h1 : ((∑ b : Fin 128, (V2 m ρ c main_v8_2 : (⟨3, ![128, 1, 512]⟩ : Shape).Idx → EReal) (ix3 b (0 : Fin 1) ch)) : EReal)
      = ∑ b : Fin 128, ∑ s : Fin 128, preV (V1 m ρ) c b ch s := Finset.sum_congr rfl fun b _ => sum_arr m ρ c b ch
  have h2 : ((∑ b : Fin 128, (V2 m ρ c main_v8_3 : (⟨3, ![128, 1, 512]⟩ : Shape).Idx → EReal) (ix3 b (0 : Fin 1) ch)) : EReal)
      = ∑ b : Fin 128, ∑ s : Fin 128, preV (V1 m ρ) c b ch s * preV (V1 m ρ) c b ch s :=
    Finset.sum_congr rfl fun b _ => sumsq_arr m ρ c b ch
  rw [h1, h2]
  rfl

theorem gamma_col : col (V3 m ρ c main_v21) = c1 (m ((c.tc : Thread nD τ).loc main_arg11) : A512) := by
  funext ch; exact host1_gamma m ρ c ch

theorem beta_col : col (V3 m ρ c main_v22) = c1 (m ((c.tc : Thread nD τ).loc main_arg12) : A512) := by
  funext ch; exact host1_beta m ρ c ch

theorem kernel_out : W4 m ρ c (Proc.devRef .tc main_v23)
    = outK σ₀ N₀ ε₀ (m ((c.tc : Thread nD τ).loc main_arg0)) (m ((c.tc : Thread nD τ).loc main_arg1))
        (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7)) (m ((c.tc : Thread nD τ).loc main_arg8))
        (m ((c.tc : Thread nD τ).loc main_arg9)) (m ((c.tc : Thread nD τ).loc main_arg10))
        (m ((c.tc : Thread nD τ).loc main_arg11)) (m ((c.tc : Thread nD τ).loc main_arg12)) := by
  rw [W4_out, region1_out, host1_val, pre_arr, mean_col, var_col, gamma_col, beta_col, preV_eq]
  rfl

end Cert.Attn.KV

end
-- ==== Proof.Claims.lean ====
/-
  The certificate's claims.

  Frames: each of the three programs runs and leaves its thirteen argument arrays as launched.
  Idealization: no operation was rewritten, so there is nothing to preserve.
  Values over the extended reals: from memories that agree on the arguments, both programs end with
    result 0 = V + max (((pre − mean) · rsqrt (variance + ε)) · γ + β) 0, the variance as the mean of the squares minus
               the square of the mean, and
    result 1 = the attention weights, the row-wise softmax of (Q · Wqᵀ + bq) · (K · Wkᵀ + bk)ᵀ · σ.
  The kernel's two arrays are these functions of its arguments. The reference's stages give the same attention weights,
  and the normalised layer with the variance as the mean of the squared deviations; the two forms of the variance agree
  where every entry is a real number, which the precondition (every input is finite) provides.
-/
import proofs.«176117_j7438883356886_2_alg».proof.Defs
import proofs.«176117_j7438883356886_2_alg».proof.Proof.Gen.Kernel
import proofs.«176117_j7438883356886_2_alg».proof.Proof.Gen.Kernel.Frame
import proofs.«176117_j7438883356886_2_alg».proof.Proof.Gen.KernelIdeal
import proofs.«176117_j7438883356886_2_alg».proof.Proof.Gen.KernelIdeal.Frame
import proofs.«176117_j7438883356886_2_alg».proof.Proof.Gen.ReferenceIdeal
import proofs.«176117_j7438883356886_2_alg».proof.Proof.Gen.Pre_finite_inputs
import proofs.«176117_j7438883356886_2_alg».proof.Proof.Gen.ReferenceIdeal.Run
import proofs.«176117_j7438883356886_2_alg».proof.Proof.Gen.ReferenceIdeal.Read
import proofs.«176117_j7438883356886_2_alg».proof.Proof.Spec
import proofs.«176117_j7438883356886_2_alg».proof.Proof.RefValue
import proofs.«176117_j7438883356886_2_alg».proof.Proof.Algebra
import proofs.«176117_j7438883356886_2_alg».proof.Proof.PreReal
import proofs.«176117_j7438883356886_2_alg».proof.Proof.KRun
import proofs.«176117_j7438883356886_2_alg».proof.Proof.KValue

noncomputable section

namespace Cert.Proof.AttnClaims

open Idealize.ShloMosaic Idealize.ShloMosaic.TcCoe Idealize.SL.Sem Cert.Attn

/-! ## The three runs leave the arguments unchanged -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-! ## The two results agree -/

/-- On arrays that agree with real-valued ones, the normalised layer with the variance as the mean of squared
    deviations is the one with the variance as the mean of squares minus the squared mean. -/
theorem first_eq (a0 a1 a2 : A3) (a3 : AW) (a4 : A512) (a5 : AW) (a6 : A512) (a7 : AW) (a8 : A512) (a9 : AF) (a10 : A128) (a11 a12 : A512)
    (b0 b1 b2 : A3) (b3 : AW) (b4 : A512) (b5 : AW) (b6 : A512) (b7 : AW) (b8 : A512) (b9 : AF) (b10 : A128) (b11 b12 : A512)
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12)
    (r0 : ∀ i, IsReal (b0 i)) (r1 : ∀ i, IsReal (b1 i)) (r2 : ∀ i, IsReal (b2 i)) (r3 : ∀ i, IsReal (b3 i)) (r4 : ∀ i, IsReal (b4 i)) (r5 : ∀ i, IsReal (b5 i)) (r6 : ∀ i, IsReal (b6 i)) (r7 : ∀ i, IsReal (b7 i)) (r8 : ∀ i, IsReal (b8 i)) (r9 : ∀ i, IsReal (b9 i)) (r10 : ∀ i, IsReal (b10 i)) :
    outR σ₀ N₀ ε₀ a0 a1 a2 a3 a4 a5 a6 a7 a8 a9 a10 a11 a12 = outK σ₀ N₀ ε₀ b0 b1 b2 b3 b4 b5 b6 b7 b8 b9 b10 b11 b12 := by
  subst h0 h1 h2 h3 h4 h5 h6 h7 h8 h9 h10 h11 h12
  exact outR_eq_outK σ₀ N₀ ε₀ sigma_real N_val _ _ _ _ _ _ _ _ _ _ _ _ _ r0 r1 r2 r3 r4 r5 r6 r7 r8 r9 r10

/-- The attention weights of arrays that agree. -/
theorem second_eq (a0 a1 : A3) (a3 : AW) (a4 : A512) (a5 : AW) (a6 : A512) (b0 b1 : A3) (b3 : AW) (b4 : A512) (b5 : AW)
    (b6 : A512) (h0 : a0 = b0) (h1 : a1 = b1) (h3 : a3 = b3) (h4 : a4 = b4) (h5 : a5 = b5) (h6 : a6 = b6) :
    attnArr σ₀ a0 a1 a3 a4 a5 a6 = attnArr σ₀ b0 b1 b3 b4 b5 b6 := by
  subst h0 h1 h3 h4 h5 h6; rfl

/-- At the ideal values, from memories that agree on the thirteen arguments, both programs end with the normalised
    layer and the attention weights of the launch arrays: the kernel's two arrays are these functions of its arguments,
    the reference's stages are the same functions of its own, and under the precondition every entry is a real, where
    the two forms of the variance coincide. -/
theorem algebraic : Cert.algebraic_KernelIdeal_ReferenceIdeal := by
  intro m ρ m' ρ' hpre hagree
  refine ⟨fun c => outK σ₀ N₀ ε₀ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => attnArr σ₀ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Attn.KV.kernel_out m ρ c), (h c).2.1.trans (Cert.Attn.KV.kernel_attn m ρ c), (h c).2.2⟩)
      (Cert.Attn.K.run_results m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12⟩ := hagree c
      obtain ⟨r0, r1, r2, r3, r4, r5, r6, r7, r8, r9, r10, -, -⟩ := Cert.Attn.PreReal.real_of_pre m hpre c
      exact (Cert.ReferenceIdeal.Read.val_main_v56_eq m' c).trans
        ((Cert.Attn.Ref.ref_out _ _ _ _ _ _ _ _ _ _ _ _ _).trans
          (first_eq _ _ _ _ _ _ _ _ _ _ _ _ _ _ _ _ _ _ _ _ _ _ _ _ _ _ h0 h1 h2 h3 h4 h5 h6 h7 h8 h9 h10 h11 h12
            r0 r1 r2 r3 r4 r5 r6 r7 r8 r9 r10))
    · obtain ⟨h0, h1, -, h3, h4, h5, h6, -⟩ := hagree c
      exact (Cert.ReferenceIdeal.Read.val_main_v25_eq m' c).trans
        ((Cert.Attn.Ref.ref_attn _ _ _ _ _ _).trans (second_eq _ _ _ _ _ _ _ _ _ _ _ _ h0 h1 h3 h4 h5 h6))

end Cert.Proof.AttnClaims

end
-- ==== Proof.lean ====
/- The certificate's conjunction: the three programs run and leave their arguments unchanged, the idealization rewrote
   nothing, and at the extended reals the kernel and the reference, from memories that agree on the arguments, end with
   the same normalised attention layer V + max (((pre − mean) · rsqrt (variance + ε)) · γ + β) 0 and the same attention
   weights. The claims are proved in Proof/Claims.lean; here they are assembled behind the witnesses of the programs'
   stated side conditions. -/
import proofs.«176117_j7438883356886_2_alg».proof.Defs
import proofs.«176117_j7438883356886_2_alg».proof.Proof.Gen.Kernel
import proofs.«176117_j7438883356886_2_alg».proof.Proof.Gen.Kernel.Skeleton
import proofs.«176117_j7438883356886_2_alg».proof.Proof.Gen.Kernel.Launch
import proofs.«176117_j7438883356886_2_alg».proof.Proof.Gen.Kernel.Points
import proofs.«176117_j7438883356886_2_alg».proof.Proof.Gen.Kernel.Frame
import proofs.«176117_j7438883356886_2_alg».proof.Proof.Gen.KernelIdeal
import proofs.«176117_j7438883356886_2_alg».proof.Proof.Gen.KernelIdeal.Skeleton
import proofs.«176117_j7438883356886_2_alg».proof.Proof.Gen.KernelIdeal.Launch
import proofs.«176117_j7438883356886_2_alg».proof.Proof.Gen.KernelIdeal.Points
import proofs.«176117_j7438883356886_2_alg».proof.Proof.Gen.KernelIdeal.Frame
import proofs.«176117_j7438883356886_2_alg».proof.Proof.Gen.ReferenceIdeal
import proofs.«176117_j7438883356886_2_alg».proof.Proof.Gen.Pre_finite_inputs
import proofs.«176117_j7438883356886_2_alg».proof.Proof.Gen.ReferenceIdeal.Run
import proofs.«176117_j7438883356886_2_alg».proof.Proof.Gen.ReferenceIdeal.Read
import proofs.«176117_j7438883356886_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  AttnClaims.frame_k, AttnClaims.frame_ki, AttnClaims.frame_ri, AttnClaims.preserves, AttnClaims.algebraic⟩

end Cert.Proof

end
